-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S65536 : Shape := ⟨1, ![65536]⟩
abbrev S512 : Shape := ⟨1, ![512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S65536x512 .f32) (main_arg1 : IVec S65536 1) (main_arg2 : FVec F S512 .f32) (main_arg3 : FVec F S512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S512 .f32 := Host.absf main_arg2
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S65536x512 : Shape := ⟨2, ![65536, 512]⟩
abbrev S65536 : Shape := ⟨1, ![65536]⟩
abbrev S512 : Shape := ⟨1, ![512]⟩
abbrev S65536x1 : Shape := ⟨2, ![65536, 1]⟩
abbrev S1x512 : Shape := ⟨2, ![1, 512]⟩
abbrev S3x512 : Shape := ⟨2, ![3, 512]⟩
abbrev S1024x512 : Shape := ⟨2, ![1024, 512]⟩
abbrev S1024x1 : Shape := ⟨2, ![1024, 1]⟩
abbrev S1x1 : Shape := ⟨2, ![1, 1]⟩
abbrev S1 : Shape := ⟨1, ![1]⟩

abbrev nBuf : Space → Nat
  | .hbm => 10
  | .vmem => 19
  | .smem => 0
  | _ => 0

abbrev bufTy : (tb : Table) → Fin (tcTables nBuf tb) → BufTy
  | .hbm, ⟨0, _⟩ => ⟨S65536x512, .f32⟩
  | .hbm, ⟨1, _⟩ => ⟨S65536, .i1⟩
  | .hbm, ⟨2, _⟩ => ⟨S512, .f32⟩
  | .hbm, ⟨3, _⟩ => ⟨S512, .f32⟩
  | .hbm, ⟨4, _⟩ => ⟨S65536, .f32⟩
  | .hbm, ⟨5, _⟩ => ⟨S65536x1, .f32⟩
  | .hbm, ⟨6, _⟩ => ⟨S1x512, .f32⟩
  | .hbm, ⟨7, _⟩ => ⟨S1x512, .f32⟩
  | .hbm, ⟨8, _⟩ => ⟨S3x512, .f32⟩
  | .hbm, ⟨9, _⟩ => ⟨S65536x512, .f32⟩
  | .local _ .vmem, ⟨0, _⟩ => ⟨S1024x512, .f32⟩
  | .local _ .vmem, ⟨1, _⟩ => ⟨S1024x512, .f32⟩
  | .local _ .vmem, ⟨2, _⟩ => ⟨S1024x1, .f32⟩
  | .local _ .vmem, ⟨3, _⟩ => ⟨S1024x1, .f32⟩
  | .local _ .vmem, ⟨4, _⟩ => ⟨S3x512, .f32⟩
  | .local _ .vmem, ⟨5, _⟩ => ⟨S1x512, .f32⟩
  | .local _ .vmem, ⟨6, _⟩ => ⟨S1x512, .f32⟩
  | .local _ .vmem, ⟨7, _⟩ => ⟨S1x1, .f32⟩
  | .local _ .vmem, ⟨8, _⟩ => ⟨S1024x512, .f32⟩
  | .local _ .vmem, ⟨9, _⟩ => ⟨S1024x512, .f32⟩
  | .local _ .vmem, ⟨10, _⟩ => ⟨S1024x1, .f32⟩
  | .local _ .vmem, ⟨11, _⟩ => ⟨S1024x1, .f32⟩
  | .local _ .vmem, ⟨12, _⟩ => ⟨S3x512, .f32⟩
  | .local _ .vmem, ⟨13, _⟩ => ⟨S1x512, .f32⟩
  | .local _ .vmem, ⟨14, _⟩ => ⟨S1x512, .f32⟩
  | .local _ .vmem, ⟨15, _⟩ => ⟨S1024x512, .f32⟩
  | .local _ .vmem, ⟨16, _⟩ => ⟨S1024x512, .f32⟩
  | .local _ .vmem, ⟨17, _⟩ => ⟨S1x512, .f32⟩
  | .local _ .vmem, ⟨18, _⟩ => ⟨S1x512, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_scratch0 : Ref sig .tc := ⟨.vmem, 17, rfl⟩
abbrev cc1_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v31 : BitVec 1 := Scalar.cmpi .eq arg0 c63_i32
  let v32 : BitVec 32 := Scalar.extui v31
  let c0_i32_18 : BitVec 32 := 0#32
  let v33 : BitVec 1 := Scalar.cmpi .ne v32 c0_i32_18
  v33

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S3x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S65536_S65536x1 : S65536.ShapeCasts S65536x1
  shapeCasts_S512_S1x512 : S512.ShapeCasts S1x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x512_S1024x512_0_0 : ∀ a, (![0, 0] : Fin 2 → Nat) a + S1024x512.size a ≤ S1024x512.size a
  h_S1024x512 : 0 < S1024x512.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x512 : S1024x1.Broadcasts S1024x512
  reduces_S1024x512_S512 : S1024x512.Reduces [0] S512
  reduces_S1024x1_S1 : S1024x1.Reduces [0] S1
  shapeCasts_S1_S1x1 : S1.ShapeCasts S1x1
  inb_S3x512_S1x512_0_0 : ∀ a, (![0, 0] : Fin 2 → Nat) a + S1x512.size a ≤ S3x512.size a
  inb_S3x512_S1x512_1_0 : ∀ a, (![1, 0] : Fin 2 → Nat) a + S1x512.size a ≤ S3x512.size a
  broadcasts_S1x1_S1x512 : S1x1.Broadcasts S1x512
  inb_S3x512_S1x512_2_0 : ∀ a, (![2, 0] : Fin 2 → Nat) a + S1x512.size a ≤ S3x512.size a
  broadcasts_S1x512_S1024x512 : S1x512.Broadcasts S1024x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S65536x512.size a
  hwx0_0 : ∀ i : grid0.Coords, EltTy.bits .f32 = 32 ∨ (Rect.block (s := S65536x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S65536x1.size a
  hwx0_1 : ∀ i : grid0.Coords, EltTy.bits .f32 = 32 ∨ (Rect.block (s := S65536x1) S1024x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x512.size a ≤ S3x512.size a
  hwx0_2 : ∀ i : grid0.Coords, EltTy.bits .f32 = 32 ∨ (Rect.block (s := S3x512) S3x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S65536x512.size a
  hwx1_0 : ∀ i : grid1.Coords, EltTy.bits .f32 = 32 ∨ (Rect.block (s := S65536x512) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S65536x1.size a
  hwx1_1 : ∀ i : grid1.Coords, EltTy.bits .f32 = 32 ∨ (Rect.block (s := S65536x1) S1024x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3x512.size a ≤ S3x512.size a
  hwx1_2 : ∀ i : grid1.Coords, EltTy.bits .f32 = 32 ∨ (Rect.block (s := S3x512) S3x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x512.size a ≤ S65536x512.size a
  hwx1_5 : ∀ i : grid1.Coords, EltTy.bits .f32 = 32 ∨ (Rect.block (s := S65536x512) S1024x512.size (cc1_transform_5 i) (hinb1_5 i)).WholeWords (EltTy.packing .f32)

variable [Facts₀]

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S3x512.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S3x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1024x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S65536x512 : Shape := ⟨2, ![65536, 512]⟩
abbrev S65536 : Shape := ⟨1, ![65536]⟩
abbrev S512 : Shape := ⟨1, ![512]⟩
abbrev S65536x1 : Shape := ⟨2, ![65536, 1]⟩
abbrev S_ : Shape := ⟨0, ![]⟩
abbrev S1x512 : Shape := ⟨2, ![1, 512]⟩

abbrev nBuf : Space → Nat
  | .hbm => 44
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536, .i1⟩
  | .hbm, ⟨2, _⟩ => ⟨S512, .f32⟩
  | .hbm, ⟨3, _⟩ => ⟨S512, .f32⟩
  | .hbm, ⟨4, _⟩ => ⟨S65536x1, .i1⟩
  | .hbm, ⟨5, _⟩ => ⟨S65536x1, .f32⟩
  | .hbm, ⟨6, _⟩ => ⟨S65536, .f32⟩
  | .hbm, ⟨7, _⟩ => ⟨S_, .f32⟩
  | .hbm, ⟨8, _⟩ => ⟨S_, .f32⟩
  | .hbm, ⟨9, _⟩ => ⟨S65536x512, .f32⟩
  | .hbm, ⟨10, _⟩ => ⟨S65536x512, .f32⟩
  | .hbm, ⟨11, _⟩ => ⟨S_, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S1x512, .f32⟩
  | .hbm, ⟨16, _⟩ => ⟨S65536x512, .f32⟩
  | .hbm, ⟨17, _⟩ => ⟨S65536x512, .f32⟩
  | .hbm, ⟨18, _⟩ => ⟨S65536x512, .f32⟩
  | .hbm, ⟨19, _⟩ => ⟨S65536x512, .f32⟩
  | .hbm, ⟨20, _⟩ => ⟨S65536x512, .f32⟩
  | .hbm, ⟨21, _⟩ => ⟨S_, .f32⟩
  | .hbm, ⟨22, _⟩ => ⟨S512, .f32⟩
  | .hbm, ⟨23, _⟩ => ⟨S512, .f32⟩
  | .hbm, ⟨24, _⟩ => ⟨S512, .f32⟩
  | .hbm, ⟨25, _⟩ => ⟨S1x512, .f32⟩
  | .hbm, ⟨26, _⟩ => ⟨S65536x512, .f32⟩
  | .hbm, ⟨27, _⟩ => ⟨S65536x512, .f32⟩
  | .hbm, ⟨28, _⟩ => ⟨S_, .f32⟩
  | .hbm, ⟨29, _⟩ => ⟨S512, .f32⟩
  | .hbm, ⟨30, _⟩ => ⟨S512, .f32⟩
  | .hbm, ⟨31, _⟩ => ⟨S512, .f32⟩
  | .hbm, ⟨32, _⟩ => ⟨S1x512, .f32⟩
  | .hbm, ⟨33, _⟩ => ⟨S65536x512, .f32⟩
  | .hbm, ⟨34, _⟩ => ⟨S65536x512, .f32⟩
  | .hbm, ⟨35, _⟩ => ⟨S1x512, .f32⟩
  | .hbm, ⟨36, _⟩ => ⟨S65536x512, .f32⟩
  | .hbm, ⟨37, _⟩ => ⟨S65536x512, .f32⟩
  | .hbm, ⟨38, _⟩ => ⟨S1x512, .f32⟩
  | .hbm, ⟨39, _⟩ => ⟨S65536x512, .f32⟩
  | .hbm, ⟨40, _⟩ => ⟨S65536x512, .f32⟩
  | .hbm, ⟨41, _⟩ => ⟨S65536x1, .i1⟩
  | .hbm, ⟨42, _⟩ => ⟨S65536x512, .i1⟩
  | .hbm, ⟨43, _⟩ => ⟨S65536x512, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_call0_v0 : Ref sig .tc := ⟨.hbm, 42, rfl⟩
abbrev main_v34 : Ref sig .tc := ⟨.hbm, 43, rfl⟩

abbrev nD : Nat := 1
abbrev τ : Topo := Topo.v7x

variable {F : FTy → Type} [FloatOps F]

class Facts₀ : Prop where
  bcast_S65536_S65536x1_0 : S65536.BroadcastsInDim S65536x1 (![0] : Fin 1 → Fin S65536x1.rank)
  reducesTo_S65536_S_d0 : S65536.ReducesTo [0] S_
  h_S_ : 0 < S_.numel
  bcast_S65536x1_S65536x512_0_1 : S65536x1.BroadcastsInDim S65536x512 (![0, 1] : Fin 2 → Fin S65536x512.rank)
  reducesTo_S65536x512_S512_d0 : S65536x512.ReducesTo [0] S512
  bcast_S_S512 : S_.BroadcastsInDim S512 (![] : Fin 0 → Fin S512.rank)
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)

variable [Facts₀]

class Facts : Prop extends Facts₀ where

variable [Facts]
-- ==== Proof.K.Acc.lean ====
/-
  What the two kernels keep between grid points, and what they store, as pure functions of the
  blocks they are handed — stated once, for any float instance.

  The first kernel walks the 64 row blocks of `x` (1024 rows each) and of the mask column, keeping
  three running values in scratch: the column sums of `x·m`, the column sums of `(x·m)·x`, and the
  sum of `m`. At the first block the three start from zero. At the last block it stores them as
  the three rows of a 3×512 array (the count broadcast along the row).

  The second kernel turns those three rows, `gamma` and `beta` into two coefficient rows at its
  first block (kept in scratch, unchanged afterwards) and at every block stores
  `x + (x·c + b)·m`.
-/
import proofs.«103854_g2027224563999_cont_sun_m_333_3_alg».proof.Proof.Gen.Kernel.Launch
import proofs.«103854_g2027224563999_cont_sun_m_333_3_alg».proof.Proof.Gen.Kernel.Skeleton
import proofs.«103854_g2027224563999_cont_sun_m_333_3_alg».proof.Proof.Gen.Kernel.Points
import Idealize.ShloMosaic.Lib.Pipeline.FrameBody

set_option maxRecDepth 16384

noncomputable section

namespace Cert.Kernel.Fr

open Idealize.ShloMosaic Idealize.ShloMosaic.TcCoe
open Idealize.SL Idealize.SL.Sem
open Cert.Kernel Cert.Kernel.Gen

variable {F : FTy → Type} [FloatOps F]

-- the TensorCore's buffer contents when a region is entered
variable (V : (c : Dev nD) → (b : Ref sig .tc) → Buf (Elt F) ((c : Thread nD τ).loc b))

/-! ## The first kernel (row and count sums) -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three running values: sums of `x·m`, sums of `(x·m)·x`, sum of `m`. -/
abbrev Sc0 (F : FTy → Type) [FloatOps F] : Type := Vec F S1x512 .f32 × Vec F S1x512 .f32 × Vec F S1x1 .f32

/-- The running values before the first block: zeros. -/
def zero0 : Sc0 F := (k0_pay2, k0_pay3, k0_pay4)

/-- One block folded into the running values: each gains the block's column sums. -/
def step0 (x0 : Vec F S1024x512 .f32) (x1 : Vec F S1024x1 .f32) (a : Sc0 F) : Sc0 F :=
  (k0_pay7 x0 x1 a.1, k0_pay8 x0 x1 a.2.1, k0_pay9 x1 a.2.2)

/-- The running values after grid point `n`. -/
def acc0 (c : Dev nD) : (n : ℕ) → n < cfg0.N → Sc0 F
  | 0, hn => step0 (iblk0 V c 0 ⟨0, hn⟩) (iblk0 V c 1 ⟨0, hn⟩) zero0
  | n + 1, hn => step0 (iblk0 V c 0 ⟨n + 1, hn⟩) (iblk0 V c 1 ⟨n + 1, hn⟩) (acc0 c n (Nat.lt_of_succ_lt hn))

theorem acc0_zero (c : Dev nD) (hn : 0 < cfg0.N) :
    acc0 V c 0 hn = step0 (iblk0 V c 0 ⟨0, hn⟩) (iblk0 V c 1 ⟨0, hn⟩) zero0 := rfl
theorem acc0_succ (c : Dev nD) (n : ℕ) (hn : n + 1 < cfg0.N) :
    acc0 V c (n + 1) hn = step0 (iblk0 V c 0 ⟨n + 1, hn⟩) (iblk0 V c 1 ⟨n + 1, hn⟩) (acc0 V c n (Nat.lt_of_succ_lt hn)) := rfl

/-- The three rows of the 3×512 result. -/
abbrev row0 : Rect S3x512 := Rect.unit (s := S3x512) ![0, 0] S1x512.size inb_S3x512_S1x512_0_0
abbrev row1 : Rect S3x512 := Rect.unit (s := S3x512) ![1, 0] S1x512.size inb_S3x512_S1x512_1_0
abbrev row2 : Rect S3x512 := Rect.unit (s := S3x512) ![2, 0] S1x512.size inb_S3x512_S1x512_2_0

/-- What the last block's stores leave in the 3×512 result: the three running values as its rows
    (the pieces last-stored first). -/
def out0 (a : Sc0 F) : Vec F S3x512 .f32 :=
  View.canon [⟨row2, k0_pay1 a.2.2⟩, ⟨row1, a.2.1⟩, ⟨row0, a.1⟩]

/-! ## The second kernel (the affine map applied) -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two coefficient rows. -/
abbrev Sc1 (F : FTy → Type) [FloatOps F] : Type := Vec F S1x512 .f32 × Vec F S1x512 .f32

/-- The coefficient rows from the 3×512 sums `s`, `gamma` (`g`) and `beta` (`b`). -/
def coef1 (s : Vec F S3x512 .f32) (g b : Vec F S1x512 .f32) : Sc1 F :=
  (k1_pay4 (View.ld s row2) (View.ld s row0) (View.ld s row1) g,
   k1_pay5 (View.ld s row2) (View.ld s row0) (View.ld s row1) g b)

/-- The coefficient rows the first grid point computes; every later point finds them unchanged. -/
def acc1 (c : Dev nD) : Sc1 F :=
  coef1 (iblk1 V c 2 ⟨0, by decide⟩) (iblk1 V c 3 ⟨0, by decide⟩) (iblk1 V c 4 ⟨0, by decide⟩)

/-- What a grid point stores in its block of the result. -/
def out1 (x0 : Vec F S1024x512 .f32) (x1 : Vec F S1024x1 .f32) (a : Sc1 F) : Vec F S1024x512 .f32 :=
  k1_pay6 x0 x1 a.1 a.2

end Cert.Kernel.Fr

end
-- ==== Proof.K.R0Runs.lean ====
/-
  The first kernel's frame, the part its three control cases share: the two branch conditions
  in closed form over the grid, where the result window is idle, the staging and scratch memrefs
  as the pipeline passes them, and the region's entry invariant written buffer by buffer.
-/
import proofs.«103854_g2027224563999_cont_sun_m_333_3_alg».proof.Proof.Gen.Kernel.Launch
import proofs.«103854_g2027224563999_cont_sun_m_333_3_alg».proof.Proof.Gen.Kernel.Skeleton
import proofs.«103854_g2027224563999_cont_sun_m_333_3_alg».proof.Proof.Gen.Kernel.Points
import Idealize.ShloMosaic.Lib.Pipeline.FrameBody
import Idealize.ShloMosaic.Lib.Pipeline.Value
import Idealize.ShloMosaic.Lib.Ring
import Idealize.ShloMosaic.Lib.Tactic
import proofs.«103854_g2027224563999_cont_sun_m_333_3_alg».proof.Proof.K.Acc

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-! ## The body's two branch conditions -/

/-- "This is the first block": the condition of the branch that zeroes the running sums, as the
    body computes it from the grid coordinate. -/
abbrev cond0_0 (i : grid0.Coords) : Prop := (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val = 0 :=
  (by decide +kernel : ∀ t : Fin grid0.N, cond0_0 (grid0.coords t) ↔ t.val = 0)

/-- "This is the last block": the condition of the branch that stores the three rows. -/
abbrev cond0_1 (i : grid0.Coords) : Prop := k0_cond2 i = 1#1
/-- It holds at point 63 only. -/
theorem hcond0_1 : ∀ t : Fin cfg0.N, cond0_1 (grid0.coords t) ↔ t.val = 63 :=
  (by decide +kernel : ∀ t : Fin grid0.N, cond0_1 (grid0.coords t) ↔ t.val = 63)

/-! ## Where the windows are idle -/

/-- The two input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Away from the last point the result window is idle (nothing is stored into it) and its block
    is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last point it is live. -/
theorem liveAt0_2 : ∀ t : Fin cfg0.N, cond0_1 (grid0.coords t) → cfg0.idle 2 (grid0.coords t) = false := by decide +kernel

/-! ## The memrefs the body is called with -/

/-- Each window's current staging memref at point `t`, spelled as the pipeline passes it, and its wholeness. -/
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x512 .f32 := win0_2.stage (cfg0.slots t 2)
abbrev hs0_2 (t : Fin cfg0.N) : (ms0_2 t).IsWhole := hstage0_2 ((cfg0.slots t 2).cast nbuf0_2)
/-- The three scratch operands: whole scoped buffers of the kernel's own, passed beside the windows. -/
abbrev scM0_0 : Memref sig .tc .vmem S1x512 .f32 := Memref.whole cc0_scratch0
abbrev scM0_1 : Memref sig .tc .vmem S1x512 .f32 := Memref.whole cc0_scratch1
abbrev scM0_2 : Memref sig .tc .vmem S1x1 .f32 := Memref.whole cc0_scratch2

/-! ## Whole-buffer rectangles -/

/-- The offsets of a whole-buffer access of a rank-2 buffer are all zero. -/
theorem hz : (![0, 0] : Fin 2 → Nat) = fun _ => 0 := funext fun a => by fin_cases a <;> rfl

/-! ## The scoped rest, buffer by buffer -/

/-- The scoped buffers of the core that the first kernel never touches (the second kernel's
    staging and scratch), each whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The region's entry invariant: the three scratch operands as memrefs owned at some contents,
    the untouched scoped buffers, and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ others0 c) ∗ (∃ r, prngReg c r)) := by
  unfold Pipeline.ΦA others0; rw [scopedRest0_eq]; simp only [scM0_0, scM0_1, scM0_2, owns_whole]; try rfl

end Cert.Kernel.Fr

end
-- ==== Proof.K.R0RunA.lean ====
/-
  The first kernel's body at the first grid point: the branch that zeroes the three running sums
  is taken, the branch that stores the result rows is not. Each running sum is stored whole twice
  (the zero, then the zero plus this block's sums), so what is left is the second payload, whose
  read-back of the first store is the zero itself.
-/
import proofs.«103854_g2027224563999_cont_sun_m_333_3_alg».proof.Proof.K.R0Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 1000000 in
/-- On whole memrefs — the two inputs at `x0`, `x1`, the result window at `xi2`, the three scratch
    buffers at anything — the body at a point where only the first branch is taken runs to the
    continuation holding the inputs and the result window as they were and the scratch buffers at
    one step from zero. -/
theorem kernelRun0_A (c : Dev nD) (i : grid0.Coords)
    (arg1 : Memref sig .tc .vmem S1024x512 .f32) (harg1 : arg1.IsWhole)
    (arg2 : Memref sig .tc .vmem S1024x1 .f32) (harg2 : arg2.IsWhole)
    (arg3 : Memref sig .tc .vmem S3x512 .f32) (harg3 : arg3.IsWhole)
    (arg4 : Memref sig .tc .vmem S1x512 .f32) (harg4 : arg4.IsWhole)
    (arg5 : Memref sig .tc .vmem S1x512 .f32) (harg5 : arg5.IsWhole)
    (arg6 : Memref sig .tc .vmem S1x1 .f32) (harg6 : arg6.IsWhole)
    (hc0 : cond0_0 i) (hc1 : ¬cond0_1 i)
    (x0 : Vec F S1024x512 .f32) (x1 : Vec F S1024x1 .f32) (xi2 : Vec F S3x512 .f32)
    (E : Set ℕ) (K : PUnit → sProp 𝕄) :
    iprop(owns (c : Thread nD τ) arg1 fullShare x0 ∗ owns (c : Thread nD τ) arg2 fullShare x1 ∗ owns (c : Thread nD τ) arg3 fullShare xi2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare xi2
            ∗ owns (c : Thread nD τ) arg4 fullShare (step0 x0 x1 zero0).1 ∗ owns (c : Thread nD τ) arg5 fullShare (step0 x0 x1 zero0).2.1 ∗ owns (c : Thread nD τ) arg6 fullShare (step0 x0 x1 zero0).2.2) -∗ K ⟨⟩))
      ⊢ wp frame (wpE (defs₀ (F := F)) Variants.none c none) E (cc0__stats_kernel i arg1 harg1 arg2 harg2 arg3 harg3 arg4 harg4 arg5 harg5 arg6 harg6) K := by
  simp only [cc0__stats_kernel_eq_skeleton]; unfold cc0__stats_kernel_skel
  unfold owns
  iintro ⟨⟨%f0, %hf0, H0⟩, ⟨%f1, %hf1, H1⟩, ⟨%f2, %hf2, H2⟩, ⟨%d4, %f4, -, H4⟩, ⟨%d5, %f5, -, H5⟩, ⟨%d6, %f6, -, H6⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H4]
  · iexists _; isplitr
    swap; · iexact H4
    ipureintro
    sl_unfold_run_names
    rw [View.read_writes_eq_canon _ _ _ (fun y => ⟨_, List.mem_cons_self .., View.mem_set_unit_zero hz inb_S1x512_S1x512_0_0 y⟩),
      View.canon_cons_unit_zero (S := S1x512) hz, View.readCov_unit_zero (S := S1x512) _ hz]
    simp only [View.readAt_eq_ld, harg1.read_unread, harg2.read_unread, View.ld_unit_zero (S := S1024x512) hz, View.ld_unit_zero (S := S1024x1) hz]
    rfl
  isplitl [H5]
  · iexists _; isplitr
    swap; · iexact H5
    ipureintro
    sl_unfold_run_names
    rw [View.read_writes_eq_canon _ _ _ (fun y => ⟨_, List.mem_cons_self .., View.mem_set_unit_zero hz inb_S1x512_S1x512_0_0 y⟩),
      View.canon_cons_unit_zero (S := S1x512) hz, View.readCov_unit_zero (S := S1x512) _ hz]
    simp only [View.readAt_eq_ld, harg1.read_unread, harg2.read_unread, View.ld_unit_zero (S := S1024x512) hz, View.ld_unit_zero (S := S1024x1) hz]
    rfl
  iexists _; isplitr
  swap; · iexact H6
  ipureintro
  sl_unfold_run_names
  rw [View.read_writes_eq_canon _ _ _ (fun y => ⟨_, List.mem_cons_self .., View.mem_set_unit_zero hz inb_S1x1_S1x1_0_0 y⟩),
    View.canon_cons_unit_zero (S := S1x1) hz, View.readCov_unit_zero (S := S1x1) _ hz]
  simp only [View.readAt_eq_ld, harg2.read_unread, View.ld_unit_zero (S := S1024x1) hz]
  rfl

end Cert.Kernel.Fr

end
-- ==== Proof.K.R0RunB.lean ====
/-
  The first kernel's body at a grid point that is neither the first nor the last: no branch is
  taken. Each running sum is loaded and stored whole once, so what is left is the one payload,
  whose loads read the whole buffers.
-/
import proofs.«103854_g2027224563999_cont_sun_m_333_3_alg».proof.Proof.K.R0RunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 1000000 in
/-- On whole memrefs — the two inputs at `x0`, `x1`, the result window at `xi2`, the three scratch
    buffers at the running sums `a` — the body at a point where no branch is taken runs to the
    continuation holding the inputs and the result window as they were and the scratch buffers at
    one step from `a`. -/
theorem kernelRun0_B (c : Dev nD) (i : grid0.Coords)
    (arg1 : Memref sig .tc .vmem S1024x512 .f32) (harg1 : arg1.IsWhole)
    (arg2 : Memref sig .tc .vmem S1024x1 .f32) (harg2 : arg2.IsWhole)
    (arg3 : Memref sig .tc .vmem S3x512 .f32) (harg3 : arg3.IsWhole)
    (arg4 : Memref sig .tc .vmem S1x512 .f32) (harg4 : arg4.IsWhole)
    (arg5 : Memref sig .tc .vmem S1x512 .f32) (harg5 : arg5.IsWhole)
    (arg6 : Memref sig .tc .vmem S1x1 .f32) (harg6 : arg6.IsWhole)
    (hc0 : ¬cond0_0 i) (hc1 : ¬cond0_1 i)
    (x0 : Vec F S1024x512 .f32) (x1 : Vec F S1024x1 .f32) (xi2 : Vec F S3x512 .f32) (a : Sc0 F)
    (E : Set ℕ) (K : PUnit → sProp 𝕄) :
    iprop(owns (c : Thread nD τ) arg1 fullShare x0 ∗ owns (c : Thread nD τ) arg2 fullShare x1 ∗ owns (c : Thread nD τ) arg3 fullShare xi2
        ∗ owns (c : Thread nD τ) arg4 fullShare a.1 ∗ owns (c : Thread nD τ) arg5 fullShare a.2.1 ∗ owns (c : Thread nD τ) arg6 fullShare a.2.2
        ∗ (iprop(owns (c : Thread nD τ) arg1 fullShare x0 ∗ owns (c : Thread nD τ) arg2 fullShare x1 ∗ owns (c : Thread nD τ) arg3 fullShare xi2
            ∗ owns (c : Thread nD τ) arg4 fullShare (step0 x0 x1 a).1 ∗ owns (c : Thread nD τ) arg5 fullShare (step0 x0 x1 a).2.1 ∗ owns (c : Thread nD τ) arg6 fullShare (step0 x0 x1 a).2.2) -∗ K ⟨⟩))
      ⊢ wp frame (wpE (defs₀ (F := F)) Variants.none c none) E (cc0__stats_kernel i arg1 harg1 arg2 harg2 arg3 harg3 arg4 harg4 arg5 harg5 arg6 harg6) K := by
  simp only [cc0__stats_kernel_eq_skeleton]; unfold cc0__stats_kernel_skel
  unfold owns
  iintro ⟨⟨%f0, %hf0, H0⟩, ⟨%f1, %hf1, H1⟩, ⟨%f2, %hf2, H2⟩, ⟨%f4, %hf4, H4⟩, ⟨%f5, %hf5, H5⟩, ⟨%f6, %hf6, H6⟩, Hk⟩
  obtain rfl := harg1.eq_unread hf0; obtain rfl := harg2.eq_unread hf1; obtain rfl := harg3.eq_unread hf2
  obtain rfl := harg4.eq_unread hf4; obtain rfl := harg5.eq_unread hf5; obtain rfl := harg6.eq_unread hf6
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H4]
  · iexists _; isplitr
    swap; · iexact H4
    ipureintro
    sl_unfold_run_names
    rw [View.read_writes_eq_canon _ _ _ (fun y => ⟨_, List.mem_cons_self .., View.mem_set_unit_zero hz inb_S1x512_S1x512_0_0 y⟩),
      View.canon_unit_zero (S := S1x512) hz]
    simp only [View.readAt_eq_ld, harg1.read_unread, harg2.read_unread, harg4.read_unread, View.ld_unit_zero (S := S1024x512) hz, View.ld_unit_zero (S := S1024x1) hz, View.ld_unit_zero (S := S1x512) hz]
    rfl
  isplitl [H5]
  · iexists _; isplitr
    swap; · iexact H5
    ipureintro
    sl_unfold_run_names
    rw [View.read_writes_eq_canon _ _ _ (fun y => ⟨_, List.mem_cons_self .., View.mem_set_unit_zero hz inb_S1x512_S1x512_0_0 y⟩),
      View.canon_unit_zero (S := S1x512) hz]
    simp only [View.readAt_eq_ld, harg1.read_unread, harg2.read_unread, harg5.read_unread, View.ld_unit_zero (S := S1024x512) hz, View.ld_unit_zero (S := S1024x1) hz, View.ld_unit_zero (S := S1x512) hz]
    rfl
  iexists _; isplitr
  swap; · iexact H6
  ipureintro
  sl_unfold_run_names
  rw [View.read_writes_eq_canon _ _ _ (fun y => ⟨_, List.mem_cons_self .., View.mem_set_unit_zero hz inb_S1x1_S1x1_0_0 y⟩),
    View.canon_unit_zero (S := S1x1) hz]
  simp only [View.readAt_eq_ld, harg2.read_unread, harg6.read_unread, View.ld_unit_zero (S := S1024x1) hz, View.ld_unit_zero (S := S1x1) hz]
  rfl

end Cert.Kernel.Fr

end
-- ==== Proof.K.R0RunC.lean ====
/-
  The first kernel's body at the last grid point: the zeroing branch is not taken, the branch
  that stores the result rows is. The running sums are folded as at any other point; then each is
  read back (a load of the one store just made, hence that store's payload) and stored as a row of
  the 3×512 result — the count broadcast along its row — so the result is covered by three row
  stores, the last-stored first.
-/
import proofs.«103854_g2027224563999_cont_sun_m_333_3_alg».proof.Proof.K.R0RunB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 1000000 in
/-- On whole memrefs — the two inputs at `x0`, `x1`, the result window at anything, the three scratch
    buffers at the running sums `a` — the body at a point where only the last branch is taken runs
    to the continuation holding the inputs as they were, the scratch buffers at one step from `a`,
    and the result window at the three rows of those. -/
theorem kernelRun0_C (c : Dev nD) (i : grid0.Coords)
    (arg1 : Memref sig .tc .vmem S1024x512 .f32) (harg1 : arg1.IsWhole)
    (arg2 : Memref sig .tc .vmem S1024x1 .f32) (harg2 : arg2.IsWhole)
    (arg3 : Memref sig .tc .vmem S3x512 .f32) (harg3 : arg3.IsWhole)
    (arg4 : Memref sig .tc .vmem S1x512 .f32) (harg4 : arg4.IsWhole)
    (arg5 : Memref sig .tc .vmem S1x512 .f32) (harg5 : arg5.IsWhole)
    (arg6 : Memref sig .tc .vmem S1x1 .f32) (harg6 : arg6.IsWhole)
    (hc0 : ¬cond0_0 i) (hc1 : cond0_1 i)
    (x0 : Vec F S1024x512 .f32) (x1 : Vec F S1024x1 .f32) (a : Sc0 F)
    (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare a.1 ∗ owns (c : Thread nD τ) arg5 fullShare a.2.1 ∗ owns (c : Thread nD τ) arg6 fullShare a.2.2
        ∗ (iprop(owns (c : Thread nD τ) arg1 fullShare x0 ∗ owns (c : Thread nD τ) arg2 fullShare x1 ∗ owns (c : Thread nD τ) arg3 fullShare (out0 (step0 x0 x1 a))
            ∗ owns (c : Thread nD τ) arg4 fullShare (step0 x0 x1 a).1 ∗ owns (c : Thread nD τ) arg5 fullShare (step0 x0 x1 a).2.1 ∗ owns (c : Thread nD τ) arg6 fullShare (step0 x0 x1 a).2.2) -∗ K ⟨⟩))
      ⊢ wp frame (wpE (defs₀ (F := F)) Variants.none c none) E (cc0__stats_kernel i arg1 harg1 arg2 harg2 arg3 harg3 arg4 harg4 arg5 harg5 arg6 harg6) K := by
  simp only [cc0__stats_kernel_eq_skeleton]; unfold cc0__stats_kernel_skel
  unfold owns
  iintro ⟨⟨%f0, %hf0, H0⟩, ⟨%f1, %hf1, H1⟩, ⟨%d2, %f2, -, H2⟩, ⟨%f4, %hf4, H4⟩, ⟨%f5, %hf5, H5⟩, ⟨%f6, %hf6, H6⟩, Hk⟩
  obtain rfl := harg1.eq_unread hf0; obtain rfl := harg2.eq_unread hf1
  obtain rfl := harg4.eq_unread hf4; obtain rfl := harg5.eq_unread hf5; obtain rfl := harg6.eq_unread hf6
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_run_names
    refine (View.read_writes_eq_canon (Val := Elt F) _ _ _ (View.cover_of_tiledL (Val := Elt F) (s := S3x512) _ S1x512.size ?_)).trans ?_
    · sl_kernel_rfl
    simp only [View.readCov_unit_zero (S := S1x512) _ hz, View.readCov_unit_zero (S := S1x1) _ hz, View.readAt_eq_ld,
      harg1.read_unread, harg2.read_unread, harg4.read_unread, harg5.read_unread, harg6.read_unread,
      View.ld_unit_zero (S := S1024x512) hz, View.ld_unit_zero (S := S1024x1) hz, View.ld_unit_zero (S := S1x512) hz, View.ld_unit_zero (S := S1x1) hz]
    rfl
  isplitl [H4]
  · iexists _; isplitr
    swap; · iexact H4
    ipureintro
    sl_unfold_run_names
    rw [View.read_writes_eq_canon _ _ _ (fun y => ⟨_, List.mem_cons_self .., View.mem_set_unit_zero hz inb_S1x512_S1x512_0_0 y⟩),
      View.canon_unit_zero (S := S1x512) hz]
    simp only [View.readAt_eq_ld, harg1.read_unread, harg2.read_unread, harg4.read_unread, View.ld_unit_zero (S := S1024x512) hz, View.ld_unit_zero (S := S1024x1) hz, View.ld_unit_zero (S := S1x512) hz]
    rfl
  isplitl [H5]
  · iexists _; isplitr
    swap; · iexact H5
    ipureintro
    sl_unfold_run_names
    rw [View.read_writes_eq_canon _ _ _ (fun y => ⟨_, List.mem_cons_self .., View.mem_set_unit_zero hz inb_S1x512_S1x512_0_0 y⟩),
      View.canon_unit_zero (S := S1x512) hz]
    simp only [View.readAt_eq_ld, harg1.read_unread, harg2.read_unread, harg5.read_unread, View.ld_unit_zero (S := S1024x512) hz, View.ld_unit_zero (S := S1024x1) hz, View.ld_unit_zero (S := S1x512) hz]
    rfl
  iexists _; isplitr
  swap; · iexact H6
  ipureintro
  sl_unfold_run_names
  rw [View.read_writes_eq_canon _ _ _ (fun y => ⟨_, List.mem_cons_self .., View.mem_set_unit_zero hz inb_S1x1_S1x1_0_0 y⟩),
    View.canon_unit_zero (S := S1x1) hz]
  simp only [View.readAt_eq_ld, harg2.read_unread, harg6.read_unread, View.ld_unit_zero (S := S1024x1) hz, View.ld_unit_zero (S := S1x1) hz]
  rfl

end Cert.Kernel.Fr

end
-- ==== Proof.K.R0Frame.lean ====
/-
  The first kernel's frame: the invariant carried between grid points (the three scratch buffers
  at the running sums after the point before), the pipeline's proof data over it, and the body
  obligation — at every point the closed forms of the two branch conditions select one of the
  three runs, the inputs' staging buffers hold their blocks, and the result window is handed back
  untouched except at the last point, where it receives the three rows.
-/
import proofs.«103854_g2027224563999_cont_sun_m_333_3_alg».proof.Proof.K.R0RunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The running sums at a point, by its position -/

/-- At the first point the running sums are one step from zero. -/
theorem acc0_first (c : Dev nD) (t : Fin cfg0.N) (h : t.val = 0) :
    acc0 V c t.val t.isLt = step0 (iblk0 V c 0 t) (iblk0 V c 1 t) zero0 := by
  obtain ⟨n, hn⟩ := t
  cases n with
  | zero => rfl
  | succ n => exact absurd h (Nat.succ_ne_zero _)

/-- At any later point they are one step from those of the point before. -/
theorem acc0_later (c : Dev nD) (t : Fin cfg0.N) (h : t.val ≠ 0) :
    acc0 V c t.val t.isLt = step0 (iblk0 V c 0 t) (iblk0 V c 1 t) (acc0 V c (t.val - 1) (Nat.lt_of_le_of_lt (Nat.sub_le _ _) t.isLt)) := by
  obtain ⟨n, hn⟩ := t
  cases n with
  | zero => exact absurd rfl h
  | succ n => rfl

/-! ## The invariant carried between points -/

/-- Before position `n`: at the first point the entry invariant (every scoped buffer at anything);
    afterwards the three scratch buffers at the running sums after point `n - 1`, the other scoped
    buffers at anything, and the generator register at some state. -/
def PhiS0 (c : Dev nD) : (n : ℕ) → n ≤ cfg0.N → sProp 𝕄
  | 0, _ => Pipeline.ΦA spec0 c
  | n + 1, hn => iprop(iprop(owns (c : Thread nD τ) scM0_0 fullShare (acc0 V c n hn).1 ∗ owns (c : Thread nD τ) scM0_1 fullShare (acc0 V c n hn).2.1 ∗ owns (c : Thread nD τ) scM0_2 fullShare (acc0 V c n hn).2.2 ∗ others0 c) ∗ (∃ r, prngReg c r))

theorem PhiS0_zero (c : Dev nD) (n : ℕ) (h : n ≤ cfg0.N) (hn : n = 0) : PhiS0 V c n h = Pipeline.ΦA spec0 c := by
  subst hn; rfl

theorem PhiS0_succ (c : Dev nD) (n : ℕ) (hn : n < cfg0.N) :
    PhiS0 V c (n + 1) hn = iprop(iprop(owns (c : Thread nD τ) scM0_0 fullShare (acc0 V c n hn).1 ∗ owns (c : Thread nD τ) scM0_1 fullShare (acc0 V c n hn).2.1 ∗ owns (c : Thread nD τ) scM0_2 fullShare (acc0 V c n hn).2.2 ∗ others0 c) ∗ (∃ r, prngReg c r)) := rfl

theorem PhiS0_pos (c : Dev nD) (n : ℕ) (h : n ≤ cfg0.N) (hn : n ≠ 0) :
    PhiS0 V c n h = iprop(iprop(owns (c : Thread nD τ) scM0_0 fullShare (acc0 V c (n - 1) (by omega)).1 ∗ owns (c : Thread nD τ) scM0_1 fullShare (acc0 V c (n - 1) (by omega)).2.1 ∗ owns (c : Thread nD τ) scM0_2 fullShare (acc0 V c (n - 1) (by omega)).2.2 ∗ others0 c) ∗ (∃ r, prngReg c r)) := by
  cases n with
  | zero => exact absurd rfl hn
  | succ n => rfl

/-! ## The pipeline's proof data -/

/-- The proof data of the first pipeline on core `c`: the arrays as the region finds them; after the
    body at point `t` each input's buffer at its block and the result's at the three rows of the
    running sums (consulted at the last point only: elsewhere the window is idle and not written
    back); the invariant `PhiS0`; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0 (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (acc0 V c t.val t.isLt) := by dsimp only [dat0]

/-- An input window's current staging buffer holds its block at every point, fetched there or
    not, for any proof data over the region's entry contents whose body leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' memrefs hold their blocks; the closed forms say which of the
    three cases the point is in; the invariant hands the body the scratch buffers at the running
    sums the point before left (at anything at the first point) and takes them back at this
    point's; the result window is handed back as found except at the last point, where the three
    rows are stored; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 64 := lt_of_lt_of_eq t.isLt (show cfg0.N = 64 from N_0)
  by_cases h0 : t.val = 0
  · have h1 : ¬t.val = 63 := by omega
    rw [Dat.leavesExact_idle (dat0 V c) 2 t (idleAt0_2 t (fun h => h1 ((hcond0_1 t).mp h))) (noFlush0_2 t (fun h => h1 ((hcond0_1 t).mp h)))]
    rw [acc0_first V c t h0]
    rw [PhiS0_castSucc V c t, PhiS0_zero V c _ _ h0, PhiA0_eq]
    iintro ⟨⟨⟨HS0, HS1, HS2, HR⟩, Hg⟩, Ho, ⟨%d0, H0⟩, ⟨%d1, H1⟩, ⟨%d2, H2⟩⟩
    iapply (kernelRun0_A c (grid0.coords t) _ _ _ _ _ _ _ _ _ _ _ _ ((hcond0_0 t).mpr h0) (fun h => h1 ((hcond0_1 t).mp h)) (iblk0 V c 0 t) (iblk0 V c 1 t) _ Set.univ _)
    isplitl [H0]; · iexact H0
    isplitl [H1]; · iexact H1
    isplitl [H2]; · iexact H2
    isplitl [HS0]; · iexact HS0
    isplitl [HS1]; · iexact HS1
    isplitl [HS2]; · iexact HS2
    iintro ⟨H0, H1, H2, HS0, HS1, HS2⟩
    isplitl [HS0 HS1 HS2 HR Hg]
    · isplitl [HS0 HS1 HS2 HR]
      · isplitl [HS0]; · iexact HS0
        isplitl [HS1]; · iexact HS1
        isplitl [HS2]; · iexact HS2
        iexact HR
      iexact Hg
    isplitl [Ho]; · iexact Ho
    isplitl [H0]; · iexact H0
    isplitl [H1]; · iexact H1
    iexists _; iexact H2
  · by_cases h1 : t.val = 63
    · rw [show (dat0 V c).leavesExact 2 t = owns (c : Thread nD τ) (ms0_2 t) fullShare ((dat0 V c).after 2 t) from by
        unfold Dat.leavesExact; rw [liveAt0_2 t ((hcond0_1 t).mpr h1)], after0_2]
      rw [acc0_later V c t h0]
      rw [PhiS0_castSucc V c t, PhiS0_pos V c _ _ h0]
      iintro ⟨⟨⟨HS0, HS1, HS2, HR⟩, Hg⟩, Ho, ⟨%d0, H0⟩, ⟨%d1, H1⟩, ⟨%d2, H2⟩⟩
      iapply (kernelRun0_C c (grid0.coords t) _ _ _ _ _ _ _ _ _ _ _ _ (fun h => h0 ((hcond0_0 t).mp h)) ((hcond0_1 t).mpr h1) (iblk0 V c 0 t) (iblk0 V c 1 t) _ Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, H2, HS0, HS1, HS2⟩
      isplitl [HS0 HS1 HS2 HR Hg]
      · isplitl [HS0 HS1 HS2 HR]
        · isplitl [HS0]; · iexact HS0
          isplitl [HS1]; · iexact HS1
          isplitl [HS2]; · iexact HS2
          iexact HR
        iexact Hg
      isplitl [Ho]; · iexact Ho
      isplitl [H0]; · iexact H0
      isplitl [H1]; · iexact H1
      iexact H2
    · rw [Dat.leavesExact_idle (dat0 V c) 2 t (idleAt0_2 t (fun h => h1 ((hcond0_1 t).mp h))) (noFlush0_2 t (fun h => h1 ((hcond0_1 t).mp h)))]
      rw [acc0_later V c t h0]
      rw [PhiS0_castSucc V c t, PhiS0_pos V c _ _ h0]
      iintro ⟨⟨⟨HS0, HS1, HS2, HR⟩, Hg⟩, Ho, ⟨%d0, H0⟩, ⟨%d1, H1⟩, ⟨%d2, H2⟩⟩
      iapply (kernelRun0_B c (grid0.coords t) _ _ _ _ _ _ _ _ _ _ _ _ (fun h => h0 ((hcond0_0 t).mp h)) (fun h => h1 ((hcond0_1 t).mp h)) (iblk0 V c 0 t) (iblk0 V c 1 t) _ _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 HR Hg]
      · isplitl [HS0 HS1 HS2 HR]
        · isplitl [HS0]; · iexact HS0
          isplitl [HS1]; · iexact HS1
          isplitl [HS2]; · iexact HS2
          iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the entry invariant back: the scratch
    buffers' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HS2, HR⟩, Hg⟩
  isplitl [HS0 HS1 HS2 HR]
  · isplitl [HS0]; · iexists _; iexact HS0
    isplitl [HS1]; · iexists _; iexact HS1
    isplitl [HS2]; · iexists _; iexact HS2
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Cert.Kernel.Fr

end
-- ==== Proof.K.R1Runs.lean ====
/-
  The second kernel's frame, the part its two control cases share: each input window's staging
  buffer holds the window's block at every grid point; the branch condition in closed form; the
  staging and scratch operands as the pipeline passes them; and the region invariant with the
  two scratch rows split out of the scoped buffers.
-/
import proofs.«103854_g2027224563999_cont_sun_m_333_3_alg».proof.Proof.Gen.Kernel.Launch
import proofs.«103854_g2027224563999_cont_sun_m_333_3_alg».proof.Proof.Gen.Kernel.Skeleton
import proofs.«103854_g2027224563999_cont_sun_m_333_3_alg».proof.Proof.Gen.Kernel.Points
import Idealize.ShloMosaic.Lib.Pipeline.FrameBody
import Idealize.ShloMosaic.Lib.Pipeline.Value
import Idealize.ShloMosaic.Lib.Ring
import Idealize.ShloMosaic.Lib.Tactic
import proofs.«103854_g2027224563999_cont_sun_m_333_3_alg».proof.Proof.K.Acc

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The input windows' staging buffers hold their blocks

An input window's current staging buffer holds the window's block of the entry contents at every
point, fetched there or not: where the pipeline does not fetch, the block index has not moved and
the body left the buffer as it found it. Stated for any proof data whose array is the entry
contents and whose body leaves the block in place. -/

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The branch condition -/

/-- The condition of the body's one conditional, from the grid coordinates: "this is point 0". -/
abbrev cond1_0 (i : grid1.Coords) : Prop := (Scalar.cmpi .ne (Scalar.extui (Scalar.cmpi .eq (BitVec.ofNat 32 (i 0).val) 0#32)) 0#32) = 1#1
/-- It holds at the first point only — decided over the 64 points. -/
theorem hcond1_0 : ∀ t : Fin cfg1.N, cond1_0 (grid1.coords t) ↔ t.val = 0 :=
  (by decide +kernel : ∀ t : Fin grid1.N, cond1_0 (grid1.coords t) ↔ t.val = 0)

/-! ## The operands -/

/-- Each window's current staging memref at point `t`, as the pipeline passes it, and its wholeness. -/
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S3x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x512 .f32 := win1_5.stage (cfg1.slots t 5)
abbrev hs1_5 (t : Fin cfg1.N) : (ms1_5 t).IsWhole := hstage1_5 ((cfg1.slots t 5).cast nbuf1_5)
/-- The two scratch rows: whole scoped buffers of the kernel's own. -/
abbrev scM1_0 : Memref sig .tc .vmem S1x512 .f32 := Memref.whole cc1_scratch0
abbrev scM1_1 : Memref sig .tc .vmem S1x512 .f32 := Memref.whole cc1_scratch1

/-- The offsets `![0, 0]` are the zero offsets: a rectangle at them with the buffer's own sizes is the whole buffer. -/
theorem hz1 : (![0, 0] : Fin 2 → Nat) = fun _ => 0 := funext fun a => by fin_cases a <;> rfl

/-! ## The region invariant, conjunct by conjunct -/

/-- What the launch hands the region: the eight scoped buffers that are not this kernel's, each at
    some contents, the two scratch rows owned at some contents, and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

end Cert.Kernel.Fr

end
-- ==== Proof.K.R1RunA.lean ====
/-
  The second kernel's body at the first grid point, where its conditional is taken: from the
  3×512 sums, gamma and beta it computes the two coefficient rows, stores them in the two scratch
  rows, reads them back, and stores the affine map of the point's block of `x` and of the mask
  column into the output's buffer.
-/
import proofs.«103854_g2027224563999_cont_sun_m_333_3_alg».proof.Proof.K.R1Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 1000000 in
/-- On whole memrefs — the five inputs' at their contents, the output's and the two scratch rows at
    anything — the body at a point where the condition holds runs to the continuation holding the
    inputs' as they were, the scratch rows at the coefficient rows of the sums, gamma and beta, and
    the output's at the affine map under those rows. Each stored buffer ends with one store through
    the whole-buffer rectangle, so it reads as that store's payload; the rows read back after their
    stores read as the payloads stored; a load through a whole-buffer rectangle reads the contents,
    and the three row loads of the sums are the rows the coefficient function names. -/
theorem run1_A (c : Dev nD) (E : Set ℕ) (i : grid1.Coords) (arg1 : Memref sig .tc .vmem S1024x512 .f32) (harg1 : arg1.IsWhole) (arg2 : Memref sig .tc .vmem S1024x1 .f32) (harg2 : arg2.IsWhole) (arg3 : Memref sig .tc .vmem S3x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x512 .f32) (harg7 : arg7.IsWhole) (arg8 : Memref sig .tc .vmem S1x512 .f32) (harg8 : arg8.IsWhole) (hc0 : cond1_0 i)
    (x0 : Vec F S1024x512 .f32) (x1 : Vec F S1024x1 .f32) (s : Vec F S3x512 .f32) (g b : Vec F S1x512 .f32) (K : PUnit → sProp 𝕄) :
    iprop(owns (c : Thread nD τ) arg1 fullShare x0 ∗ owns (c : Thread nD τ) arg2 fullShare x1 ∗ owns (c : Thread nD τ) arg3 fullShare s ∗ owns (c : Thread nD τ) arg4 fullShare g ∗ owns (c : Thread nD τ) arg5 fullShare b
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare s ∗ owns (c : Thread nD τ) arg4 fullShare g ∗ owns (c : Thread nD τ) arg5 fullShare b
            ∗ owns (c : Thread nD τ) arg6 fullShare (out1 x0 x1 (coef1 s g b)) ∗ owns (c : Thread nD τ) arg7 fullShare (coef1 s g b).1 ∗ owns (c : Thread nD τ) arg8 fullShare (coef1 s g b).2) -∗ K ⟨⟩))
      ⊢ wp frame (wpE (defs₀ (F := F)) Variants.none c none) E (cc1__apply_kernel i arg1 harg1 arg2 harg2 arg3 harg3 arg4 harg4 arg5 harg5 arg6 harg6 arg7 harg7 arg8 harg8) K := by
  simp only [cc1__apply_kernel_eq_skeleton]; unfold cc1__apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0; subst hf1; subst hf2; subst hf3; subst hf4
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [View.read_writes_eq_canon _ _ _ (fun y => ⟨_, List.mem_singleton_self _, View.mem_set_unit_zero hz1 inb_S1024x512_S1024x512_0_0 y⟩), View.canon_unit_zero hz1]
    rw [View.readCov_unit_zero (S := S1x512) _ hz1, View.readCov_unit_zero (S := S1x512) _ hz1]
    unfold out1 coef1
    simp only [View.readAt_eq_ld, View.ld_unit_zero (S := S1x512) hz1, View.ld_unit_zero (S := S1024x512) hz1, View.ld_unit_zero (S := S1024x1) hz1]
  isplitl [H6]
  · iexists _; isplitr
    swap; · iexact H6
    ipureintro
    sl_unfold_run_names
    rw [View.read_writes_eq_canon _ _ _ (fun y => ⟨_, List.mem_singleton_self _, View.mem_set_unit_zero hz1 inb_S1x512_S1x512_0_0 y⟩), View.canon_unit_zero hz1]
    unfold coef1
    simp only [View.readAt_eq_ld, View.ld_unit_zero (S := S1x512) hz1]
  iexists _; isplitr
  swap; · iexact H7
  ipureintro
  sl_unfold_run_names
  rw [View.read_writes_eq_canon _ _ _ (fun y => ⟨_, List.mem_singleton_self _, View.mem_set_unit_zero hz1 inb_S1x512_S1x512_0_0 y⟩), View.canon_unit_zero hz1]
  unfold coef1
  simp only [View.readAt_eq_ld, View.ld_unit_zero (S := S1x512) hz1]

end Cert.Kernel.Fr

end
-- ==== Proof.K.R1RunB.lean ====
/-
  The second kernel's body at every later grid point, where its conditional is not taken: it reads
  the two coefficient rows from scratch and stores the affine map of the point's block of `x` and
  of the mask column into the output's buffer; the scratch rows are left as found.
-/
import proofs.«103854_g2027224563999_cont_sun_m_333_3_alg».proof.Proof.K.R1RunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 1000000 in
/-- On whole memrefs — the block of `x` and of the mask column at their contents, the output's at
    anything, the two scratch rows at `a` — the body at a point where the condition fails runs to
    the continuation holding all of them as they were but the output's, which holds the affine map
    under `a`: its one store is through the whole-buffer rectangle, and the loads through
    whole-buffer rectangles read the contents. The other three inputs are not touched. -/
theorem run1_B (c : Dev nD) (E : Set ℕ) (i : grid1.Coords) (arg1 : Memref sig .tc .vmem S1024x512 .f32) (harg1 : arg1.IsWhole) (arg2 : Memref sig .tc .vmem S1024x1 .f32) (harg2 : arg2.IsWhole) (arg3 : Memref sig .tc .vmem S3x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x512 .f32) (harg7 : arg7.IsWhole) (arg8 : Memref sig .tc .vmem S1x512 .f32) (harg8 : arg8.IsWhole) (hc0 : ¬cond1_0 i)
    (x0 : Vec F S1024x512 .f32) (x1 : Vec F S1024x1 .f32) (a : Sc1 F) (K : PUnit → sProp 𝕄) :
    iprop(owns (c : Thread nD τ) arg1 fullShare x0 ∗ owns (c : Thread nD τ) arg2 fullShare x1 ∗ (∃ d, owns (c : Thread nD τ) arg6 fullShare d) ∗ owns (c : Thread nD τ) arg7 fullShare a.1 ∗ owns (c : Thread nD τ) arg8 fullShare a.2
        ∗ (iprop(owns (c : Thread nD τ) arg1 fullShare x0 ∗ owns (c : Thread nD τ) arg2 fullShare x1 ∗ owns (c : Thread nD τ) arg6 fullShare (out1 x0 x1 a) ∗ owns (c : Thread nD τ) arg7 fullShare a.1 ∗ owns (c : Thread nD τ) arg8 fullShare a.2) -∗ K ⟨⟩))
      ⊢ wp frame (wpE (defs₀ (F := F)) Variants.none c none) E (cc1__apply_kernel i arg1 harg1 arg2 harg2 arg3 harg3 arg4 harg4 arg5 harg5 arg6 harg6 arg7 harg7 arg8 harg8) K := by
  simp only [cc1__apply_kernel_eq_skeleton]; unfold cc1__apply_kernel_skel
  unfold owns
  iintro ⟨⟨%f0, %hf0, H0⟩, ⟨%f1, %hf1, H1⟩, ⟨%d5, %f5, -, H5⟩, ⟨%f6, %hf6, H6⟩, ⟨%f7, %hf7, H7⟩, Hk⟩
  subst hf0; subst hf1; obtain ⟨a1, a2⟩ := a; dsimp only at hf6 hf7; subst hf6; subst hf7
  sl_exec (disch := first | exact hc0)
  sl_step
  iapply Hk
  isplitl [H0]
  · iexists f0; isplitr; · ipureintro; rfl
    iexact H0
  isplitl [H1]
  · iexists f1; isplitr; · ipureintro; rfl
    iexact H1
  isplitl [H5]
  · iexists _; isplitr
    swap; · iexact H5
    ipureintro
    rw [View.read_writes_eq_canon _ _ _ (fun y => ⟨_, List.mem_singleton_self _, View.mem_set_unit_zero hz1 inb_S1024x512_S1024x512_0_0 y⟩), View.canon_unit_zero hz1]
    unfold out1
    simp only [View.readAt_eq_ld, View.ld_unit_zero (S := S1x512) hz1, View.ld_unit_zero (S := S1024x512) hz1, View.ld_unit_zero (S := S1024x1) hz1]
  isplitl [H6]
  · iexists f6; isplitr; · ipureintro; rfl
    iexact H6
  iexists f7; isplitr; · ipureintro; rfl
  iexact H7

end Cert.Kernel.Fr

end
-- ==== Proof.K.R1Frame.lean ====
/-
  The second kernel's frame: the invariant carried between grid points (the two coefficient rows
  in scratch, at the values the first point computes), the proof data of the pipeline, the body
  obligation at every point from the two cases' runs, and the invariant's entry and exit.
-/
import proofs.«103854_g2027224563999_cont_sun_m_333_3_alg».proof.Proof.K.R1RunB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The invariant between points -/

/-- The region invariant before position `n`: before the first point what the launch hands over
    (every scoped buffer at anything); afterwards the same with the two scratch rows at the
    coefficient rows the first point computed, which no later point changes. -/
def PhiS1 (c : Dev nD) : (n : ℕ) → n ≤ cfg1.N → sProp 𝕄
  | 0, _ => Pipeline.ΦA spec1 c
  | _ + 1, _ => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ owns (c : Thread nD τ) scM1_0 fullShare (acc1 V c).1 ∗ owns (c : Thread nD τ) scM1_1 fullShare (acc1 V c).2) ∗ (∃ r, prngReg c r))

theorem PhiS1_zero (c : Dev nD) (n : ℕ) (h : n ≤ cfg1.N) (hz : n = 0) : PhiS1 V c n h = Pipeline.ΦA spec1 c := by
  subst hz; rfl

/-- After point `n`: the scratch rows at the coefficient rows. -/
theorem PhiS1_succ (c : Dev nD) (n : ℕ) (hn : n + 1 ≤ cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ owns (c : Thread nD τ) scM1_0 fullShare (acc1 V c).1 ∗ owns (c : Thread nD τ) scM1_1 fullShare (acc1 V c).2) ∗ (∃ r, prngReg c r)) := rfl

/-- Before a point that is not the first: the same. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ owns (c : Thread nD τ) scM1_0 fullShare (acc1 V c).1 ∗ owns (c : Thread nD τ) scM1_1 fullShare (acc1 V c).2) ∗ (∃ r, prngReg c r)) := by
  cases n with
  | zero => exact absurd rfl hz
  | succ n => rfl

/-! ## The pipeline's proof data -/

/-- The proof data on core `c`: the arrays as the region finds them; after the body at point `t`
    each input's buffer at its block and the output's at the affine map of the point's blocks under
    the coefficient rows; the invariant above; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1 (iblk1 V c 0 t) (iblk1 V c 1 t) (acc1 V c)
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's number. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1 (iblk1 V c 0 t) (iblk1 V c 1 t) (acc1 V c) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 4800000 in
/-- The body at any point. The inputs' buffers hold their blocks. At the first point the invariant
    hands over the scratch rows at anything, the first case's run computes the coefficient rows from
    the point's blocks of the sums, gamma and beta — which are those arrays' blocks at point 0, the
    point being point 0 — and leaves them in scratch; at a later point the invariant hands the rows
    over at those values and the second case's run leaves them unchanged. Either way the output's
    buffer is left at the affine map under the rows; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4, after1_5]
  by_cases hz : t.val = 0
  · have hacc : acc1 V c = coef1 (iblk1 V c 2 t) (iblk1 V c 3 t) (iblk1 V c 4 t) := by
      obtain rfl : t = ⟨0, by decide⟩ := Fin.ext hz
      rfl
    rw [PhiS1_castSucc V c t, PhiS1_zero V c _ _ hz, PhiA1_eq, hacc]
    iintro ⟨⟨⟨HR0, HR1, HR2, HR3, HR4, HR5, HR6, HR7, HS0, HS1⟩, Hg⟩, Ho, ⟨%d0, H0⟩, ⟨%d1, H1⟩, ⟨%d2, H2⟩, ⟨%d3, H3⟩, ⟨%d4, H4⟩, ⟨%d5, H5⟩⟩
    iapply (run1_A c Set.univ (grid1.coords t) _ _ _ _ _ _ _ _ _ _ _ _ _ _ _ _ ((hcond1_0 t).mpr hz)
      (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, H5, HS0, HS1⟩
    isplitl [HR0 HR1 HR2 HR3 HR4 HR5 HR6 HR7 HS0 HS1 Hg]
    · isplitl [HR0 HR1 HR2 HR3 HR4 HR5 HR6 HR7 HS0 HS1]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [PhiS1_castSucc V c t, PhiS1_pos V c _ _ hz]
    iintro ⟨⟨⟨HR0, HR1, HR2, HR3, HR4, HR5, HR6, HR7, HS0, HS1⟩, Hg⟩, Ho, ⟨%d0, H0⟩, ⟨%d1, H1⟩, ⟨%d2, H2⟩, ⟨%d3, H3⟩, ⟨%d4, H4⟩, ⟨%d5, H5⟩⟩
    iapply (run1_B c Set.univ (grid1.coords t) _ _ _ _ _ _ _ _ _ _ _ _ _ _ _ _ (fun h => hz ((hcond1_0 t).mp h))
      (iblk1 V c 0 t) (iblk1 V c 1 t) (acc1 V c) _)
    isplitl [H0]; · iexact H0
    isplitl [H1]; · iexact H1
    isplitl [H5]; · iexists _; iexact H5
    isplitl [HS0]; · iexact HS0
    isplitl [HS1]; · iexact HS1
    iintro ⟨H0, H1, H5, HS0, HS1⟩
    isplitl [HR0 HR1 HR2 HR3 HR4 HR5 HR6 HR7 HS0 HS1 Hg]
    · isplitl [HR0 HR1 HR2 HR3 HR4 HR5 HR6 HR7 HS0 HS1]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Entry and exit -/

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch handed over: the
    scratch rows' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HR5, HR6, HR7, HS0, HS1⟩, Hg⟩
  isplitl [HR0 HR1 HR2 HR3 HR4 HR5 HR6 HR7 HS0 HS1]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HS0]; · iexists _; iexact HS0
    iexists _; iexact HS1
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.Kernel.Fr

end
-- ==== Proof.K.Run.lean ====
/-
  The whole program as three consecutive pieces — the host's four layout operations, the first
  kernel's region, the second kernel's region — and what every unscoped buffer holds at each
  boundary:

    at launch            the memory `m`;
    after the host ops   the mask as a float column and `gamma`, `beta` as rows written, the
                         rest as launched;
    after region 0       its output array (3×512) at what its last write-back left, the rest
                         unchanged;
    after region 1       its output array (65536×512) at what its write-backs left, the rest
                         unchanged.

  Each region's half (its proof data, the body obligation, the invariant at the two ends) is a
  hypothesis here: this module only threads the buffers through the boundaries and reads the
  final memory, so it is stated once for any float instance and any two halves whose arrays are
  the entry contents. The result names the output array after the run and says that the four
  argument arrays end as launched.
-/
import proofs.«103854_g2027224563999_cont_sun_m_333_3_alg».proof.Proof.Gen.Kernel.Launch
import proofs.«103854_g2027224563999_cont_sun_m_333_3_alg».proof.Proof.Gen.Kernel.Skeleton
import proofs.«103854_g2027224563999_cont_sun_m_333_3_alg».proof.Proof.Gen.Kernel.Points
import proofs.«103854_g2027224563999_cont_sun_m_333_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- A TensorCore's buffer contents, by reference. -/
abbrev Cont (F : FTy → Type) [FloatOps F] : Type := (c : Dev nD) → (b : Ref sig .tc) → Buf (Elt F) ((c : Thread nD τ).loc b)

variable (m : (ℓ : Loc nD τ sig) → Buf (Elt F) ℓ) (ρ : Dev nD → PrngReg)

/-! ## The two region halves, as hypotheses -/

variable (dat0 : Cont F → (c : Dev nD) → Dat τ (Elt F) Unit ℕ (Pipeline.UD sig nD τ) ℕ cfg0 c)
  (dat1 : Cont F → (c : Dev nD) → Dat τ (Elt F) Unit ℕ (Pipeline.UD sig nD τ) ℕ cfg1 c)

/-- What this module needs of region 0's half: its arrays are the entry contents, full shares, nothing owed, the body
    obligation, and the region's invariant entered from and left at the plain one. -/
structure Half0 : Prop where
  hA : ∀ (V : Cont F) c w, (dat0 V c).A w = V c (Pipeline.arrRef spec0 w)
  hq : ∀ (V : Cont F) c w, (dat0 V c).q w = fullShare
  howed : ∀ (V : Cont F) c t, (dat0 V c).owed t = 0
  hrec : ∀ (V : Cont F) c t, (dat0 V c).recorded t = Set.univ
  hbody : ∀ (V : Cont F) c, BodyObligation (dat0 V c) (defs₀ (F := F)) Variants.none () Set.univ
  hin : ∀ (V : Cont F) c, (Pipeline.ΦA spec0 c : sProp 𝕄) ⊢ (dat0 V c).Φ 0
  hout : ∀ (V : Cont F) c, (dat0 V c).Φ (Fin.last cfg0.N) ⊢ (Pipeline.ΦA spec0 c : sProp 𝕄)

/-- The same of region 1's half. -/
structure Half1 : Prop where
  hA : ∀ (V : Cont F) c w, (dat1 V c).A w = V c (Pipeline.arrRef spec1 w)
  hq : ∀ (V : Cont F) c w, (dat1 V c).q w = fullShare
  howed : ∀ (V : Cont F) c t, (dat1 V c).owed t = 0
  hrec : ∀ (V : Cont F) c t, (dat1 V c).recorded t = Set.univ
  hbody : ∀ (V : Cont F) c, BodyObligation (dat1 V c) (defs₀ (F := F)) Variants.none () Set.univ
  hin : ∀ (V : Cont F) c, (Pipeline.ΦA spec1 c : sProp 𝕄) ⊢ (dat1 V c).Φ 0
  hout : ∀ (V : Cont F) c, (dat1 V c).Φ (Fin.last cfg1.N) ⊢ (Pipeline.ΦA spec1 c : sProp 𝕄)

/-! ## The buffer contents at each boundary -/

/-- At launch. -/
abbrev W0 : Dev nD → Valuation τ sig (Elt F) := fun c b => m ((c : Dev nD), b)
/-- After the host's four layout operations (region 0's entry). -/
abbrev W1 : Dev nD → Valuation τ sig (Elt F) := fun c => StableHlo.after hostOps0 (W0 m c)
abbrev V1 : Cont F := fun c b => W1 m c b
/-- After region 0 (region 1's entry): its arrays at what the pipeline leaves, the rest as entered. -/
def W2 (c : Dev nD) : Valuation τ sig (Elt F) :=
  Pipeline.withArrays spec0 c (W1 m c) fun w => (dat0 (V1 m) c).arrAt w cfg0.N
abbrev V2 : Cont F := fun c b => W2 m dat0 c b
/-- After region 1: its arrays at what the pipeline leaves, the rest as entered. -/
def W3 (c : Dev nD) : Valuation τ sig (Elt F) :=
  Pipeline.withArrays spec1 c (W2 m dat0 c) fun w => (dat1 (V2 m dat0) c).arrAt w cfg1.N
abbrev V3 : Cont F := fun c b => W3 m dat0 dat1 c b

theorem W2_arr (c : Dev nD) (w : Fin cfg0.W) :
    W2 m dat0 c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m dat0 c (Proc.devRef .tc b) = W1 m c (Proc.devRef .tc b) := by
  unfold W2; exact Pipeline.withArrays_of_ne spec0 c _ _ b hb
theorem hF0 (c : Dev nD) (w : Fin cfg0.W) : (dat0 (V1 m) c).arrAt w cfg0.N = V2 m dat0 c (Pipeline.arrRef spec0 w) :=
  (W2_arr m dat0 c w).symm
theorem hrest0 (c : Dev nD) : ∀ b, b ∉ Finset.univ.image (Pipeline.arrRef spec0) → V2 m dat0 c b = V1 m c b :=
  fun b hb => W2_of_ne m dat0 c b fun w e => hb (Finset.mem_image.mpr ⟨w, Finset.mem_univ _, e⟩)

theorem W3_arr (c : Dev nD) (w : Fin cfg1.W) :
    W3 m dat0 dat1 c (Proc.devRef .tc (Pipeline.arrRef spec1 w)) = (dat1 (V2 m dat0) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m dat0 dat1 c (Proc.devRef .tc b) = W2 m dat0 c (Proc.devRef .tc b) := by
  unfold W3; exact Pipeline.withArrays_of_ne spec1 c _ _ b hb
theorem hF1 (c : Dev nD) (w : Fin cfg1.W) : (dat1 (V2 m dat0) c).arrAt w cfg1.N = V3 m dat0 dat1 c (Pipeline.arrRef spec1 w) :=
  (W3_arr m dat0 dat1 c w).symm
theorem hrest1 (c : Dev nD) : ∀ b, b ∉ Finset.univ.image (Pipeline.arrRef spec1) → V3 m dat0 dat1 c b = V2 m dat0 c b :=
  fun b hb => W3_of_ne m dat0 dat1 c b fun w e => hb (Finset.mem_image.mpr ⟨w, Finset.mem_univ _, e⟩)

/-- The host operations write none of the arguments. -/
theorem W1_of (c : Dev nD) (r : Ref sig .tc) (h : r ∉ hostOps0_W) : W1 m c (Proc.devRef .tc r) = W0 m c (Proc.devRef .tc r) :=
  StableHlo.after_of_writes_sub hostOps0 _ hostOps0_writes h

end Cert.Kernel.Fr

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
variable (dat0 : Cont F → (c : Dev nD) → Dat τ (Elt F) Unit ℕ (Pipeline.UD sig nD τ) ℕ cfg0 c)
  (dat1 : Cont F → (c : Dev nD) → Dat τ (Elt F) Unit ℕ (Pipeline.UD sig nD τ) ℕ cfg1 c)
variable (h0 : Half0 dat0) (h1 : Half1 dat1)

/-! ## The arguments end as launched

No host operation writes an argument; a region reads `x` through an input window (whose array the pipeline leaves as it
found it) and never touches the mask, `gamma` or `beta` (the regions read their reshaped copies). -/

include h0 h1 in
theorem W3_main_arg0 (c : Dev nD) : W3 m dat0 dat1 c (Proc.devRef .tc main_arg0) = m ((c : Thread nD τ).loc main_arg0) :=
  calc W3 m dat0 dat1 c (Proc.devRef .tc main_arg0)
    _ = W2 m dat0 c (Proc.devRef .tc main_arg0) := (W3_arr m dat0 dat1 c 0).trans (((dat1 (V2 m dat0) c).arrAt_in 0 rfl _).trans (h1.hA (V2 m dat0) c 0))
    _ = W1 m c (Proc.devRef .tc main_arg0) := (W2_arr m dat0 c 0).trans (((dat0 (V1 m) c).arrAt_in 0 rfl _).trans (h0.hA (V1 m) c 0))
    _ = W0 m c (Proc.devRef .tc main_arg0) := W1_of m c main_arg0 (by decide)
    _ = m ((c : Thread nD τ).loc main_arg0) := rfl
theorem W3_main_arg1 (c : Dev nD) : W3 m dat0 dat1 c (Proc.devRef .tc main_arg1) = m ((c : Thread nD τ).loc main_arg1) :=
  calc W3 m dat0 dat1 c (Proc.devRef .tc main_arg1)
    _ = W2 m dat0 c (Proc.devRef .tc main_arg1) := W3_of_ne m dat0 dat1 c main_arg1 (by decide)
    _ = W1 m c (Proc.devRef .tc main_arg1) := W2_of_ne m dat0 c main_arg1 (by decide)
    _ = W0 m c (Proc.devRef .tc main_arg1) := W1_of m c main_arg1 (by decide)
    _ = m ((c : Thread nD τ).loc main_arg1) := rfl
theorem W3_main_arg2 (c : Dev nD) : W3 m dat0 dat1 c (Proc.devRef .tc main_arg2) = m ((c : Thread nD τ).loc main_arg2) :=
  calc W3 m dat0 dat1 c (Proc.devRef .tc main_arg2)
    _ = W2 m dat0 c (Proc.devRef .tc main_arg2) := W3_of_ne m dat0 dat1 c main_arg2 (by decide)
    _ = W1 m c (Proc.devRef .tc main_arg2) := W2_of_ne m dat0 c main_arg2 (by decide)
    _ = W0 m c (Proc.devRef .tc main_arg2) := W1_of m c main_arg2 (by decide)
    _ = m ((c : Thread nD τ).loc main_arg2) := rfl
theorem W3_main_arg3 (c : Dev nD) : W3 m dat0 dat1 c (Proc.devRef .tc main_arg3) = m ((c : Thread nD τ).loc main_arg3) :=
  calc W3 m dat0 dat1 c (Proc.devRef .tc main_arg3)
    _ = W2 m dat0 c (Proc.devRef .tc main_arg3) := W3_of_ne m dat0 dat1 c main_arg3 (by decide)
    _ = W1 m c (Proc.devRef .tc main_arg3) := W2_of_ne m dat0 c main_arg3 (by decide)
    _ = W0 m c (Proc.devRef .tc main_arg3) := W1_of m c main_arg3 (by decide)
    _ = m ((c : Thread nD τ).loc main_arg3) := rfl

/-! ## The proof data family and the thread state -/

/-- No pipeline has a prefetched table. -/
abbrev adm : (p : Fin 2) → (pcfgs (F := F) p).Adm := fun p => (cfgs p).toPCfg_adm
/-- Each pipeline's proof data at its region's entry contents (a literal match on the pipeline's number). -/
def pdats : (p : Fin 2) → (c : Dev nD) → Dat τ (Elt F) Unit ℕ (Pipeline.UD sig nD τ) ℕ (Pipeline.pin (pcfgs (F := F)) adm p) c
  | ⟨0, _⟩ => fun c => dat0 (V1 m) c
  | ⟨1, _⟩ => fun c => dat1 (V2 m dat0) c
abbrev 𝒱₀ : Variants := Variants.none
abbrev L : GSem nD τ sig → Finset Unit := fun _ => ∅
abbrev lv : GSem nD τ sig → Unit → ℕ := fun _ _ => 0
/-- What rides beside the buffers through every piece: the generator register at some state, and nothing owed. -/
abbrev R (c : Dev nD) : sProp 𝕄 := iprop((∃ r, prngReg c r) ∗ ∃ W, owes (c : Thread nD τ) (0 : CellTallies nD τ sig Unit) W)

/-- The host's four operations as a piece, from the launch contents. -/
abbrev hseg0 : Pipeline.HostSeg (Name := ℕ) (U := Pipeline.UD sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m dat0 dat1 c) ∗ ∃ r, prngReg c r)

end Cert.Kernel.Fr

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
variable (dat0 : Cont F → (c : Dev nD) → Dat τ (Elt F) Unit ℕ (Pipeline.UD sig nD τ) ℕ cfg0 c)
  (dat1 : Cont F → (c : Dev nD) → Dat τ (Elt F) Unit ℕ (Pipeline.UD sig nD τ) ℕ cfg1 c)
variable (h0 : Half0 dat0) (h1 : Half1 dat1)

/-! ## The regions as pieces -/

set_option backward.isDefEq.respectTransparency.types false in
/-- Region 0 over the thread state: entered with every unscoped buffer at `W1`, left with them at `W2`. Its arrays are
    split out of the unscoped buffers and put back at the exit contents; the generator register goes into the region's
    invariant and comes back; nothing is owed; the kernel has no semaphore of its own. -/
def reg0 : Pipeline.RegionSeg (pcfgs (F := F)) adm (pdats m dat0 dat1) () defs₀ 𝒱₀ L lv 0 where
  win := launch0.win.to₀
  block_pos := launch0.block_pos
  stage_whole := launch0.stage_whole
  K := PEmpty
  osem k := k.elim
  ho := Pipeline.OwnSemFacts.none _
  hbody c := (h0.hbody (V1 m) c).loose
  hwaits := Pipeline.hwaits_of_owed_zero _ _ _ _ L lv 0 fun c t => h0.howed (V1 m) c t
  pre c := iprop(StableHlo.held (c : Thread nD τ) (Pipeline.ucRefs τ sig) (W1 m c) ∗ R c)
  post c := iprop(StableHlo.held (c : Thread nD τ) (Pipeline.ucRefs τ sig) (W2 m dat0 c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m c)
  hentry c := by
    have ho : (pdats m dat0 dat1 0 c).owed 0 = 0 := h0.howed (V1 m) c 0
    have hr : (pdats m dat0 dat1 0 c).recorded 0 = Set.univ := h0.hrec (V1 m) c 0
    rw [Pipeline.ownSems0_none]
    have hsplit := Pipeline.arrays_of_unscopedBufs (p := 0) (pcfgs (F := F)) adm (pdats m dat0 dat1) launch0.win launch0.arr_whole c
      ((pdats m dat0 dat1 0 c).share_full fun w => h0.hq (V1 m) c w) (V1 m c) fun w => h0.hA (V1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho]
      icases HO with ⟨%W, HO⟩; iexists W; isplitr; · ipureintro; exact fun _ _ => Or.inl (by rw [hr]; trivial)
      iexact HO
    isplitl [Hp]; · iexact Hp
    iexact Hrest
  hin c := by
    have hA : (Pipeline.ΦA spec0 c : sProp 𝕄) ⊢ (pdats m dat0 dat1 0 c).Φ 0 := h0.hin (V1 m) c
    unfold Pipeline.ΦA at hA
    iintro ⟨Hp, -, Hr⟩
    iapply hA
    isplitl [Hr]; · iexact Hr
    iexact Hp
  hout c := by
    have hA : (pdats m dat0 dat1 0 c).Φ (Fin.last (Pipeline.pin (pcfgs (F := F)) adm 0).N) ⊢ (Pipeline.ΦA spec0 c : sProp 𝕄) := h0.hout (V1 m) c
    unfold Pipeline.ΦA at hA
    rw [Pipeline.ownSems0_none]
    iintro HΦ
    ihave HA := hA $$ HΦ
    icases HA with ⟨Hr, Hp⟩
    isplitl [Hp]; · iexact Hp
    isplitr; · iempintro
    iexact Hr
  hexit c := by
    have ho : (pdats m dat0 dat1 0 c).owed (Fin.last (Pipeline.pin (pcfgs (F := F)) adm 0).N) = 0 := h0.howed (V1 m) c _
    have hjoin := Pipeline.unscopedBufs_of_arrays (p := 0) (pcfgs (F := F)) adm (Ix := Unit) (Name := ℕ) (U := Pipeline.UD sig nD τ) (Lvl := ℕ)
      launch0.win launch0.arr_whole c (pdats m dat0 dat1) ((pdats m dat0 dat1 0 c).share_full fun w => h0.hq (V1 m) c w)
      (V1 m c) (V2 m dat0 c) ((pdats m dat0 dat1 0 c).arrAt · cfg0.N) (hF0 m dat0 c) (hrest0 m dat0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho]
    icases HO with ⟨%W, -, HO⟩; iexists W; iexact HO

set_option backward.isDefEq.respectTransparency.types false in
/-- Region 1 over the thread state: entered with every unscoped buffer at `W2`, left with them at `W3`, in the same way. -/
def reg1 : Pipeline.RegionSeg (pcfgs (F := F)) adm (pdats m dat0 dat1) () defs₀ 𝒱₀ L lv 1 where
  win := launch1.win.to₀
  block_pos := launch1.block_pos
  stage_whole := launch1.stage_whole
  K := PEmpty
  osem k := k.elim
  ho := Pipeline.OwnSemFacts.none _
  hbody c := (h1.hbody (V2 m dat0) c).loose
  hwaits := Pipeline.hwaits_of_owed_zero _ _ _ _ L lv 1 fun c t => h1.howed (V2 m dat0) c t
  pre c := iprop(StableHlo.held (c : Thread nD τ) (Pipeline.ucRefs τ sig) (W2 m dat0 c) ∗ R c)
  post c := iprop(Tₙ m dat0 dat1 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V2 m dat0 c)
  hentry c := by
    have ho : (pdats m dat0 dat1 1 c).owed 0 = 0 := h1.howed (V2 m dat0) c 0
    have hr : (pdats m dat0 dat1 1 c).recorded 0 = Set.univ := h1.hrec (V2 m dat0) c 0
    rw [Pipeline.ownSems0_none]
    have hsplit := Pipeline.arrays_of_unscopedBufs (p := 1) (pcfgs (F := F)) adm (pdats m dat0 dat1) launch1.win launch1.arr_whole c
      ((pdats m dat0 dat1 1 c).share_full fun w => h1.hq (V2 m dat0) c w) (V2 m dat0 c) fun w => h1.hA (V2 m dat0) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho]
      icases HO with ⟨%W, HO⟩; iexists W; isplitr; · ipureintro; exact fun _ _ => Or.inl (by rw [hr]; trivial)
      iexact HO
    isplitl [Hp]; · iexact Hp
    iexact Hrest
  hin c := by
    have hA : (Pipeline.ΦA spec1 c : sProp 𝕄) ⊢ (pdats m dat0 dat1 1 c).Φ 0 := h1.hin (V2 m dat0) c
    unfold Pipeline.ΦA at hA
    iintro ⟨Hp, -, Hr⟩
    iapply hA
    isplitl [Hr]; · iexact Hr
    iexact Hp
  hout c := by
    have hA : (pdats m dat0 dat1 1 c).Φ (Fin.last (Pipeline.pin (pcfgs (F := F)) adm 1).N) ⊢ (Pipeline.ΦA spec1 c : sProp 𝕄) := h1.hout (V2 m dat0) c
    unfold Pipeline.ΦA at hA
    rw [Pipeline.ownSems0_none]
    iintro HΦ
    ihave HA := hA $$ HΦ
    icases HA with ⟨Hr, Hp⟩
    isplitl [Hp]; · iexact Hp
    isplitr; · iempintro
    iexact Hr
  hexit c := by
    have ho : (pdats m dat0 dat1 1 c).owed (Fin.last (Pipeline.pin (pcfgs (F := F)) adm 1).N) = 0 := h1.howed (V2 m dat0) c _
    have hjoin := Pipeline.unscopedBufs_of_arrays (p := 1) (pcfgs (F := F)) adm (Ix := Unit) (Name := ℕ) (U := Pipeline.UD sig nD τ) (Lvl := ℕ)
      launch1.win launch1.arr_whole c (pdats m dat0 dat1) ((pdats m dat0 dat1 1 c).share_full fun w => h1.hq (V2 m dat0) c w)
      (V2 m dat0 c) (V3 m dat0 dat1 c) ((pdats m dat0 dat1 1 c).arrAt · cfg1.N) (hF1 m dat0 dat1 c) (hrest1 m dat0 dat1 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [ho]
    icases HO with ⟨%W, -, HO⟩; iexists W; iexact HO

/-! ## The program as its pieces, and the run -/

/-- The three pieces in order. -/
abbrev segs : List (Pipeline.Seg (pcfgs (F := F)) adm (pdats m dat0 dat1) () defs₀ 𝒱₀ L lv) :=
  [ .host (hseg0 m),
    .region (reg0 m dat0 dat1 h0),
    .region (reg1 m dat0 dat1 h1) ]

/-- The printed program is the run of the pieces. -/
theorem main_run (c : Dev nD) : main (F := F) c = Pipeline.Seg.run (segs m dat0 dat1 h0 h1) :=
  main_segs adm (pdats m dat0 dat1) () 𝒱₀ L lv (hseg0 m) (reg0 m dat0 dat1 h0) (reg1 m dat0 dat1 h1) rfl c

include h0 h1 in
set_option backward.isDefEq.respectTransparency.types false in
/-- THE RUN. From any memory with zero counters every weakly fair execution of the program terminates, nothing
    faulting; the output array ends at what region 1's write-backs leave (`V3 … main_v5`) and the four argument arrays
    end as launched. -/
theorem run_named : θ_run defs (onTc (τ := τ) (main (F := F))) ⟨m, fun _ => 0, ρ⟩ (fun r => ∀ c : Dev nD,
      r.2.mem ((c.tc : Thread nD τ).loc main_v5) = V3 m dat0 dat1 c main_v5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m dat0 dat1) () cellOf_inj embL defs₀ 𝒱₀ L lv m ρ main (segs m dat0 dat1 h0 h1)
    (fun c Q => by rw [main_run m dat0 dat1 h0 h1 c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m dat0 dat1)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m dat0 dat1 c b)
    (hfin := fun c s' => by
      iintro ⟨⟨Hh, -⟩, HSI⟩
      unfold StableHlo.held
      imodintro
      iapply (pointsTo_read_all (Pipeline.ucRefs τ sig) (fun b => (((c : Thread nD τ)).1, b)) (W3 m dat0 dat1 c) s')
      isplitl [Hh] <;> iassumption)
    (hQ := fun s h c =>
      ⟨h c _ (mem_uc main_v5 (by decide)),
       (h c _ (mem_uc main_arg0 (by decide))).trans (W3_main_arg0 m dat0 dat1 h0 h1 c),
       (h c _ (mem_uc main_arg1 (by decide))).trans (W3_main_arg1 m dat0 dat1 c),
       (h c _ (mem_uc main_arg2 (by decide))).trans (W3_main_arg2 m dat0 dat1 c),
       (h c _ (mem_uc main_arg3 (by decide))).trans (W3_main_arg3 m dat0 dat1 c)⟩)

/-- The output array after the run is what region 1's write-backs leave of it. -/
theorem V3_main_v5 (c : Dev nD) : V3 m dat0 dat1 c main_v5 = (dat1 (V2 m dat0) c).arrAt 5 cfg1.N :=
  W3_arr m dat0 dat1 c 5
/-- The 3×512 array region 1 is handed is what region 0's write-back left. -/
theorem V2_main_v4 (c : Dev nD) : V2 m dat0 c main_v4 = (dat0 (V1 m) c).arrAt 2 cfg0.N :=
  W2_arr m dat0 c 2
include h0 in
/-- The other arrays region 1 reads are as region 0 found them. -/
theorem V2_main_arg0 (c : Dev nD) : V2 m dat0 c main_arg0 = V1 m c main_arg0 :=
  (W2_arr m dat0 c 0).trans (((dat0 (V1 m) c).arrAt_in 0 rfl _).trans (h0.hA (V1 m) c 0))
include h0 in
theorem V2_main_v1 (c : Dev nD) : V2 m dat0 c main_v1 = V1 m c main_v1 :=
  (W2_arr m dat0 c 1).trans (((dat0 (V1 m) c).arrAt_in 1 rfl _).trans (h0.hA (V1 m) c 1))
theorem V2_main_v2 (c : Dev nD) : V2 m dat0 c main_v2 = V1 m c main_v2 := W2_of_ne m dat0 c main_v2 (by decide)
theorem V2_main_v3 (c : Dev nD) : V2 m dat0 c main_v3 = V1 m c main_v3 := W2_of_ne m dat0 c main_v3 (by decide)

end Cert.Kernel.Fr

end
-- ==== Proof.KI.Acc.lean ====
/-
  What the two kernels keep between grid points, and what they store, as pure functions of the
  blocks they are handed — stated once, for any float instance.

  The first kernel walks the 64 row blocks of `x` (1024 rows each) and of the mask column, keeping
  three running values in scratch: the column sums of `x·m`, the column sums of `(x·m)·x`, and the
  sum of `m`. At the first block the three start from zero. At the last block it stores them as
  the three rows of a 3×512 array (the count broadcast along the row).

  The second kernel turns those three rows, `gamma` and `beta` into two coefficient rows at its
  first block (kept in scratch, unchanged afterwards) and at every block stores
  `x + (x·c + b)·m`.
-/
import proofs.«103854_g2027224563999_cont_sun_m_333_3_alg».proof.Proof.Gen.KernelIdeal.Launch
import proofs.«103854_g2027224563999_cont_sun_m_333_3_alg».proof.Proof.Gen.KernelIdeal.Skeleton
import proofs.«103854_g2027224563999_cont_sun_m_333_3_alg».proof.Proof.Gen.KernelIdeal.Points
import Idealize.ShloMosaic.Lib.Pipeline.FrameBody

set_option maxRecDepth 16384

noncomputable section

namespace Cert.KernelIdeal.Fr

open Idealize.ShloMosaic Idealize.ShloMosaic.TcCoe
open Idealize.SL Idealize.SL.Sem
open Cert.KernelIdeal Cert.KernelIdeal.Gen

variable {F : FTy → Type} [FloatOps F]

-- the TensorCore's buffer contents when a region is entered
variable (V : (c : Dev nD) → (b : Ref sig .tc) → Buf (Elt F) ((c : Thread nD τ).loc b))

/-! ## The first kernel (row and count sums) -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three running values: sums of `x·m`, sums of `(x·m)·x`, sum of `m`. -/
abbrev Sc0 (F : FTy → Type) [FloatOps F] : Type := Vec F S1x512 .f32 × Vec F S1x512 .f32 × Vec F S1x1 .f32

/-- The running values before the first block: zeros. -/
def zero0 : Sc0 F := (k0_pay2, k0_pay3, k0_pay4)

/-- One block folded into the running values: each gains the block's column sums. -/
def step0 (x0 : Vec F S1024x512 .f32) (x1 : Vec F S1024x1 .f32) (a : Sc0 F) : Sc0 F :=
  (k0_pay7 x0 x1 a.1, k0_pay8 x0 x1 a.2.1, k0_pay9 x1 a.2.2)

/-- The running values after grid point `n`. -/
def acc0 (c : Dev nD) : (n : ℕ) → n < cfg0.N → Sc0 F
  | 0, hn => step0 (iblk0 V c 0 ⟨0, hn⟩) (iblk0 V c 1 ⟨0, hn⟩) zero0
  | n + 1, hn => step0 (iblk0 V c 0 ⟨n + 1, hn⟩) (iblk0 V c 1 ⟨n + 1, hn⟩) (acc0 c n (Nat.lt_of_succ_lt hn))

theorem acc0_zero (c : Dev nD) (hn : 0 < cfg0.N) :
    acc0 V c 0 hn = step0 (iblk0 V c 0 ⟨0, hn⟩) (iblk0 V c 1 ⟨0, hn⟩) zero0 := rfl
theorem acc0_succ (c : Dev nD) (n : ℕ) (hn : n + 1 < cfg0.N) :
    acc0 V c (n + 1) hn = step0 (iblk0 V c 0 ⟨n + 1, hn⟩) (iblk0 V c 1 ⟨n + 1, hn⟩) (acc0 V c n (Nat.lt_of_succ_lt hn)) := rfl

/-- The three rows of the 3×512 result. -/
abbrev row0 : Rect S3x512 := Rect.unit (s := S3x512) ![0, 0] S1x512.size inb_S3x512_S1x512_0_0
abbrev row1 : Rect S3x512 := Rect.unit (s := S3x512) ![1, 0] S1x512.size inb_S3x512_S1x512_1_0
abbrev row2 : Rect S3x512 := Rect.unit (s := S3x512) ![2, 0] S1x512.size inb_S3x512_S1x512_2_0

/-- What the last block's stores leave in the 3×512 result: the three running values as its rows
    (the pieces last-stored first). -/
def out0 (a : Sc0 F) : Vec F S3x512 .f32 :=
  View.canon [⟨row2, k0_pay1 a.2.2⟩, ⟨row1, a.2.1⟩, ⟨row0, a.1⟩]

/-! ## The second kernel (the affine map applied) -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two coefficient rows. -/
abbrev Sc1 (F : FTy → Type) [FloatOps F] : Type := Vec F S1x512 .f32 × Vec F S1x512 .f32

/-- The coefficient rows from the 3×512 sums `s`, `gamma` (`g`) and `beta` (`b`). -/
def coef1 (s : Vec F S3x512 .f32) (g b : Vec F S1x512 .f32) : Sc1 F :=
  (k1_pay4 (View.ld s row2) (View.ld s row0) (View.ld s row1) g,
   k1_pay5 (View.ld s row2) (View.ld s row0) (View.ld s row1) g b)

/-- The coefficient rows the first grid point computes; every later point finds them unchanged. -/
def acc1 (c : Dev nD) : Sc1 F :=
  coef1 (iblk1 V c 2 ⟨0, by decide⟩) (iblk1 V c 3 ⟨0, by decide⟩) (iblk1 V c 4 ⟨0, by decide⟩)

/-- What a grid point stores in its block of the result. -/
def out1 (x0 : Vec F S1024x512 .f32) (x1 : Vec F S1024x1 .f32) (a : Sc1 F) : Vec F S1024x512 .f32 :=
  k1_pay6 x0 x1 a.1 a.2

end Cert.KernelIdeal.Fr

end
-- ==== Proof.KI.R0Runs.lean ====
/-
  The first kernel's frame, the part its three control cases share: the two branch conditions
  in closed form over the grid, where the result window is idle, the staging and scratch memrefs
  as the pipeline passes them, and the region's entry invariant written buffer by buffer.
-/
import proofs.«103854_g2027224563999_cont_sun_m_333_3_alg».proof.Proof.Gen.KernelIdeal.Launch
import proofs.«103854_g2027224563999_cont_sun_m_333_3_alg».proof.Proof.Gen.KernelIdeal.Skeleton
import proofs.«103854_g2027224563999_cont_sun_m_333_3_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic
import proofs.«103854_g2027224563999_cont_sun_m_333_3_alg».proof.Proof.KI.Acc

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-! ## The body's two branch conditions -/

/-- "This is the first block": the condition of the branch that zeroes the running sums, as the
    body computes it from the grid coordinate. -/
abbrev cond0_0 (i : grid0.Coords) : Prop := (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val = 0 :=
  (by decide +kernel : ∀ t : Fin grid0.N, cond0_0 (grid0.coords t) ↔ t.val = 0)

/-- "This is the last block": the condition of the branch that stores the three rows. -/
abbrev cond0_1 (i : grid0.Coords) : Prop := k0_cond2 i = 1#1
/-- It holds at point 63 only. -/
theorem hcond0_1 : ∀ t : Fin cfg0.N, cond0_1 (grid0.coords t) ↔ t.val = 63 :=
  (by decide +kernel : ∀ t : Fin grid0.N, cond0_1 (grid0.coords t) ↔ t.val = 63)

/-! ## Where the windows are idle -/

/-- The two input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Away from the last point the result window is idle (nothing is stored into it) and its block
    is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last point it is live. -/
theorem liveAt0_2 : ∀ t : Fin cfg0.N, cond0_1 (grid0.coords t) → cfg0.idle 2 (grid0.coords t) = false := by decide +kernel

/-! ## The memrefs the body is called with -/

/-- Each window's current staging memref at point `t`, spelled as the pipeline passes it, and its wholeness. -/
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x512 .f32 := win0_2.stage (cfg0.slots t 2)
abbrev hs0_2 (t : Fin cfg0.N) : (ms0_2 t).IsWhole := hstage0_2 ((cfg0.slots t 2).cast nbuf0_2)
/-- The three scratch operands: whole scoped buffers of the kernel's own, passed beside the windows. -/
abbrev scM0_0 : Memref sig .tc .vmem S1x512 .f32 := Memref.whole cc0_scratch0
abbrev scM0_1 : Memref sig .tc .vmem S1x512 .f32 := Memref.whole cc0_scratch1
abbrev scM0_2 : Memref sig .tc .vmem S1x1 .f32 := Memref.whole cc0_scratch2

/-! ## Whole-buffer rectangles -/

/-- The offsets of a whole-buffer access of a rank-2 buffer are all zero. -/
theorem hz : (![0, 0] : Fin 2 → Nat) = fun _ => 0 := funext fun a => by fin_cases a <;> rfl

/-! ## The scoped rest, buffer by buffer -/

/-- The scoped buffers of the core that the first kernel never touches (the second kernel's
    staging and scratch), each whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The region's entry invariant: the three scratch operands as memrefs owned at some contents,
    the untouched scoped buffers, and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ others0 c) ∗ (∃ r, prngReg c r)) := by
  unfold Pipeline.ΦA others0; rw [scopedRest0_eq]; simp only [scM0_0, scM0_1, scM0_2, owns_whole]; try rfl

end Cert.KernelIdeal.Fr

end
-- ==== Proof.KI.R0RunA.lean ====
/-
  The first kernel's body at the first grid point: the branch that zeroes the three running sums
  is taken, the branch that stores the result rows is not. Each running sum is stored whole twice
  (the zero, then the zero plus this block's sums), so what is left is the second payload, whose
  read-back of the first store is the zero itself.
-/
import proofs.«103854_g2027224563999_cont_sun_m_333_3_alg».proof.Proof.KI.R0Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 1000000 in
/-- On whole memrefs — the two inputs at `x0`, `x1`, the result window at `xi2`, the three scratch
    buffers at anything — the body at a point where only the first branch is taken runs to the
    continuation holding the inputs and the result window as they were and the scratch buffers at
    one step from zero. -/
theorem kernelRun0_A (c : Dev nD) (i : grid0.Coords)
    (arg1 : Memref sig .tc .vmem S1024x512 .f32) (harg1 : arg1.IsWhole)
    (arg2 : Memref sig .tc .vmem S1024x1 .f32) (harg2 : arg2.IsWhole)
    (arg3 : Memref sig .tc .vmem S3x512 .f32) (harg3 : arg3.IsWhole)
    (arg4 : Memref sig .tc .vmem S1x512 .f32) (harg4 : arg4.IsWhole)
    (arg5 : Memref sig .tc .vmem S1x512 .f32) (harg5 : arg5.IsWhole)
    (arg6 : Memref sig .tc .vmem S1x1 .f32) (harg6 : arg6.IsWhole)
    (hc0 : cond0_0 i) (hc1 : ¬cond0_1 i)
    (x0 : Vec F S1024x512 .f32) (x1 : Vec F S1024x1 .f32) (xi2 : Vec F S3x512 .f32)
    (E : Set ℕ) (K : PUnit → sProp 𝕄) :
    iprop(owns (c : Thread nD τ) arg1 fullShare x0 ∗ owns (c : Thread nD τ) arg2 fullShare x1 ∗ owns (c : Thread nD τ) arg3 fullShare xi2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare xi2
            ∗ owns (c : Thread nD τ) arg4 fullShare (step0 x0 x1 zero0).1 ∗ owns (c : Thread nD τ) arg5 fullShare (step0 x0 x1 zero0).2.1 ∗ owns (c : Thread nD τ) arg6 fullShare (step0 x0 x1 zero0).2.2) -∗ K ⟨⟩))
      ⊢ wp frame (wpE (defs₀ (F := F)) Variants.none c none) E (cc0__stats_kernel i arg1 harg1 arg2 harg2 arg3 harg3 arg4 harg4 arg5 harg5 arg6 harg6) K := by
  simp only [cc0__stats_kernel_eq_skeleton]; unfold cc0__stats_kernel_skel
  unfold owns
  iintro ⟨⟨%f0, %hf0, H0⟩, ⟨%f1, %hf1, H1⟩, ⟨%f2, %hf2, H2⟩, ⟨%d4, %f4, -, H4⟩, ⟨%d5, %f5, -, H5⟩, ⟨%d6, %f6, -, H6⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H4]
  · iexists _; isplitr
    swap; · iexact H4
    ipureintro
    sl_unfold_run_names
    rw [View.read_writes_eq_canon _ _ _ (fun y => ⟨_, List.mem_cons_self .., View.mem_set_unit_zero hz inb_S1x512_S1x512_0_0 y⟩),
      View.canon_cons_unit_zero (S := S1x512) hz, View.readCov_unit_zero (S := S1x512) _ hz]
    simp only [View.readAt_eq_ld, harg1.read_unread, harg2.read_unread, View.ld_unit_zero (S := S1024x512) hz, View.ld_unit_zero (S := S1024x1) hz]
    rfl
  isplitl [H5]
  · iexists _; isplitr
    swap; · iexact H5
    ipureintro
    sl_unfold_run_names
    rw [View.read_writes_eq_canon _ _ _ (fun y => ⟨_, List.mem_cons_self .., View.mem_set_unit_zero hz inb_S1x512_S1x512_0_0 y⟩),
      View.canon_cons_unit_zero (S := S1x512) hz, View.readCov_unit_zero (S := S1x512) _ hz]
    simp only [View.readAt_eq_ld, harg1.read_unread, harg2.read_unread, View.ld_unit_zero (S := S1024x512) hz, View.ld_unit_zero (S := S1024x1) hz]
    rfl
  iexists _; isplitr
  swap; · iexact H6
  ipureintro
  sl_unfold_run_names
  rw [View.read_writes_eq_canon _ _ _ (fun y => ⟨_, List.mem_cons_self .., View.mem_set_unit_zero hz inb_S1x1_S1x1_0_0 y⟩),
    View.canon_cons_unit_zero (S := S1x1) hz, View.readCov_unit_zero (S := S1x1) _ hz]
  simp only [View.readAt_eq_ld, harg2.read_unread, View.ld_unit_zero (S := S1024x1) hz]
  rfl

end Cert.KernelIdeal.Fr

end
-- ==== Proof.KI.R0RunB.lean ====
/-
  The first kernel's body at a grid point that is neither the first nor the last: no branch is
  taken. Each running sum is loaded and stored whole once, so what is left is the one payload,
  whose loads read the whole buffers.
-/
import proofs.«103854_g2027224563999_cont_sun_m_333_3_alg».proof.Proof.KI.R0RunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 1000000 in
/-- On whole memrefs — the two inputs at `x0`, `x1`, the result window at `xi2`, the three scratch
    buffers at the running sums `a` — the body at a point where no branch is taken runs to the
    continuation holding the inputs and the result window as they were and the scratch buffers at
    one step from `a`. -/
theorem kernelRun0_B (c : Dev nD) (i : grid0.Coords)
    (arg1 : Memref sig .tc .vmem S1024x512 .f32) (harg1 : arg1.IsWhole)
    (arg2 : Memref sig .tc .vmem S1024x1 .f32) (harg2 : arg2.IsWhole)
    (arg3 : Memref sig .tc .vmem S3x512 .f32) (harg3 : arg3.IsWhole)
    (arg4 : Memref sig .tc .vmem S1x512 .f32) (harg4 : arg4.IsWhole)
    (arg5 : Memref sig .tc .vmem S1x512 .f32) (harg5 : arg5.IsWhole)
    (arg6 : Memref sig .tc .vmem S1x1 .f32) (harg6 : arg6.IsWhole)
    (hc0 : ¬cond0_0 i) (hc1 : ¬cond0_1 i)
    (x0 : Vec F S1024x512 .f32) (x1 : Vec F S1024x1 .f32) (xi2 : Vec F S3x512 .f32) (a : Sc0 F)
    (E : Set ℕ) (K : PUnit → sProp 𝕄) :
    iprop(owns (c : Thread nD τ) arg1 fullShare x0 ∗ owns (c : Thread nD τ) arg2 fullShare x1 ∗ owns (c : Thread nD τ) arg3 fullShare xi2
        ∗ owns (c : Thread nD τ) arg4 fullShare a.1 ∗ owns (c : Thread nD τ) arg5 fullShare a.2.1 ∗ owns (c : Thread nD τ) arg6 fullShare a.2.2
        ∗ (iprop(owns (c : Thread nD τ) arg1 fullShare x0 ∗ owns (c : Thread nD τ) arg2 fullShare x1 ∗ owns (c : Thread nD τ) arg3 fullShare xi2
            ∗ owns (c : Thread nD τ) arg4 fullShare (step0 x0 x1 a).1 ∗ owns (c : Thread nD τ) arg5 fullShare (step0 x0 x1 a).2.1 ∗ owns (c : Thread nD τ) arg6 fullShare (step0 x0 x1 a).2.2) -∗ K ⟨⟩))
      ⊢ wp frame (wpE (defs₀ (F := F)) Variants.none c none) E (cc0__stats_kernel i arg1 harg1 arg2 harg2 arg3 harg3 arg4 harg4 arg5 harg5 arg6 harg6) K := by
  simp only [cc0__stats_kernel_eq_skeleton]; unfold cc0__stats_kernel_skel
  unfold owns
  iintro ⟨⟨%f0, %hf0, H0⟩, ⟨%f1, %hf1, H1⟩, ⟨%f2, %hf2, H2⟩, ⟨%f4, %hf4, H4⟩, ⟨%f5, %hf5, H5⟩, ⟨%f6, %hf6, H6⟩, Hk⟩
  obtain rfl := harg1.eq_unread hf0; obtain rfl := harg2.eq_unread hf1; obtain rfl := harg3.eq_unread hf2
  obtain rfl := harg4.eq_unread hf4; obtain rfl := harg5.eq_unread hf5; obtain rfl := harg6.eq_unread hf6
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H4]
  · iexists _; isplitr
    swap; · iexact H4
    ipureintro
    sl_unfold_run_names
    rw [View.read_writes_eq_canon _ _ _ (fun y => ⟨_, List.mem_cons_self .., View.mem_set_unit_zero hz inb_S1x512_S1x512_0_0 y⟩),
      View.canon_unit_zero (S := S1x512) hz]
    simp only [View.readAt_eq_ld, harg1.read_unread, harg2.read_unread, harg4.read_unread, View.ld_unit_zero (S := S1024x512) hz, View.ld_unit_zero (S := S1024x1) hz, View.ld_unit_zero (S := S1x512) hz]
    rfl
  isplitl [H5]
  · iexists _; isplitr
    swap; · iexact H5
    ipureintro
    sl_unfold_run_names
    rw [View.read_writes_eq_canon _ _ _ (fun y => ⟨_, List.mem_cons_self .., View.mem_set_unit_zero hz inb_S1x512_S1x512_0_0 y⟩),
      View.canon_unit_zero (S := S1x512) hz]
    simp only [View.readAt_eq_ld, harg1.read_unread, harg2.read_unread, harg5.read_unread, View.ld_unit_zero (S := S1024x512) hz, View.ld_unit_zero (S := S1024x1) hz, View.ld_unit_zero (S := S1x512) hz]
    rfl
  iexists _; isplitr
  swap; · iexact H6
  ipureintro
  sl_unfold_run_names
  rw [View.read_writes_eq_canon _ _ _ (fun y => ⟨_, List.mem_cons_self .., View.mem_set_unit_zero hz inb_S1x1_S1x1_0_0 y⟩),
    View.canon_unit_zero (S := S1x1) hz]
  simp only [View.readAt_eq_ld, harg2.read_unread, harg6.read_unread, View.ld_unit_zero (S := S1024x1) hz, View.ld_unit_zero (S := S1x1) hz]
  rfl

end Cert.KernelIdeal.Fr

end
-- ==== Proof.KI.R0RunC.lean ====
/-
  The first kernel's body at the last grid point: the zeroing branch is not taken, the branch
  that stores the result rows is. The running sums are folded as at any other point; then each is
  read back (a load of the one store just made, hence that store's payload) and stored as a row of
  the 3×512 result — the count broadcast along its row — so the result is covered by three row
  stores, the last-stored first.
-/
import proofs.«103854_g2027224563999_cont_sun_m_333_3_alg».proof.Proof.KI.R0RunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 1000000 in
/-- On whole memrefs — the two inputs at `x0`, `x1`, the result window at anything, the three scratch
    buffers at the running sums `a` — the body at a point where only the last branch is taken runs
    to the continuation holding the inputs as they were, the scratch buffers at one step from `a`,
    and the result window at the three rows of those. -/
theorem kernelRun0_C (c : Dev nD) (i : grid0.Coords)
    (arg1 : Memref sig .tc .vmem S1024x512 .f32) (harg1 : arg1.IsWhole)
    (arg2 : Memref sig .tc .vmem S1024x1 .f32) (harg2 : arg2.IsWhole)
    (arg3 : Memref sig .tc .vmem S3x512 .f32) (harg3 : arg3.IsWhole)
    (arg4 : Memref sig .tc .vmem S1x512 .f32) (harg4 : arg4.IsWhole)
    (arg5 : Memref sig .tc .vmem S1x512 .f32) (harg5 : arg5.IsWhole)
    (arg6 : Memref sig .tc .vmem S1x1 .f32) (harg6 : arg6.IsWhole)
    (hc0 : ¬cond0_0 i) (hc1 : cond0_1 i)
    (x0 : Vec F S1024x512 .f32) (x1 : Vec F S1024x1 .f32) (a : Sc0 F)
    (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare a.1 ∗ owns (c : Thread nD τ) arg5 fullShare a.2.1 ∗ owns (c : Thread nD τ) arg6 fullShare a.2.2
        ∗ (iprop(owns (c : Thread nD τ) arg1 fullShare x0 ∗ owns (c : Thread nD τ) arg2 fullShare x1 ∗ owns (c : Thread nD τ) arg3 fullShare (out0 (step0 x0 x1 a))
            ∗ owns (c : Thread nD τ) arg4 fullShare (step0 x0 x1 a).1 ∗ owns (c : Thread nD τ) arg5 fullShare (step0 x0 x1 a).2.1 ∗ owns (c : Thread nD τ) arg6 fullShare (step0 x0 x1 a).2.2) -∗ K ⟨⟩))
      ⊢ wp frame (wpE (defs₀ (F := F)) Variants.none c none) E (cc0__stats_kernel i arg1 harg1 arg2 harg2 arg3 harg3 arg4 harg4 arg5 harg5 arg6 harg6) K := by
  simp only [cc0__stats_kernel_eq_skeleton]; unfold cc0__stats_kernel_skel
  unfold owns
  iintro ⟨⟨%f0, %hf0, H0⟩, ⟨%f1, %hf1, H1⟩, ⟨%d2, %f2, -, H2⟩, ⟨%f4, %hf4, H4⟩, ⟨%f5, %hf5, H5⟩, ⟨%f6, %hf6, H6⟩, Hk⟩
  obtain rfl := harg1.eq_unread hf0; obtain rfl := harg2.eq_unread hf1
  obtain rfl := harg4.eq_unread hf4; obtain rfl := harg5.eq_unread hf5; obtain rfl := harg6.eq_unread hf6
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_run_names
    refine (View.read_writes_eq_canon (Val := Elt F) _ _ _ (View.cover_of_tiledL (Val := Elt F) (s := S3x512) _ S1x512.size ?_)).trans ?_
    · sl_kernel_rfl
    simp only [View.readCov_unit_zero (S := S1x512) _ hz, View.readCov_unit_zero (S := S1x1) _ hz, View.readAt_eq_ld,
      harg1.read_unread, harg2.read_unread, harg4.read_unread, harg5.read_unread, harg6.read_unread,
      View.ld_unit_zero (S := S1024x512) hz, View.ld_unit_zero (S := S1024x1) hz, View.ld_unit_zero (S := S1x512) hz, View.ld_unit_zero (S := S1x1) hz]
    rfl
  isplitl [H4]
  · iexists _; isplitr
    swap; · iexact H4
    ipureintro
    sl_unfold_run_names
    rw [View.read_writes_eq_canon _ _ _ (fun y => ⟨_, List.mem_cons_self .., View.mem_set_unit_zero hz inb_S1x512_S1x512_0_0 y⟩),
      View.canon_unit_zero (S := S1x512) hz]
    simp only [View.readAt_eq_ld, harg1.read_unread, harg2.read_unread, harg4.read_unread, View.ld_unit_zero (S := S1024x512) hz, View.ld_unit_zero (S := S1024x1) hz, View.ld_unit_zero (S := S1x512) hz]
    rfl
  isplitl [H5]
  · iexists _; isplitr
    swap; · iexact H5
    ipureintro
    sl_unfold_run_names
    rw [View.read_writes_eq_canon _ _ _ (fun y => ⟨_, List.mem_cons_self .., View.mem_set_unit_zero hz inb_S1x512_S1x512_0_0 y⟩),
      View.canon_unit_zero (S := S1x512) hz]
    simp only [View.readAt_eq_ld, harg1.read_unread, harg2.read_unread, harg5.read_unread, View.ld_unit_zero (S := S1024x512) hz, View.ld_unit_zero (S := S1024x1) hz, View.ld_unit_zero (S := S1x512) hz]
    rfl
  iexists _; isplitr
  swap; · iexact H6
  ipureintro
  sl_unfold_run_names
  rw [View.read_writes_eq_canon _ _ _ (fun y => ⟨_, List.mem_cons_self .., View.mem_set_unit_zero hz inb_S1x1_S1x1_0_0 y⟩),
    View.canon_unit_zero (S := S1x1) hz]
  simp only [View.readAt_eq_ld, harg2.read_unread, harg6.read_unread, View.ld_unit_zero (S := S1024x1) hz, View.ld_unit_zero (S := S1x1) hz]
  rfl

end Cert.KernelIdeal.Fr

end
-- ==== Proof.KI.R0Frame.lean ====
/-
  The first kernel's frame: the invariant carried between grid points (the three scratch buffers
  at the running sums after the point before), the pipeline's proof data over it, and the body
  obligation — at every point the closed forms of the two branch conditions select one of the
  three runs, the inputs' staging buffers hold their blocks, and the result window is handed back
  untouched except at the last point, where it receives the three rows.
-/
import proofs.«103854_g2027224563999_cont_sun_m_333_3_alg».proof.Proof.KI.R0RunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The running sums at a point, by its position -/

/-- At the first point the running sums are one step from zero. -/
theorem acc0_first (c : Dev nD) (t : Fin cfg0.N) (h : t.val = 0) :
    acc0 V c t.val t.isLt = step0 (iblk0 V c 0 t) (iblk0 V c 1 t) zero0 := by
  obtain ⟨n, hn⟩ := t
  cases n with
  | zero => rfl
  | succ n => exact absurd h (Nat.succ_ne_zero _)

/-- At any later point they are one step from those of the point before. -/
theorem acc0_later (c : Dev nD) (t : Fin cfg0.N) (h : t.val ≠ 0) :
    acc0 V c t.val t.isLt = step0 (iblk0 V c 0 t) (iblk0 V c 1 t) (acc0 V c (t.val - 1) (Nat.lt_of_le_of_lt (Nat.sub_le _ _) t.isLt)) := by
  obtain ⟨n, hn⟩ := t
  cases n with
  | zero => exact absurd rfl h
  | succ n => rfl

/-! ## The invariant carried between points -/

/-- Before position `n`: at the first point the entry invariant (every scoped buffer at anything);
    afterwards the three scratch buffers at the running sums after point `n - 1`, the other scoped
    buffers at anything, and the generator register at some state. -/
def PhiS0 (c : Dev nD) : (n : ℕ) → n ≤ cfg0.N → sProp 𝕄
  | 0, _ => Pipeline.ΦA spec0 c
  | n + 1, hn => iprop(iprop(owns (c : Thread nD τ) scM0_0 fullShare (acc0 V c n hn).1 ∗ owns (c : Thread nD τ) scM0_1 fullShare (acc0 V c n hn).2.1 ∗ owns (c : Thread nD τ) scM0_2 fullShare (acc0 V c n hn).2.2 ∗ others0 c) ∗ (∃ r, prngReg c r))

theorem PhiS0_zero (c : Dev nD) (n : ℕ) (h : n ≤ cfg0.N) (hn : n = 0) : PhiS0 V c n h = Pipeline.ΦA spec0 c := by
  subst hn; rfl

theorem PhiS0_succ (c : Dev nD) (n : ℕ) (hn : n < cfg0.N) :
    PhiS0 V c (n + 1) hn = iprop(iprop(owns (c : Thread nD τ) scM0_0 fullShare (acc0 V c n hn).1 ∗ owns (c : Thread nD τ) scM0_1 fullShare (acc0 V c n hn).2.1 ∗ owns (c : Thread nD τ) scM0_2 fullShare (acc0 V c n hn).2.2 ∗ others0 c) ∗ (∃ r, prngReg c r)) := rfl

theorem PhiS0_pos (c : Dev nD) (n : ℕ) (h : n ≤ cfg0.N) (hn : n ≠ 0) :
    PhiS0 V c n h = iprop(iprop(owns (c : Thread nD τ) scM0_0 fullShare (acc0 V c (n - 1) (by omega)).1 ∗ owns (c : Thread nD τ) scM0_1 fullShare (acc0 V c (n - 1) (by omega)).2.1 ∗ owns (c : Thread nD τ) scM0_2 fullShare (acc0 V c (n - 1) (by omega)).2.2 ∗ others0 c) ∗ (∃ r, prngReg c r)) := by
  cases n with
  | zero => exact absurd rfl hn
  | succ n => rfl

/-! ## The pipeline's proof data -/

/-- The proof data of the first pipeline on core `c`: the arrays as the region finds them; after the
    body at point `t` each input's buffer at its block and the result's at the three rows of the
    running sums (consulted at the last point only: elsewhere the window is idle and not written
    back); the invariant `PhiS0`; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0 (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (acc0 V c t.val t.isLt) := by dsimp only [dat0]

/-- An input window's current staging buffer holds its block at every point, fetched there or
    not, for any proof data over the region's entry contents whose body leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' memrefs hold their blocks; the closed forms say which of the
    three cases the point is in; the invariant hands the body the scratch buffers at the running
    sums the point before left (at anything at the first point) and takes them back at this
    point's; the result window is handed back as found except at the last point, where the three
    rows are stored; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 64 := lt_of_lt_of_eq t.isLt (show cfg0.N = 64 from N_0)
  by_cases h0 : t.val = 0
  · have h1 : ¬t.val = 63 := by omega
    rw [Dat.leavesExact_idle (dat0 V c) 2 t (idleAt0_2 t (fun h => h1 ((hcond0_1 t).mp h))) (noFlush0_2 t (fun h => h1 ((hcond0_1 t).mp h)))]
    rw [acc0_first V c t h0]
    rw [PhiS0_castSucc V c t, PhiS0_zero V c _ _ h0, PhiA0_eq]
    iintro ⟨⟨⟨HS0, HS1, HS2, HR⟩, Hg⟩, Ho, ⟨%d0, H0⟩, ⟨%d1, H1⟩, ⟨%d2, H2⟩⟩
    iapply (kernelRun0_A c (grid0.coords t) _ _ _ _ _ _ _ _ _ _ _ _ ((hcond0_0 t).mpr h0) (fun h => h1 ((hcond0_1 t).mp h)) (iblk0 V c 0 t) (iblk0 V c 1 t) _ Set.univ _)
    isplitl [H0]; · iexact H0
    isplitl [H1]; · iexact H1
    isplitl [H2]; · iexact H2
    isplitl [HS0]; · iexact HS0
    isplitl [HS1]; · iexact HS1
    isplitl [HS2]; · iexact HS2
    iintro ⟨H0, H1, H2, HS0, HS1, HS2⟩
    isplitl [HS0 HS1 HS2 HR Hg]
    · isplitl [HS0 HS1 HS2 HR]
      · isplitl [HS0]; · iexact HS0
        isplitl [HS1]; · iexact HS1
        isplitl [HS2]; · iexact HS2
        iexact HR
      iexact Hg
    isplitl [Ho]; · iexact Ho
    isplitl [H0]; · iexact H0
    isplitl [H1]; · iexact H1
    iexists _; iexact H2
  · by_cases h1 : t.val = 63
    · rw [show (dat0 V c).leavesExact 2 t = owns (c : Thread nD τ) (ms0_2 t) fullShare ((dat0 V c).after 2 t) from by
        unfold Dat.leavesExact; rw [liveAt0_2 t ((hcond0_1 t).mpr h1)], after0_2]
      rw [acc0_later V c t h0]
      rw [PhiS0_castSucc V c t, PhiS0_pos V c _ _ h0]
      iintro ⟨⟨⟨HS0, HS1, HS2, HR⟩, Hg⟩, Ho, ⟨%d0, H0⟩, ⟨%d1, H1⟩, ⟨%d2, H2⟩⟩
      iapply (kernelRun0_C c (grid0.coords t) _ _ _ _ _ _ _ _ _ _ _ _ (fun h => h0 ((hcond0_0 t).mp h)) ((hcond0_1 t).mpr h1) (iblk0 V c 0 t) (iblk0 V c 1 t) _ Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, H2, HS0, HS1, HS2⟩
      isplitl [HS0 HS1 HS2 HR Hg]
      · isplitl [HS0 HS1 HS2 HR]
        · isplitl [HS0]; · iexact HS0
          isplitl [HS1]; · iexact HS1
          isplitl [HS2]; · iexact HS2
          iexact HR
        iexact Hg
      isplitl [Ho]; · iexact Ho
      isplitl [H0]; · iexact H0
      isplitl [H1]; · iexact H1
      iexact H2
    · rw [Dat.leavesExact_idle (dat0 V c) 2 t (idleAt0_2 t (fun h => h1 ((hcond0_1 t).mp h))) (noFlush0_2 t (fun h => h1 ((hcond0_1 t).mp h)))]
      rw [acc0_later V c t h0]
      rw [PhiS0_castSucc V c t, PhiS0_pos V c _ _ h0]
      iintro ⟨⟨⟨HS0, HS1, HS2, HR⟩, Hg⟩, Ho, ⟨%d0, H0⟩, ⟨%d1, H1⟩, ⟨%d2, H2⟩⟩
      iapply (kernelRun0_B c (grid0.coords t) _ _ _ _ _ _ _ _ _ _ _ _ (fun h => h0 ((hcond0_0 t).mp h)) (fun h => h1 ((hcond0_1 t).mp h)) (iblk0 V c 0 t) (iblk0 V c 1 t) _ _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 HR Hg]
      · isplitl [HS0 HS1 HS2 HR]
        · isplitl [HS0]; · iexact HS0
          isplitl [HS1]; · iexact HS1
          isplitl [HS2]; · iexact HS2
          iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the entry invariant back: the scratch
    buffers' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HS2, HR⟩, Hg⟩
  isplitl [HS0 HS1 HS2 HR]
  · isplitl [HS0]; · iexists _; iexact HS0
    isplitl [HS1]; · iexists _; iexact HS1
    isplitl [HS2]; · iexists _; iexact HS2
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Cert.KernelIdeal.Fr

end
-- ==== Proof.KI.R1Runs.lean ====
/-
  The second kernel's frame, the part its two control cases share: each input window's staging
  buffer holds the window's block at every grid point; the branch condition in closed form; the
  staging and scratch operands as the pipeline passes them; and the region invariant with the
  two scratch rows split out of the scoped buffers.
-/
import proofs.«103854_g2027224563999_cont_sun_m_333_3_alg».proof.Proof.Gen.KernelIdeal.Launch
import proofs.«103854_g2027224563999_cont_sun_m_333_3_alg».proof.Proof.Gen.KernelIdeal.Skeleton
import proofs.«103854_g2027224563999_cont_sun_m_333_3_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic
import proofs.«103854_g2027224563999_cont_sun_m_333_3_alg».proof.Proof.KI.Acc

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The input windows' staging buffers hold their blocks

An input window's current staging buffer holds the window's block of the entry contents at every
point, fetched there or not: where the pipeline does not fetch, the block index has not moved and
the body left the buffer as it found it. Stated for any proof data whose array is the entry
contents and whose body leaves the block in place. -/

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The branch condition -/

/-- The condition of the body's one conditional, from the grid coordinates: "this is point 0". -/
abbrev cond1_0 (i : grid1.Coords) : Prop := (Scalar.cmpi .ne (Scalar.extui (Scalar.cmpi .eq (BitVec.ofNat 32 (i 0).val) 0#32)) 0#32) = 1#1
/-- It holds at the first point only — decided over the 64 points. -/
theorem hcond1_0 : ∀ t : Fin cfg1.N, cond1_0 (grid1.coords t) ↔ t.val = 0 :=
  (by decide +kernel : ∀ t : Fin grid1.N, cond1_0 (grid1.coords t) ↔ t.val = 0)

/-! ## The operands -/

/-- Each window's current staging memref at point `t`, as the pipeline passes it, and its wholeness. -/
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S3x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x512 .f32 := win1_5.stage (cfg1.slots t 5)
abbrev hs1_5 (t : Fin cfg1.N) : (ms1_5 t).IsWhole := hstage1_5 ((cfg1.slots t 5).cast nbuf1_5)
/-- The two scratch rows: whole scoped buffers of the kernel's own. -/
abbrev scM1_0 : Memref sig .tc .vmem S1x512 .f32 := Memref.whole cc1_scratch0
abbrev scM1_1 : Memref sig .tc .vmem S1x512 .f32 := Memref.whole cc1_scratch1

/-- The offsets `![0, 0]` are the zero offsets: a rectangle at them with the buffer's own sizes is the whole buffer. -/
theorem hz1 : (![0, 0] : Fin 2 → Nat) = fun _ => 0 := funext fun a => by fin_cases a <;> rfl

/-! ## The region invariant, conjunct by conjunct -/

/-- What the launch hands the region: the eight scoped buffers that are not this kernel's, each at
    some contents, the two scratch rows owned at some contents, and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

end Cert.KernelIdeal.Fr

end
-- ==== Proof.KI.R1RunA.lean ====
/-
  The second kernel's body at the first grid point, where its conditional is taken: from the
  3×512 sums, gamma and beta it computes the two coefficient rows, stores them in the two scratch
  rows, reads them back, and stores the affine map of the point's block of `x` and of the mask
  column into the output's buffer.
-/
import proofs.«103854_g2027224563999_cont_sun_m_333_3_alg».proof.Proof.KI.R1Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 1000000 in
/-- On whole memrefs — the five inputs' at their contents, the output's and the two scratch rows at
    anything — the body at a point where the condition holds runs to the continuation holding the
    inputs' as they were, the scratch rows at the coefficient rows of the sums, gamma and beta, and
    the output's at the affine map under those rows. Each stored buffer ends with one store through
    the whole-buffer rectangle, so it reads as that store's payload; the rows read back after their
    stores read as the payloads stored; a load through a whole-buffer rectangle reads the contents,
    and the three row loads of the sums are the rows the coefficient function names. -/
theorem run1_A (c : Dev nD) (E : Set ℕ) (i : grid1.Coords) (arg1 : Memref sig .tc .vmem S1024x512 .f32) (harg1 : arg1.IsWhole) (arg2 : Memref sig .tc .vmem S1024x1 .f32) (harg2 : arg2.IsWhole) (arg3 : Memref sig .tc .vmem S3x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x512 .f32) (harg7 : arg7.IsWhole) (arg8 : Memref sig .tc .vmem S1x512 .f32) (harg8 : arg8.IsWhole) (hc0 : cond1_0 i)
    (x0 : Vec F S1024x512 .f32) (x1 : Vec F S1024x1 .f32) (s : Vec F S3x512 .f32) (g b : Vec F S1x512 .f32) (K : PUnit → sProp 𝕄) :
    iprop(owns (c : Thread nD τ) arg1 fullShare x0 ∗ owns (c : Thread nD τ) arg2 fullShare x1 ∗ owns (c : Thread nD τ) arg3 fullShare s ∗ owns (c : Thread nD τ) arg4 fullShare g ∗ owns (c : Thread nD τ) arg5 fullShare b
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare s ∗ owns (c : Thread nD τ) arg4 fullShare g ∗ owns (c : Thread nD τ) arg5 fullShare b
            ∗ owns (c : Thread nD τ) arg6 fullShare (out1 x0 x1 (coef1 s g b)) ∗ owns (c : Thread nD τ) arg7 fullShare (coef1 s g b).1 ∗ owns (c : Thread nD τ) arg8 fullShare (coef1 s g b).2) -∗ K ⟨⟩))
      ⊢ wp frame (wpE (defs₀ (F := F)) Variants.none c none) E (cc1__apply_kernel i arg1 harg1 arg2 harg2 arg3 harg3 arg4 harg4 arg5 harg5 arg6 harg6 arg7 harg7 arg8 harg8) K := by
  simp only [cc1__apply_kernel_eq_skeleton]; unfold cc1__apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0; subst hf1; subst hf2; subst hf3; subst hf4
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [View.read_writes_eq_canon _ _ _ (fun y => ⟨_, List.mem_singleton_self _, View.mem_set_unit_zero hz1 inb_S1024x512_S1024x512_0_0 y⟩), View.canon_unit_zero hz1]
    rw [View.readCov_unit_zero (S := S1x512) _ hz1, View.readCov_unit_zero (S := S1x512) _ hz1]
    unfold out1 coef1
    simp only [View.readAt_eq_ld, View.ld_unit_zero (S := S1x512) hz1, View.ld_unit_zero (S := S1024x512) hz1, View.ld_unit_zero (S := S1024x1) hz1]
  isplitl [H6]
  · iexists _; isplitr
    swap; · iexact H6
    ipureintro
    sl_unfold_run_names
    rw [View.read_writes_eq_canon _ _ _ (fun y => ⟨_, List.mem_singleton_self _, View.mem_set_unit_zero hz1 inb_S1x512_S1x512_0_0 y⟩), View.canon_unit_zero hz1]
    unfold coef1
    simp only [View.readAt_eq_ld, View.ld_unit_zero (S := S1x512) hz1]
  iexists _; isplitr
  swap; · iexact H7
  ipureintro
  sl_unfold_run_names
  rw [View.read_writes_eq_canon _ _ _ (fun y => ⟨_, List.mem_singleton_self _, View.mem_set_unit_zero hz1 inb_S1x512_S1x512_0_0 y⟩), View.canon_unit_zero hz1]
  unfold coef1
  simp only [View.readAt_eq_ld, View.ld_unit_zero (S := S1x512) hz1]

end Cert.KernelIdeal.Fr

end
-- ==== Proof.KI.R1RunB.lean ====
/-
  The second kernel's body at every later grid point, where its conditional is not taken: it reads
  the two coefficient rows from scratch and stores the affine map of the point's block of `x` and
  of the mask column into the output's buffer; the scratch rows are left as found.
-/
import proofs.«103854_g2027224563999_cont_sun_m_333_3_alg».proof.Proof.KI.R1RunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 1000000 in
/-- On whole memrefs — the block of `x` and of the mask column at their contents, the output's at
    anything, the two scratch rows at `a` — the body at a point where the condition fails runs to
    the continuation holding all of them as they were but the output's, which holds the affine map
    under `a`: its one store is through the whole-buffer rectangle, and the loads through
    whole-buffer rectangles read the contents. The other three inputs are not touched. -/
theorem run1_B (c : Dev nD) (E : Set ℕ) (i : grid1.Coords) (arg1 : Memref sig .tc .vmem S1024x512 .f32) (harg1 : arg1.IsWhole) (arg2 : Memref sig .tc .vmem S1024x1 .f32) (harg2 : arg2.IsWhole) (arg3 : Memref sig .tc .vmem S3x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x512 .f32) (harg7 : arg7.IsWhole) (arg8 : Memref sig .tc .vmem S1x512 .f32) (harg8 : arg8.IsWhole) (hc0 : ¬cond1_0 i)
    (x0 : Vec F S1024x512 .f32) (x1 : Vec F S1024x1 .f32) (a : Sc1 F) (K : PUnit → sProp 𝕄) :
    iprop(owns (c : Thread nD τ) arg1 fullShare x0 ∗ owns (c : Thread nD τ) arg2 fullShare x1 ∗ (∃ d, owns (c : Thread nD τ) arg6 fullShare d) ∗ owns (c : Thread nD τ) arg7 fullShare a.1 ∗ owns (c : Thread nD τ) arg8 fullShare a.2
        ∗ (iprop(owns (c : Thread nD τ) arg1 fullShare x0 ∗ owns (c : Thread nD τ) arg2 fullShare x1 ∗ owns (c : Thread nD τ) arg6 fullShare (out1 x0 x1 a) ∗ owns (c : Thread nD τ) arg7 fullShare a.1 ∗ owns (c : Thread nD τ) arg8 fullShare a.2) -∗ K ⟨⟩))
      ⊢ wp frame (wpE (defs₀ (F := F)) Variants.none c none) E (cc1__apply_kernel i arg1 harg1 arg2 harg2 arg3 harg3 arg4 harg4 arg5 harg5 arg6 harg6 arg7 harg7 arg8 harg8) K := by
  simp only [cc1__apply_kernel_eq_skeleton]; unfold cc1__apply_kernel_skel
  unfold owns
  iintro ⟨⟨%f0, %hf0, H0⟩, ⟨%f1, %hf1, H1⟩, ⟨%d5, %f5, -, H5⟩, ⟨%f6, %hf6, H6⟩, ⟨%f7, %hf7, H7⟩, Hk⟩
  subst hf0; subst hf1; obtain ⟨a1, a2⟩ := a; dsimp only at hf6 hf7; subst hf6; subst hf7
  sl_exec (disch := first | exact hc0)
  sl_step
  iapply Hk
  isplitl [H0]
  · iexists f0; isplitr; · ipureintro; rfl
    iexact H0
  isplitl [H1]
  · iexists f1; isplitr; · ipureintro; rfl
    iexact H1
  isplitl [H5]
  · iexists _; isplitr
    swap; · iexact H5
    ipureintro
    rw [View.read_writes_eq_canon _ _ _ (fun y => ⟨_, List.mem_singleton_self _, View.mem_set_unit_zero hz1 inb_S1024x512_S1024x512_0_0 y⟩), View.canon_unit_zero hz1]
    unfold out1
    simp only [View.readAt_eq_ld, View.ld_unit_zero (S := S1x512) hz1, View.ld_unit_zero (S := S1024x512) hz1, View.ld_unit_zero (S := S1024x1) hz1]
  isplitl [H6]
  · iexists f6; isplitr; · ipureintro; rfl
    iexact H6
  iexists f7; isplitr; · ipureintro; rfl
  iexact H7

end Cert.KernelIdeal.Fr

end
-- ==== Proof.KI.R1Frame.lean ====
/-
  The second kernel's frame: the invariant carried between grid points (the two coefficient rows
  in scratch, at the values the first point computes), the proof data of the pipeline, the body
  obligation at every point from the two cases' runs, and the invariant's entry and exit.
-/
import proofs.«103854_g2027224563999_cont_sun_m_333_3_alg».proof.Proof.KI.R1RunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The invariant between points -/

/-- The region invariant before position `n`: before the first point what the launch hands over
    (every scoped buffer at anything); afterwards the same with the two scratch rows at the
    coefficient rows the first point computed, which no later point changes. -/
def PhiS1 (c : Dev nD) : (n : ℕ) → n ≤ cfg1.N → sProp 𝕄
  | 0, _ => Pipeline.ΦA spec1 c
  | _ + 1, _ => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ owns (c : Thread nD τ) scM1_0 fullShare (acc1 V c).1 ∗ owns (c : Thread nD τ) scM1_1 fullShare (acc1 V c).2) ∗ (∃ r, prngReg c r))

theorem PhiS1_zero (c : Dev nD) (n : ℕ) (h : n ≤ cfg1.N) (hz : n = 0) : PhiS1 V c n h = Pipeline.ΦA spec1 c := by
  subst hz; rfl

/-- After point `n`: the scratch rows at the coefficient rows. -/
theorem PhiS1_succ (c : Dev nD) (n : ℕ) (hn : n + 1 ≤ cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ owns (c : Thread nD τ) scM1_0 fullShare (acc1 V c).1 ∗ owns (c : Thread nD τ) scM1_1 fullShare (acc1 V c).2) ∗ (∃ r, prngReg c r)) := rfl

/-- Before a point that is not the first: the same. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ owns (c : Thread nD τ) scM1_0 fullShare (acc1 V c).1 ∗ owns (c : Thread nD τ) scM1_1 fullShare (acc1 V c).2) ∗ (∃ r, prngReg c r)) := by
  cases n with
  | zero => exact absurd rfl hz
  | succ n => rfl

/-! ## The pipeline's proof data -/

/-- The proof data on core `c`: the arrays as the region finds them; after the body at point `t`
    each input's buffer at its block and the output's at the affine map of the point's blocks under
    the coefficient rows; the invariant above; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1 (iblk1 V c 0 t) (iblk1 V c 1 t) (acc1 V c)
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's number. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1 (iblk1 V c 0 t) (iblk1 V c 1 t) (acc1 V c) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 4800000 in
/-- The body at any point. The inputs' buffers hold their blocks. At the first point the invariant
    hands over the scratch rows at anything, the first case's run computes the coefficient rows from
    the point's blocks of the sums, gamma and beta — which are those arrays' blocks at point 0, the
    point being point 0 — and leaves them in scratch; at a later point the invariant hands the rows
    over at those values and the second case's run leaves them unchanged. Either way the output's
    buffer is left at the affine map under the rows; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4, after1_5]
  by_cases hz : t.val = 0
  · have hacc : acc1 V c = coef1 (iblk1 V c 2 t) (iblk1 V c 3 t) (iblk1 V c 4 t) := by
      obtain rfl : t = ⟨0, by decide⟩ := Fin.ext hz
      rfl
    rw [PhiS1_castSucc V c t, PhiS1_zero V c _ _ hz, PhiA1_eq, hacc]
    iintro ⟨⟨⟨HR0, HR1, HR2, HR3, HR4, HR5, HR6, HR7, HS0, HS1⟩, Hg⟩, Ho, ⟨%d0, H0⟩, ⟨%d1, H1⟩, ⟨%d2, H2⟩, ⟨%d3, H3⟩, ⟨%d4, H4⟩, ⟨%d5, H5⟩⟩
    iapply (run1_A c Set.univ (grid1.coords t) _ _ _ _ _ _ _ _ _ _ _ _ _ _ _ _ ((hcond1_0 t).mpr hz)
      (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, H5, HS0, HS1⟩
    isplitl [HR0 HR1 HR2 HR3 HR4 HR5 HR6 HR7 HS0 HS1 Hg]
    · isplitl [HR0 HR1 HR2 HR3 HR4 HR5 HR6 HR7 HS0 HS1]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [PhiS1_castSucc V c t, PhiS1_pos V c _ _ hz]
    iintro ⟨⟨⟨HR0, HR1, HR2, HR3, HR4, HR5, HR6, HR7, HS0, HS1⟩, Hg⟩, Ho, ⟨%d0, H0⟩, ⟨%d1, H1⟩, ⟨%d2, H2⟩, ⟨%d3, H3⟩, ⟨%d4, H4⟩, ⟨%d5, H5⟩⟩
    iapply (run1_B c Set.univ (grid1.coords t) _ _ _ _ _ _ _ _ _ _ _ _ _ _ _ _ (fun h => hz ((hcond1_0 t).mp h))
      (iblk1 V c 0 t) (iblk1 V c 1 t) (acc1 V c) _)
    isplitl [H0]; · iexact H0
    isplitl [H1]; · iexact H1
    isplitl [H5]; · iexists _; iexact H5
    isplitl [HS0]; · iexact HS0
    isplitl [HS1]; · iexact HS1
    iintro ⟨H0, H1, H5, HS0, HS1⟩
    isplitl [HR0 HR1 HR2 HR3 HR4 HR5 HR6 HR7 HS0 HS1 Hg]
    · isplitl [HR0 HR1 HR2 HR3 HR4 HR5 HR6 HR7 HS0 HS1]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Entry and exit -/

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch handed over: the
    scratch rows' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HR5, HR6, HR7, HS0, HS1⟩, Hg⟩
  isplitl [HR0 HR1 HR2 HR3 HR4 HR5 HR6 HR7 HS0 HS1]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HS0]; · iexists _; iexact HS0
    iexists _; iexact HS1
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Fr

end
-- ==== Proof.KI.Run.lean ====
/-
  The whole program as three consecutive pieces — the host's four layout operations, the first
  kernel's region, the second kernel's region — and what every unscoped buffer holds at each
  boundary:

    at launch            the memory `m`;
    after the host ops   the mask as a float column and `gamma`, `beta` as rows written, the
                         rest as launched;
    after region 0       its output array (3×512) at what its last write-back left, the rest
                         unchanged;
    after region 1       its output array (65536×512) at what its write-backs left, the rest
                         unchanged.

  Each region's half (its proof data, the body obligation, the invariant at the two ends) is a
  hypothesis here: this module only threads the buffers through the boundaries and reads the
  final memory, so it is stated once for any float instance and any two halves whose arrays are
  the entry contents. The result names the output array after the run and says that the four
  argument arrays end as launched.
-/
import proofs.«103854_g2027224563999_cont_sun_m_333_3_alg».proof.Proof.Gen.KernelIdeal.Launch
import proofs.«103854_g2027224563999_cont_sun_m_333_3_alg».proof.Proof.Gen.KernelIdeal.Skeleton
import proofs.«103854_g2027224563999_cont_sun_m_333_3_alg».proof.Proof.Gen.KernelIdeal.Points
import proofs.«103854_g2027224563999_cont_sun_m_333_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- A TensorCore's buffer contents, by reference. -/
abbrev Cont (F : FTy → Type) [FloatOps F] : Type := (c : Dev nD) → (b : Ref sig .tc) → Buf (Elt F) ((c : Thread nD τ).loc b)

variable (m : (ℓ : Loc nD τ sig) → Buf (Elt F) ℓ) (ρ : Dev nD → PrngReg)

/-! ## The two region halves, as hypotheses -/

variable (dat0 : Cont F → (c : Dev nD) → Dat τ (Elt F) Unit ℕ (Pipeline.UD sig nD τ) ℕ cfg0 c)
  (dat1 : Cont F → (c : Dev nD) → Dat τ (Elt F) Unit ℕ (Pipeline.UD sig nD τ) ℕ cfg1 c)

/-- What this module needs of region 0's half: its arrays are the entry contents, full shares, nothing owed, the body
    obligation, and the region's invariant entered from and left at the plain one. -/
structure Half0 : Prop where
  hA : ∀ (V : Cont F) c w, (dat0 V c).A w = V c (Pipeline.arrRef spec0 w)
  hq : ∀ (V : Cont F) c w, (dat0 V c).q w = fullShare
  howed : ∀ (V : Cont F) c t, (dat0 V c).owed t = 0
  hrec : ∀ (V : Cont F) c t, (dat0 V c).recorded t = Set.univ
  hbody : ∀ (V : Cont F) c, BodyObligation (dat0 V c) (defs₀ (F := F)) Variants.none () Set.univ
  hin : ∀ (V : Cont F) c, (Pipeline.ΦA spec0 c : sProp 𝕄) ⊢ (dat0 V c).Φ 0
  hout : ∀ (V : Cont F) c, (dat0 V c).Φ (Fin.last cfg0.N) ⊢ (Pipeline.ΦA spec0 c : sProp 𝕄)

/-- The same of region 1's half. -/
structure Half1 : Prop where
  hA : ∀ (V : Cont F) c w, (dat1 V c).A w = V c (Pipeline.arrRef spec1 w)
  hq : ∀ (V : Cont F) c w, (dat1 V c).q w = fullShare
  howed : ∀ (V : Cont F) c t, (dat1 V c).owed t = 0
  hrec : ∀ (V : Cont F) c t, (dat1 V c).recorded t = Set.univ
  hbody : ∀ (V : Cont F) c, BodyObligation (dat1 V c) (defs₀ (F := F)) Variants.none () Set.univ
  hin : ∀ (V : Cont F) c, (Pipeline.ΦA spec1 c : sProp 𝕄) ⊢ (dat1 V c).Φ 0
  hout : ∀ (V : Cont F) c, (dat1 V c).Φ (Fin.last cfg1.N) ⊢ (Pipeline.ΦA spec1 c : sProp 𝕄)

/-! ## The buffer contents at each boundary -/

/-- At launch. -/
abbrev W0 : Dev nD → Valuation τ sig (Elt F) := fun c b => m ((c : Dev nD), b)
/-- After the host's four layout operations (region 0's entry). -/
abbrev W1 : Dev nD → Valuation τ sig (Elt F) := fun c => StableHlo.after hostOps0 (W0 m c)
abbrev V1 : Cont F := fun c b => W1 m c b
/-- After region 0 (region 1's entry): its arrays at what the pipeline leaves, the rest as entered. -/
def W2 (c : Dev nD) : Valuation τ sig (Elt F) :=
  Pipeline.withArrays spec0 c (W1 m c) fun w => (dat0 (V1 m) c).arrAt w cfg0.N
abbrev V2 : Cont F := fun c b => W2 m dat0 c b
/-- After region 1: its arrays at what the pipeline leaves, the rest as entered. -/
def W3 (c : Dev nD) : Valuation τ sig (Elt F) :=
  Pipeline.withArrays spec1 c (W2 m dat0 c) fun w => (dat1 (V2 m dat0) c).arrAt w cfg1.N
abbrev V3 : Cont F := fun c b => W3 m dat0 dat1 c b

theorem W2_arr (c : Dev nD) (w : Fin cfg0.W) :
    W2 m dat0 c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m dat0 c (Proc.devRef .tc b) = W1 m c (Proc.devRef .tc b) := by
  unfold W2; exact Pipeline.withArrays_of_ne spec0 c _ _ b hb
theorem hF0 (c : Dev nD) (w : Fin cfg0.W) : (dat0 (V1 m) c).arrAt w cfg0.N = V2 m dat0 c (Pipeline.arrRef spec0 w) :=
  (W2_arr m dat0 c w).symm
theorem hrest0 (c : Dev nD) : ∀ b, b ∉ Finset.univ.image (Pipeline.arrRef spec0) → V2 m dat0 c b = V1 m c b :=
  fun b hb => W2_of_ne m dat0 c b fun w e => hb (Finset.mem_image.mpr ⟨w, Finset.mem_univ _, e⟩)

theorem W3_arr (c : Dev nD) (w : Fin cfg1.W) :
    W3 m dat0 dat1 c (Proc.devRef .tc (Pipeline.arrRef spec1 w)) = (dat1 (V2 m dat0) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m dat0 dat1 c (Proc.devRef .tc b) = W2 m dat0 c (Proc.devRef .tc b) := by
  unfold W3; exact Pipeline.withArrays_of_ne spec1 c _ _ b hb
theorem hF1 (c : Dev nD) (w : Fin cfg1.W) : (dat1 (V2 m dat0) c).arrAt w cfg1.N = V3 m dat0 dat1 c (Pipeline.arrRef spec1 w) :=
  (W3_arr m dat0 dat1 c w).symm
theorem hrest1 (c : Dev nD) : ∀ b, b ∉ Finset.univ.image (Pipeline.arrRef spec1) → V3 m dat0 dat1 c b = V2 m dat0 c b :=
  fun b hb => W3_of_ne m dat0 dat1 c b fun w e => hb (Finset.mem_image.mpr ⟨w, Finset.mem_univ _, e⟩)

/-- The host operations write none of the arguments. -/
theorem W1_of (c : Dev nD) (r : Ref sig .tc) (h : r ∉ hostOps0_W) : W1 m c (Proc.devRef .tc r) = W0 m c (Proc.devRef .tc r) :=
  StableHlo.after_of_writes_sub hostOps0 _ hostOps0_writes h

end Cert.KernelIdeal.Fr

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
variable (dat0 : Cont F → (c : Dev nD) → Dat τ (Elt F) Unit ℕ (Pipeline.UD sig nD τ) ℕ cfg0 c)
  (dat1 : Cont F → (c : Dev nD) → Dat τ (Elt F) Unit ℕ (Pipeline.UD sig nD τ) ℕ cfg1 c)
variable (h0 : Half0 dat0) (h1 : Half1 dat1)

/-! ## The arguments end as launched

No host operation writes an argument; a region reads `x` through an input window (whose array the pipeline leaves as it
found it) and never touches the mask, `gamma` or `beta` (the regions read their reshaped copies). -/

include h0 h1 in
theorem W3_main_arg0 (c : Dev nD) : W3 m dat0 dat1 c (Proc.devRef .tc main_arg0) = m ((c : Thread nD τ).loc main_arg0) :=
  calc W3 m dat0 dat1 c (Proc.devRef .tc main_arg0)
    _ = W2 m dat0 c (Proc.devRef .tc main_arg0) := (W3_arr m dat0 dat1 c 0).trans (((dat1 (V2 m dat0) c).arrAt_in 0 rfl _).trans (h1.hA (V2 m dat0) c 0))
    _ = W1 m c (Proc.devRef .tc main_arg0) := (W2_arr m dat0 c 0).trans (((dat0 (V1 m) c).arrAt_in 0 rfl _).trans (h0.hA (V1 m) c 0))
    _ = W0 m c (Proc.devRef .tc main_arg0) := W1_of m c main_arg0 (by decide)
    _ = m ((c : Thread nD τ).loc main_arg0) := rfl
theorem W3_main_arg1 (c : Dev nD) : W3 m dat0 dat1 c (Proc.devRef .tc main_arg1) = m ((c : Thread nD τ).loc main_arg1) :=
  calc W3 m dat0 dat1 c (Proc.devRef .tc main_arg1)
    _ = W2 m dat0 c (Proc.devRef .tc main_arg1) := W3_of_ne m dat0 dat1 c main_arg1 (by decide)
    _ = W1 m c (Proc.devRef .tc main_arg1) := W2_of_ne m dat0 c main_arg1 (by decide)
    _ = W0 m c (Proc.devRef .tc main_arg1) := W1_of m c main_arg1 (by decide)
    _ = m ((c : Thread nD τ).loc main_arg1) := rfl
theorem W3_main_arg2 (c : Dev nD) : W3 m dat0 dat1 c (Proc.devRef .tc main_arg2) = m ((c : Thread nD τ).loc main_arg2) :=
  calc W3 m dat0 dat1 c (Proc.devRef .tc main_arg2)
    _ = W2 m dat0 c (Proc.devRef .tc main_arg2) := W3_of_ne m dat0 dat1 c main_arg2 (by decide)
    _ = W1 m c (Proc.devRef .tc main_arg2) := W2_of_ne m dat0 c main_arg2 (by decide)
    _ = W0 m c (Proc.devRef .tc main_arg2) := W1_of m c main_arg2 (by decide)
    _ = m ((c : Thread nD τ).loc main_arg2) := rfl
theorem W3_main_arg3 (c : Dev nD) : W3 m dat0 dat1 c (Proc.devRef .tc main_arg3) = m ((c : Thread nD τ).loc main_arg3) :=
  calc W3 m dat0 dat1 c (Proc.devRef .tc main_arg3)
    _ = W2 m dat0 c (Proc.devRef .tc main_arg3) := W3_of_ne m dat0 dat1 c main_arg3 (by decide)
    _ = W1 m c (Proc.devRef .tc main_arg3) := W2_of_ne m dat0 c main_arg3 (by decide)
    _ = W0 m c (Proc.devRef .tc main_arg3) := W1_of m c main_arg3 (by decide)
    _ = m ((c : Thread nD τ).loc main_arg3) := rfl

/-! ## The proof data family and the thread state -/

/-- No pipeline has a prefetched table. -/
abbrev adm : (p : Fin 2) → (pcfgs (F := F) p).Adm := fun p => (cfgs p).toPCfg_adm
/-- Each pipeline's proof data at its region's entry contents (a literal match on the pipeline's number). -/
def pdats : (p : Fin 2) → (c : Dev nD) → Dat τ (Elt F) Unit ℕ (Pipeline.UD sig nD τ) ℕ (Pipeline.pin (pcfgs (F := F)) adm p) c
  | ⟨0, _⟩ => fun c => dat0 (V1 m) c
  | ⟨1, _⟩ => fun c => dat1 (V2 m dat0) c
abbrev 𝒱₀ : Variants := Variants.none
abbrev L : GSem nD τ sig → Finset Unit := fun _ => ∅
abbrev lv : GSem nD τ sig → Unit → ℕ := fun _ _ => 0
/-- What rides beside the buffers through every piece: the generator register at some state, and nothing owed. -/
abbrev R (c : Dev nD) : sProp 𝕄 := iprop((∃ r, prngReg c r) ∗ ∃ W, owes (c : Thread nD τ) (0 : CellTallies nD τ sig Unit) W)

/-- The host's four operations as a piece, from the launch contents. -/
abbrev hseg0 : Pipeline.HostSeg (Name := ℕ) (U := Pipeline.UD sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m dat0 dat1 c) ∗ ∃ r, prngReg c r)

end Cert.KernelIdeal.Fr

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
variable (dat0 : Cont F → (c : Dev nD) → Dat τ (Elt F) Unit ℕ (Pipeline.UD sig nD τ) ℕ cfg0 c)
  (dat1 : Cont F → (c : Dev nD) → Dat τ (Elt F) Unit ℕ (Pipeline.UD sig nD τ) ℕ cfg1 c)
variable (h0 : Half0 dat0) (h1 : Half1 dat1)

/-! ## The regions as pieces -/

set_option backward.isDefEq.respectTransparency.types false in
/-- Region 0 over the thread state: entered with every unscoped buffer at `W1`, left with them at `W2`. Its arrays are
    split out of the unscoped buffers and put back at the exit contents; the generator register goes into the region's
    invariant and comes back; nothing is owed; the kernel has no semaphore of its own. -/
def reg0 : Pipeline.RegionSeg (pcfgs (F := F)) adm (pdats m dat0 dat1) () defs₀ 𝒱₀ L lv 0 where
  win := launch0.win.to₀
  block_pos := launch0.block_pos
  stage_whole := launch0.stage_whole
  K := PEmpty
  osem k := k.elim
  ho := Pipeline.OwnSemFacts.none _
  hbody c := (h0.hbody (V1 m) c).loose
  hwaits := Pipeline.hwaits_of_owed_zero _ _ _ _ L lv 0 fun c t => h0.howed (V1 m) c t
  pre c := iprop(StableHlo.held (c : Thread nD τ) (Pipeline.ucRefs τ sig) (W1 m c) ∗ R c)
  post c := iprop(StableHlo.held (c : Thread nD τ) (Pipeline.ucRefs τ sig) (W2 m dat0 c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m c)
  hentry c := by
    have ho : (pdats m dat0 dat1 0 c).owed 0 = 0 := h0.howed (V1 m) c 0
    have hr : (pdats m dat0 dat1 0 c).recorded 0 = Set.univ := h0.hrec (V1 m) c 0
    rw [Pipeline.ownSems0_none]
    have hsplit := Pipeline.arrays_of_unscopedBufs (p := 0) (pcfgs (F := F)) adm (pdats m dat0 dat1) launch0.win launch0.arr_whole c
      ((pdats m dat0 dat1 0 c).share_full fun w => h0.hq (V1 m) c w) (V1 m c) fun w => h0.hA (V1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho]
      icases HO with ⟨%W, HO⟩; iexists W; isplitr; · ipureintro; exact fun _ _ => Or.inl (by rw [hr]; trivial)
      iexact HO
    isplitl [Hp]; · iexact Hp
    iexact Hrest
  hin c := by
    have hA : (Pipeline.ΦA spec0 c : sProp 𝕄) ⊢ (pdats m dat0 dat1 0 c).Φ 0 := h0.hin (V1 m) c
    unfold Pipeline.ΦA at hA
    iintro ⟨Hp, -, Hr⟩
    iapply hA
    isplitl [Hr]; · iexact Hr
    iexact Hp
  hout c := by
    have hA : (pdats m dat0 dat1 0 c).Φ (Fin.last (Pipeline.pin (pcfgs (F := F)) adm 0).N) ⊢ (Pipeline.ΦA spec0 c : sProp 𝕄) := h0.hout (V1 m) c
    unfold Pipeline.ΦA at hA
    rw [Pipeline.ownSems0_none]
    iintro HΦ
    ihave HA := hA $$ HΦ
    icases HA with ⟨Hr, Hp⟩
    isplitl [Hp]; · iexact Hp
    isplitr; · iempintro
    iexact Hr
  hexit c := by
    have ho : (pdats m dat0 dat1 0 c).owed (Fin.last (Pipeline.pin (pcfgs (F := F)) adm 0).N) = 0 := h0.howed (V1 m) c _
    have hjoin := Pipeline.unscopedBufs_of_arrays (p := 0) (pcfgs (F := F)) adm (Ix := Unit) (Name := ℕ) (U := Pipeline.UD sig nD τ) (Lvl := ℕ)
      launch0.win launch0.arr_whole c (pdats m dat0 dat1) ((pdats m dat0 dat1 0 c).share_full fun w => h0.hq (V1 m) c w)
      (V1 m c) (V2 m dat0 c) ((pdats m dat0 dat1 0 c).arrAt · cfg0.N) (hF0 m dat0 c) (hrest0 m dat0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho]
    icases HO with ⟨%W, -, HO⟩; iexists W; iexact HO

set_option backward.isDefEq.respectTransparency.types false in
/-- Region 1 over the thread state: entered with every unscoped buffer at `W2`, left with them at `W3`, in the same way. -/
def reg1 : Pipeline.RegionSeg (pcfgs (F := F)) adm (pdats m dat0 dat1) () defs₀ 𝒱₀ L lv 1 where
  win := launch1.win.to₀
  block_pos := launch1.block_pos
  stage_whole := launch1.stage_whole
  K := PEmpty
  osem k := k.elim
  ho := Pipeline.OwnSemFacts.none _
  hbody c := (h1.hbody (V2 m dat0) c).loose
  hwaits := Pipeline.hwaits_of_owed_zero _ _ _ _ L lv 1 fun c t => h1.howed (V2 m dat0) c t
  pre c := iprop(StableHlo.held (c : Thread nD τ) (Pipeline.ucRefs τ sig) (W2 m dat0 c) ∗ R c)
  post c := iprop(Tₙ m dat0 dat1 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V2 m dat0 c)
  hentry c := by
    have ho : (pdats m dat0 dat1 1 c).owed 0 = 0 := h1.howed (V2 m dat0) c 0
    have hr : (pdats m dat0 dat1 1 c).recorded 0 = Set.univ := h1.hrec (V2 m dat0) c 0
    rw [Pipeline.ownSems0_none]
    have hsplit := Pipeline.arrays_of_unscopedBufs (p := 1) (pcfgs (F := F)) adm (pdats m dat0 dat1) launch1.win launch1.arr_whole c
      ((pdats m dat0 dat1 1 c).share_full fun w => h1.hq (V2 m dat0) c w) (V2 m dat0 c) fun w => h1.hA (V2 m dat0) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho]
      icases HO with ⟨%W, HO⟩; iexists W; isplitr; · ipureintro; exact fun _ _ => Or.inl (by rw [hr]; trivial)
      iexact HO
    isplitl [Hp]; · iexact Hp
    iexact Hrest
  hin c := by
    have hA : (Pipeline.ΦA spec1 c : sProp 𝕄) ⊢ (pdats m dat0 dat1 1 c).Φ 0 := h1.hin (V2 m dat0) c
    unfold Pipeline.ΦA at hA
    iintro ⟨Hp, -, Hr⟩
    iapply hA
    isplitl [Hr]; · iexact Hr
    iexact Hp
  hout c := by
    have hA : (pdats m dat0 dat1 1 c).Φ (Fin.last (Pipeline.pin (pcfgs (F := F)) adm 1).N) ⊢ (Pipeline.ΦA spec1 c : sProp 𝕄) := h1.hout (V2 m dat0) c
    unfold Pipeline.ΦA at hA
    rw [Pipeline.ownSems0_none]
    iintro HΦ
    ihave HA := hA $$ HΦ
    icases HA with ⟨Hr, Hp⟩
    isplitl [Hp]; · iexact Hp
    isplitr; · iempintro
    iexact Hr
  hexit c := by
    have ho : (pdats m dat0 dat1 1 c).owed (Fin.last (Pipeline.pin (pcfgs (F := F)) adm 1).N) = 0 := h1.howed (V2 m dat0) c _
    have hjoin := Pipeline.unscopedBufs_of_arrays (p := 1) (pcfgs (F := F)) adm (Ix := Unit) (Name := ℕ) (U := Pipeline.UD sig nD τ) (Lvl := ℕ)
      launch1.win launch1.arr_whole c (pdats m dat0 dat1) ((pdats m dat0 dat1 1 c).share_full fun w => h1.hq (V2 m dat0) c w)
      (V2 m dat0 c) (V3 m dat0 dat1 c) ((pdats m dat0 dat1 1 c).arrAt · cfg1.N) (hF1 m dat0 dat1 c) (hrest1 m dat0 dat1 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [ho]
    icases HO with ⟨%W, -, HO⟩; iexists W; iexact HO

/-! ## The program as its pieces, and the run -/

/-- The three pieces in order. -/
abbrev segs : List (Pipeline.Seg (pcfgs (F := F)) adm (pdats m dat0 dat1) () defs₀ 𝒱₀ L lv) :=
  [ .host (hseg0 m),
    .region (reg0 m dat0 dat1 h0),
    .region (reg1 m dat0 dat1 h1) ]

/-- The printed program is the run of the pieces. -/
theorem main_run (c : Dev nD) : main (F := F) c = Pipeline.Seg.run (segs m dat0 dat1 h0 h1) :=
  main_segs adm (pdats m dat0 dat1) () 𝒱₀ L lv (hseg0 m) (reg0 m dat0 dat1 h0) (reg1 m dat0 dat1 h1) rfl c

include h0 h1 in
set_option backward.isDefEq.respectTransparency.types false in
/-- THE RUN. From any memory with zero counters every weakly fair execution of the program terminates, nothing
    faulting; the output array ends at what region 1's write-backs leave (`V3 … main_v5`) and the four argument arrays
    end as launched. -/
theorem run_named : θ_run defs (onTc (τ := τ) (main (F := F))) ⟨m, fun _ => 0, ρ⟩ (fun r => ∀ c : Dev nD,
      r.2.mem ((c.tc : Thread nD τ).loc main_v5) = V3 m dat0 dat1 c main_v5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m dat0 dat1) () cellOf_inj embL defs₀ 𝒱₀ L lv m ρ main (segs m dat0 dat1 h0 h1)
    (fun c Q => by rw [main_run m dat0 dat1 h0 h1 c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m dat0 dat1)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m dat0 dat1 c b)
    (hfin := fun c s' => by
      iintro ⟨⟨Hh, -⟩, HSI⟩
      unfold StableHlo.held
      imodintro
      iapply (pointsTo_read_all (Pipeline.ucRefs τ sig) (fun b => (((c : Thread nD τ)).1, b)) (W3 m dat0 dat1 c) s')
      isplitl [Hh] <;> iassumption)
    (hQ := fun s h c =>
      ⟨h c _ (mem_uc main_v5 (by decide)),
       (h c _ (mem_uc main_arg0 (by decide))).trans (W3_main_arg0 m dat0 dat1 h0 h1 c),
       (h c _ (mem_uc main_arg1 (by decide))).trans (W3_main_arg1 m dat0 dat1 c),
       (h c _ (mem_uc main_arg2 (by decide))).trans (W3_main_arg2 m dat0 dat1 c),
       (h c _ (mem_uc main_arg3 (by decide))).trans (W3_main_arg3 m dat0 dat1 c)⟩)

/-- The output array after the run is what region 1's write-backs leave of it. -/
theorem V3_main_v5 (c : Dev nD) : V3 m dat0 dat1 c main_v5 = (dat1 (V2 m dat0) c).arrAt 5 cfg1.N :=
  W3_arr m dat0 dat1 c 5
/-- The 3×512 array region 1 is handed is what region 0's write-back left. -/
theorem V2_main_v4 (c : Dev nD) : V2 m dat0 c main_v4 = (dat0 (V1 m) c).arrAt 2 cfg0.N :=
  W2_arr m dat0 c 2
include h0 in
/-- The other arrays region 1 reads are as region 0 found them. -/
theorem V2_main_arg0 (c : Dev nD) : V2 m dat0 c main_arg0 = V1 m c main_arg0 :=
  (W2_arr m dat0 c 0).trans (((dat0 (V1 m) c).arrAt_in 0 rfl _).trans (h0.hA (V1 m) c 0))
include h0 in
theorem V2_main_v1 (c : Dev nD) : V2 m dat0 c main_v1 = V1 m c main_v1 :=
  (W2_arr m dat0 c 1).trans (((dat0 (V1 m) c).arrAt_in 1 rfl _).trans (h0.hA (V1 m) c 1))
theorem V2_main_v2 (c : Dev nD) : V2 m dat0 c main_v2 = V1 m c main_v2 := W2_of_ne m dat0 c main_v2 (by decide)
theorem V2_main_v3 (c : Dev nD) : V2 m dat0 c main_v3 = V1 m c main_v3 := W2_of_ne m dat0 c main_v3 (by decide)

end Cert.KernelIdeal.Fr

end
-- ==== Proof.KI.Entry.lean ====
/-
  What the first region finds on entry, read at an index: the host has written the mask as a float
  column (row `r` of the column is the mask's `r`-th entry converted to a float) and `gamma`,
  `beta` as 1×512 rows (entry `(0, j)` is the vector's `j`-th entry); `x` is untouched.
-/
import proofs.«103854_g2027224563999_cont_sun_m_333_3_alg».proof.Proof.KI.Run
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Fr

open Idealize.ShloMosaic Idealize.ShloMosaic.TcCoe Idealize.ShloMosaic.Tactic Idealize.SL.Sem Idealize.ShloMosaic.StableHlo
open Idealize.ShloMosaic.ValueIdx
open Cert.KernelIdeal Cert.KernelIdeal.Gen

variable {F : FTy → Type} [FloatOps F]
variable (m : (ℓ : Loc nD τ sig) → Buf (Elt F) ℓ)

/-- `x` is as launched. -/
theorem V1_main_arg0 (c : Dev nD) : V1 m c main_arg0 = m ((c : Thread nD τ).loc main_arg0) :=
  W1_of m c main_arg0 (by decide)

/-- The mask column: row `r` is the mask's entry `r` as a float. -/
theorem V1_main_v1_apply (c : Dev nD) (r : Fin 65536) :
    (V1 m c main_v1 : S65536x1.Idx → Elt F .f32) (ix2 r (0 : Fin 1))
      = (uitofp .f32 (m ((c : Thread nD τ).loc main_arg1)) : S65536.Idx → Elt F .f32) (ix1 r) := by
  have e : (W1 m c (Proc.devRef .tc main_v1) : S65536x1.Idx → Elt F .f32)
      = shapeCast S65536x1 (uitofp .f32 (W0 m c (Proc.devRef .tc main_arg1)) : S65536.Idx → Elt F .f32) shapeCasts_S65536_S65536x1 := by
    show StableHlo.after hostOps0 (W0 m c) (Proc.devRef .tc main_v1) = _
    after_results; rfl
  show (W1 m c (Proc.devRef .tc main_v1) : S65536x1.Idx → Elt F .f32) (ix2 r (0 : Fin 1)) = _
  rw [e]
  exact shapeCast_apply _ _ _ _ (by
    rw [Shape.rowMajor_val_one, Shape.rowMajor_val_two]
    show r.val = r.val * 1 + 0
    omega)

/-- `gamma` as a row. -/
theorem V1_main_v2_apply (c : Dev nD) (j : Fin 512) :
    (V1 m c main_v2 : S1x512.Idx → Elt F .f32) (ix2 (0 : Fin 1) j)
      = (m ((c : Thread nD τ).loc main_arg2) : S512.Idx → Elt F .f32) (ix1 j) := by
  have e : (W1 m c (Proc.devRef .tc main_v2) : S1x512.Idx → Elt F .f32)
      = shapeCast S1x512 (W0 m c (Proc.devRef .tc main_arg2) : S512.Idx → Elt F .f32) shapeCasts_S512_S1x512 := by
    show StableHlo.after hostOps0 (W0 m c) (Proc.devRef .tc main_v2) = _
    after_results; rfl
  show (W1 m c (Proc.devRef .tc main_v2) : S1x512.Idx → Elt F .f32) (ix2 (0 : Fin 1) j) = _
  rw [e]
  exact shapeCast_a_1a_apply _ _ _ _

/-- `beta` as a row. -/
theorem V1_main_v3_apply (c : Dev nD) (j : Fin 512) :
    (V1 m c main_v3 : S1x512.Idx → Elt F .f32) (ix2 (0 : Fin 1) j)
      = (m ((c : Thread nD τ).loc main_arg3) : S512.Idx → Elt F .f32) (ix1 j) := by
  have e : (W1 m c (Proc.devRef .tc main_v3) : S1x512.Idx → Elt F .f32)
      = shapeCast S1x512 (W0 m c (Proc.devRef .tc main_arg3) : S512.Idx → Elt F .f32) shapeCasts_S512_S1x512 := by
    show StableHlo.after hostOps0 (W0 m c) (Proc.devRef .tc main_v3) = _
    after_results; rfl
  show (W1 m c (Proc.devRef .tc main_v3) : S1x512.Idx → Elt F .f32) (ix2 (0 : Fin 1) j) = _
  rw [e]
  exact shapeCast_a_1a_apply _ _ _ _

end Cert.KernelIdeal.Fr

end
-- ==== Proof.KI.Pay0.lean ====
import proofs.«103854_g2027224563999_cont_sun_m_333_3_alg».proof.Proof.KI.Acc
import Idealize.ShloMosaic.Lib.ValueIdx
import Idealize.ShloMosaic.Lib.ValueLayout
import Idealize.ShloMosaic.Lib.Pipeline.Value
import Idealize.ShloMosaic.PureOps.Ideal.Laws

set_option maxRecDepth 16384

/-
  The first kernel's arithmetic read one element at a time, on the extended reals.

  A block of `x` is 1024 rows by 512 columns and the matching block of the mask is one column of
  1024 numbers. Each running row gains, in column `j`, the sum over the block's rows `k` of
  `x k j * m k` (first row), of `(x k j * m k) * x k j` (second row); the running count gains the
  sum of `m k`. The three start from zero, and the count is copied along a row when stored.
-/

noncomputable section

namespace Cert.KernelIdeal.Val

open Idealize.ShloMosaic Idealize.ShloMosaic.TcCoe Idealize.ShloMosaic.ValueIdx
open Idealize.SL Idealize.SL.Sem
open Cert.KernelIdeal Cert.KernelIdeal.Gen Cert.KernelIdeal.Fr
open scoped BigOperators

/-! ## Two layout steps read at an index -/

/-- A column `[a, 1]` repeated along the rows of `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum down the 1024 rows of a block, at column `j`. -/
theorem colsum512_apply (src : FVec Ideal S1024x512 .f32) (h : S1024x512.Reduces [0] S512) (hφ : FKind.Formats .f32)
    (hacc : (0x00000000#32 : BitVec 32) = FKind.add.neutral .f32 hφ) (j : Fin 512) :
    multiReduction (F := Ideal) .add [0] S512 src 0x00000000#32 h hφ hacc (ix1 j) = ∑ k : Fin 1024, src (ix2 k j) := by
  refine (Ideal.multiReduction_add_single src 0x00000000#32 h hφ hacc (ix1 j)).trans ?_
  refine Finset.sum_congr rfl fun k _ => congrArg src ?_
  funext a
  match a with
  | ⟨0, _⟩ => rfl
  | ⟨1, _⟩ => rfl

/-- The sum down the 1024 entries of a column block. -/
theorem colsum1_apply (src : FVec Ideal S1024x1 .f32) (h : S1024x1.Reduces [0] S1) (hφ : FKind.Formats .f32)
    (hacc : (0x00000000#32 : BitVec 32) = FKind.add.neutral .f32 hφ) :
    multiReduction (F := Ideal) .add [0] S1 src 0x00000000#32 h hφ hacc (ix1 (0 : Fin 1)) = ∑ k : Fin 1024, src (ix2 k (0 : Fin 1)) := by
  refine (Ideal.multiReduction_add_single src 0x00000000#32 h hφ hacc (ix1 (0 : Fin 1))).trans ?_
  refine Finset.sum_congr rfl fun k _ => congrArg src ?_
  funext a
  match a with
  | ⟨0, _⟩ => rfl
  | ⟨1, _⟩ => rfl

/-! ## The payloads at an index -/

/-- The masked block: `x k j * m k`. -/
theorem pay6_apply (x0 : Vec Ideal S1024x512 .f32) (x1 : Vec Ideal S1024x1 .f32) (k : Fin 1024) (j : Fin 512) :
    (k0_pay6 x0 x1 : S1024x512.Idx → EReal) (ix2 k j) = x0 (ix2 k j) * x1 (ix2 k (0 : Fin 1)) := by
  unfold k0_pay6 k0_pay5
  dsimp only
  rw [mulf_apply, shapeCast_self, shapeCast_self]
  exact congrArg (x0 (ix2 k j) * ·) (broadcastTo_a1_ab_apply x1 _ k j)

/-- The first running row after a block: the old row plus the block's masked column sums. -/
theorem pay7_apply (x0 : Vec Ideal S1024x512 .f32) (x1 : Vec Ideal S1024x1 .f32) (s : Vec Ideal S1x512 .f32) (j : Fin 512) :
    (k0_pay7 x0 x1 s : S1x512.Idx → EReal) (ix2 (0 : Fin 1) j)
      = s (ix2 (0 : Fin 1) j) + ∑ k : Fin 1024, x0 (ix2 k j) * x1 (ix2 k (0 : Fin 1)) := by
  unfold k0_pay7
  dsimp only
  rw [shapeCast_self, addf_apply, shapeCast_a_1a_apply]
  refine congrArg (s (ix2 (0 : Fin 1) j) + ·) ((colsum512_apply _ _ _ _ j).trans ?_)
  exact Finset.sum_congr rfl fun k _ => pay6_apply x0 x1 k j

/-- The second running row after a block: the old row plus the block's masked column sums of squares. -/
theorem pay8_apply (x0 : Vec Ideal S1024x512 .f32) (x1 : Vec Ideal S1024x1 .f32) (s : Vec Ideal S1x512 .f32) (j : Fin 512) :
    (k0_pay8 x0 x1 s : S1x512.Idx → EReal) (ix2 (0 : Fin 1) j)
      = s (ix2 (0 : Fin 1) j) + ∑ k : Fin 1024, (x0 (ix2 k j) * x1 (ix2 k (0 : Fin 1))) * x0 (ix2 k j) := by
  unfold k0_pay8
  dsimp only
  rw [shapeCast_self, addf_apply, shapeCast_a_1a_apply]
  refine congrArg (s (ix2 (0 : Fin 1) j) + ·) ((colsum512_apply _ _ _ _ j).trans ?_)
  refine Finset.sum_congr rfl fun k _ => ?_
  rw [mulf_apply, pay6_apply]

/-- The running count after a block: the old count plus the block's mask sum. -/
theorem pay9_apply (x1 : Vec Ideal S1024x1 .f32) (s : Vec Ideal S1x1 .f32) :
    (k0_pay9 x1 s : S1x1.Idx → EReal) (ix2 (0 : Fin 1) (0 : Fin 1))
      = s (ix2 (0 : Fin 1) (0 : Fin 1)) + ∑ k : Fin 1024, x1 (ix2 k (0 : Fin 1)) := by
  unfold k0_pay9 k0_pay5
  dsimp only
  rw [shapeCast_self, addf_apply, shapeCast_a_1a_apply]
  refine congrArg (s (ix2 (0 : Fin 1) (0 : Fin 1)) + ·) ((colsum1_apply _ _ _ _).trans ?_)
  rw [shapeCast_self]

/-- The count copied along a row. -/
theorem pay1_apply (s : Vec Ideal S1x1 .f32) (j : Fin 512) :
    (k0_pay1 s : S1x512.Idx → EReal) (ix2 (0 : Fin 1) j) = s (ix2 (0 : Fin 1) (0 : Fin 1)) := by
  unfold k0_pay1
  rw [shapeCast_self]
  exact broadcastTo_a1_ab_apply s _ (0 : Fin 1) j

/-- The three starting values are zero. -/
theorem pay2_apply (i : S1x512.Idx) : (k0_pay2 (F := Ideal) : S1x512.Idx → EReal) i = 0 := by
  unfold k0_pay2
  rw [shapeCast_self, broadcast_apply]
  exact Ideal.ofBits_zero_f32
theorem pay3_apply (i : S1x512.Idx) : (k0_pay3 (F := Ideal) : S1x512.Idx → EReal) i = 0 := by
  unfold k0_pay3
  rw [shapeCast_self, broadcast_apply]
  exact Ideal.ofBits_zero_f32
theorem pay4_apply (i : S1x1.Idx) : (k0_pay4 (F := Ideal) : S1x1.Idx → EReal) i = 0 := by
  unfold k0_pay4
  rw [shapeCast_self, broadcast_apply]
  exact Ideal.ofBits_zero_f32

end Cert.KernelIdeal.Val

end
-- ==== Proof.Spec.lean ====
/-
  The function both programs compute, on the extended reals.

  `x r j` is the input (65536 rows, 512 columns), `mf r` the mask as a number (0 or 1 on the
  inputs the claim is about, but nothing here assumes it), `γ j` and `β j` the scale and shift.
  Per column `j`: `S` is the masked sum of the column, `Q` the masked sum of its squares, `C` the
  number of masked rows; `mean = S / C`, `var = Q / C - mean²`, `a = rsqrt (var + ε) · γ`; the
  result at `(r, j)` is `x + (x · (a - 1) + (β - mean · a)) · mf r` — the normalised value where
  the row is masked in, `x` itself where it is not.
-/
import Idealize.ShloMosaic.PureOps.Ideal
import Mathlib.Algebra.BigOperators.Fin

noncomputable section

namespace Cert.Spec

open Idealize.ShloMosaic
open scoped BigOperators

/-- The masked sum of column `j`. -/
def S (x : Fin 65536 → Fin 512 → EReal) (mf : Fin 65536 → EReal) (j : Fin 512) : EReal :=
  ∑ r : Fin 65536, x r j * mf r

/-- The masked sum of squares of column `j`. -/
def Q (x : Fin 65536 → Fin 512 → EReal) (mf : Fin 65536 → EReal) (j : Fin 512) : EReal :=
  ∑ r : Fin 65536, (x r j * mf r) * x r j

/-- The number of masked rows. -/
def C (mf : Fin 65536 → EReal) : EReal := ∑ r : Fin 65536, mf r

/-- The variance's guard, the float `1e-5` as the value its pattern denotes. -/
def eps : EReal := Ideal.ofBits .f32 0x3727C5AC#32

/-- The float `1.0`. -/
def one : EReal := Ideal.ofBits .f32 0x3F800000#32

def mean (x : Fin 65536 → Fin 512 → EReal) (mf : Fin 65536 → EReal) (j : Fin 512) : EReal :=
  Ideal.div (S x mf j) (C mf)

def var (x : Fin 65536 → Fin 512 → EReal) (mf : Fin 65536 → EReal) (j : Fin 512) : EReal :=
  Ideal.div (Q x mf j) (C mf) - mean x mf j * mean x mf j

/-- The scale of the affine map: `rsqrt (var + ε) · γ`. -/
def a (x : Fin 65536 → Fin 512 → EReal) (mf : Fin 65536 → EReal) (γ : Fin 512 → EReal) (j : Fin 512) : EReal :=
  Ideal.rsqrt (var x mf j + eps) * γ j

/-- The two coefficient rows: `a - 1` and `β - mean · a`. -/
def cc (x : Fin 65536 → Fin 512 → EReal) (mf : Fin 65536 → EReal) (γ : Fin 512 → EReal) (j : Fin 512) : EReal :=
  a x mf γ j - one

def cb (x : Fin 65536 → Fin 512 → EReal) (mf : Fin 65536 → EReal) (γ β : Fin 512 → EReal) (j : Fin 512) : EReal :=
  β j - mean x mf j * a x mf γ j

/-- The result at row `r`, column `j`. -/
def G (x : Fin 65536 → Fin 512 → EReal) (mf : Fin 65536 → EReal) (γ β : Fin 512 → EReal)
    (r : Fin 65536) (j : Fin 512) : EReal :=
  x r j + (x r j * cc x mf γ j + cb x mf γ β j) * mf r

end Cert.Spec

end
-- ==== Proof.KI.Stats.lean ====
import proofs.«103854_g2027224563999_cont_sun_m_333_3_alg».proof.Proof.KI.Acc
import proofs.«103854_g2027224563999_cont_sun_m_333_3_alg».proof.Proof.KI.Pay0
import proofs.«103854_g2027224563999_cont_sun_m_333_3_alg».proof.Proof.Spec
import Idealize.ShloMosaic.Lib.ValueIdx
import Idealize.ShloMosaic.Lib.Pipeline.Value
import Idealize.ShloMosaic.PureOps.Ideal.Laws
import Mathlib.Algebra.BigOperators.Fin

set_option maxRecDepth 16384

/-
  What the first kernel leaves in its 3×512 array, on the extended reals.

  The 65536 rows are walked in 64 blocks of 1024. After block `n` each running value is the sum,
  over the blocks so far, of that block's own sum (induction on `n`; only that `+` is associative
  and `0 + a = a`). The flat sum over all rows is the sum over blocks of the sums within blocks,
  so after the last block the three running values are the masked column sums, the masked column
  sums of squares and the mask count. The array is written once, at the last block, with the three
  running values as its rows.
-/

noncomputable section

namespace Cert.KernelIdeal.Val

open Idealize.ShloMosaic Idealize.ShloMosaic.TcCoe Idealize.ShloMosaic.ValueIdx
open Idealize.SL Idealize.SL.Sem
open Cert.KernelIdeal Cert.KernelIdeal.Gen Cert.KernelIdeal.Fr
open scoped BigOperators

/-! ## The flat sum cut into 64 blocks of 1024 -/

theorem lt64 (t : Fin cfg0.N) : t.val < 64 := by have := t.isLt; have hN : cfg0.N = 64 := N_0; omega
theorem lt63 : 63 < cfg0.N := by have hN : cfg0.N = 64 := N_0; omega

/-- Row `k` of block `t` is row `1024 t + k` of the array. -/
abbrev rowAt (t : ℕ) (ht : t < 64) (k : Fin 1024) : Fin 65536 := ⟨1024 * t + k.val, by omega⟩

/-- The sum of `f` over the rows of block `s` (zero past the last block). -/
def blkSum (f : Fin 65536 → EReal) (s : ℕ) : EReal := if h : s < 64 then ∑ k : Fin 1024, f (rowAt s h k) else 0

/-- A sum over `m * n` indices is the sum over `m` blocks of the sums over `n`. -/
theorem sum_fin_mul {M : Type*} [AddCommMonoid M] (m n : ℕ) (f : Fin (m * n) → M) :
    ∑ r, f r = ∑ s : Fin m, ∑ k : Fin n, f (finProdFinEquiv (s, k)) := by
  rw [← Equiv.sum_comp finProdFinEquiv f, Fintype.sum_prod_type]

/-- The sum over all 65536 rows is the sum over the 64 blocks of the block sums. -/
theorem sum_blocks (f : Fin 65536 → EReal) : ∑ r : Fin 65536, f r = ∑ s ∈ Finset.range 64, blkSum f s := by
  rw [← Fin.sum_univ_eq_sum_range (fun s => blkSum f s) 64]
  refine (sum_fin_mul 64 1024 f).trans (Finset.sum_congr rfl fun s _ => ?_)
  unfold blkSum
  rw [dif_pos s.isLt]
  refine Finset.sum_congr rfl fun k _ => congrArg f (Fin.ext ?_)
  show k.val + 1024 * s.val = 1024 * s.val + k.val
  omega

/-! ## A block of a window is a run of rows of its array -/

variable (V : (c : Dev nD) → (b : Ref sig .tc) → Buf (Elt Ideal) ((c : Thread nD τ).loc b))

theorem index0_0 (t : Fin cfg0.N) : win0_0.index t 0 = t.val := by
  have ht := lt64 t
  show (BitVec.ofNat 32 (t.val / grid0.stride 0 % 64)).toNat = t.val
  rw [show grid0.stride 0 = 1 from by decide, Nat.div_one, BitVec.toNat_ofNat]
  omega

theorem index0_1 (t : Fin cfg0.N) : win0_1.index t 0 = t.val := by
  have ht := lt64 t
  show (BitVec.ofNat 32 (t.val / grid0.stride 0 % 64)).toNat = t.val
  rw [show grid0.stride 0 = 1 from by decide, Nat.div_one, BitVec.toNat_ofNat]
  omega

/-- Block `t` of `x`, at `(k, j)`, is `x` at `(1024 t + k, j)`. -/
theorem iblk0_0_apply (c : Dev nD) (t : Fin cfg0.N) (k : Fin 1024) (j : Fin 512) :
    (iblk0 V c 0 t : S1024x512.Idx → EReal) (ix2 k j)
      = (V c main_arg0 : S65536x512.Idx → EReal) (ix2 (rowAt t.val (lt64 t) k) j) := by
  unfold iblk0
  rw [View.read_apply]
  show V c main_arg0 _ = V c main_arg0 _
  congr 1
  funext a
  apply Fin.ext
  match a with
  | ⟨0, _⟩ =>
    show win0_0.index t 0 * 1024 + 1 * k.val = 1024 * t.val + k.val
    rw [index0_0]; omega
  | ⟨1, _⟩ =>
    show win0_0.index t 1 * 512 + 1 * j.val = j.val
    rw [show win0_0.index t 1 = 0 from rfl]; omega

/-- Block `t` of the mask column, at `k`, is the column at `1024 t + k`. -/
theorem iblk0_1_apply (c : Dev nD) (t : Fin cfg0.N) (k : Fin 1024) :
    (iblk0 V c 1 t : S1024x1.Idx → EReal) (ix2 k (0 : Fin 1))
      = (V c main_v1 : S65536x1.Idx → EReal) (ix2 (rowAt t.val (lt64 t) k) (0 : Fin 1)) := by
  unfold iblk0
  rw [View.read_apply]
  show V c main_v1 _ = V c main_v1 _
  congr 1
  funext a
  apply Fin.ext
  match a with
  | ⟨0, _⟩ =>
    show win0_1.index t 0 * 1024 + 1 * k.val = 1024 * t.val + k.val
    rw [index0_1]; omega
  | ⟨1, _⟩ =>
    show win0_1.index t 1 * 1 + 1 * 0 = 0
    rw [show win0_1.index t 1 = 0 from rfl]

/-- Block `t` of `x` and of the mask column, as vectors of the blocks' literal shapes. -/
abbrev xblk (c : Dev nD) (t : Fin cfg0.N) : Vec Ideal S1024x512 .f32 := iblk0 V c 0 t
abbrev mblk (c : Dev nD) (t : Fin cfg0.N) : Vec Ideal S1024x1 .f32 := iblk0 V c 1 t

/-! ## One block folded in, at an index -/

theorem step0_fst (x0 : Vec Ideal S1024x512 .f32) (x1 : Vec Ideal S1024x1 .f32) (a : Sc0 Ideal) (j : Fin 512) :
    ((step0 x0 x1 a).1 : S1x512.Idx → EReal) (ix2 (0 : Fin 1) j)
      = a.1 (ix2 (0 : Fin 1) j) + ∑ k : Fin 1024, x0 (ix2 k j) * x1 (ix2 k (0 : Fin 1)) :=
  pay7_apply x0 x1 a.1 j

theorem step0_snd (x0 : Vec Ideal S1024x512 .f32) (x1 : Vec Ideal S1024x1 .f32) (a : Sc0 Ideal) (j : Fin 512) :
    ((step0 x0 x1 a).2.1 : S1x512.Idx → EReal) (ix2 (0 : Fin 1) j)
      = a.2.1 (ix2 (0 : Fin 1) j) + ∑ k : Fin 1024, (x0 (ix2 k j) * x1 (ix2 k (0 : Fin 1))) * x0 (ix2 k j) :=
  pay8_apply x0 x1 a.2.1 j

theorem step0_thd (x0 : Vec Ideal S1024x512 .f32) (x1 : Vec Ideal S1024x1 .f32) (a : Sc0 Ideal) :
    ((step0 x0 x1 a).2.2 : S1x1.Idx → EReal) (ix2 (0 : Fin 1) (0 : Fin 1))
      = a.2.2 (ix2 (0 : Fin 1) (0 : Fin 1)) + ∑ k : Fin 1024, x1 (ix2 k (0 : Fin 1)) :=
  pay9_apply x1 a.2.2

/-! ## The running values after block `n` -/

section Running

variable (c : Dev nD) (x : Fin 65536 → Fin 512 → EReal) (mf : Fin 65536 → EReal)
  (hx : ∀ r j, (V c main_arg0 : S65536x512.Idx → EReal) (ix2 r j) = x r j)
  (hm : ∀ r, (V c main_v1 : S65536x1.Idx → EReal) (ix2 r (0 : Fin 1)) = mf r)
include hx hm

/-- Block `t`'s masked column sum. -/
theorem blkS (t : Fin cfg0.N) (j : Fin 512) :
    ∑ k : Fin 1024, xblk V c t (ix2 k j) * mblk V c t (ix2 k (0 : Fin 1))
      = blkSum (fun r => x r j * mf r) t.val := by
  unfold blkSum
  rw [dif_pos (lt64 t)]
  refine Finset.sum_congr rfl fun k _ => ?_
  rw [show xblk V c t (ix2 k j) = x (rowAt t.val (lt64 t) k) j from (iblk0_0_apply V c t k j).trans (hx _ _),
    show mblk V c t (ix2 k (0 : Fin 1)) = mf (rowAt t.val (lt64 t) k) from (iblk0_1_apply V c t k).trans (hm _)]

/-- Block `t`'s masked column sum of squares. -/
theorem blkQ (t : Fin cfg0.N) (j : Fin 512) :
    ∑ k : Fin 1024, (xblk V c t (ix2 k j) * mblk V c t (ix2 k (0 : Fin 1))) * xblk V c t (ix2 k j)
      = blkSum (fun r => (x r j * mf r) * x r j) t.val := by
  unfold blkSum
  rw [dif_pos (lt64 t)]
  refine Finset.sum_congr rfl fun k _ => ?_
  rw [show xblk V c t (ix2 k j) = x (rowAt t.val (lt64 t) k) j from (iblk0_0_apply V c t k j).trans (hx _ _),
    show mblk V c t (ix2 k (0 : Fin 1)) = mf (rowAt t.val (lt64 t) k) from (iblk0_1_apply V c t k).trans (hm _)]

omit hx in
/-- Block `t`'s mask sum. -/
theorem blkC (t : Fin cfg0.N) :
    ∑ k : Fin 1024, mblk V c t (ix2 k (0 : Fin 1)) = blkSum mf t.val := by
  unfold blkSum
  rw [dif_pos (lt64 t)]
  exact Finset.sum_congr rfl fun k _ => (iblk0_1_apply V c t k).trans (hm _)

/-- The first running row after block `n`: the block sums so far. -/
theorem acc0_fst (j : Fin 512) : ∀ (n : ℕ) (hn : n < cfg0.N),
    ((acc0 V c n hn).1 : S1x512.Idx → EReal) (ix2 (0 : Fin 1) j)
      = ∑ s ∈ Finset.range (n + 1), blkSum (fun r => x r j * mf r) s
  | 0, hn => by
    rw [acc0_zero, step0_fst, Finset.sum_range_one]
    have hz : ((zero0 (F := Ideal)).1 : S1x512.Idx → EReal) (ix2 (0 : Fin 1) j) = 0 := pay2_apply (ix2 (0 : Fin 1) j)
    rw [hz, zero_add]
    exact blkS V c x mf hx hm ⟨0, hn⟩ j
  | n + 1, hn => by
    rw [acc0_succ, step0_fst, acc0_fst j n (Nat.lt_of_succ_lt hn), Finset.sum_range_succ _ (n + 1)]
    exact congrArg (_ + ·) (blkS V c x mf hx hm ⟨n + 1, hn⟩ j)

/-- The second running row after block `n`. -/
theorem acc0_snd (j : Fin 512) : ∀ (n : ℕ) (hn : n < cfg0.N),
    ((acc0 V c n hn).2.1 : S1x512.Idx → EReal) (ix2 (0 : Fin 1) j)
      = ∑ s ∈ Finset.range (n + 1), blkSum (fun r => (x r j * mf r) * x r j) s
  | 0, hn => by
    rw [acc0_zero, step0_snd, Finset.sum_range_one]
    have hz : ((zero0 (F := Ideal)).2.1 : S1x512.Idx → EReal) (ix2 (0 : Fin 1) j) = 0 := pay3_apply (ix2 (0 : Fin 1) j)
    rw [hz, zero_add]
    exact blkQ V c x mf hx hm ⟨0, hn⟩ j
  | n + 1, hn => by
    rw [acc0_succ, step0_snd, acc0_snd j n (Nat.lt_of_succ_lt hn), Finset.sum_range_succ _ (n + 1)]
    exact congrArg (_ + ·) (blkQ V c x mf hx hm ⟨n + 1, hn⟩ j)

omit hx in
/-- The running count after block `n`. -/
theorem acc0_thd : ∀ (n : ℕ) (hn : n < cfg0.N),
    ((acc0 V c n hn).2.2 : S1x1.Idx → EReal) (ix2 (0 : Fin 1) (0 : Fin 1))
      = ∑ s ∈ Finset.range (n + 1), blkSum mf s
  | 0, hn => by
    rw [acc0_zero, step0_thd, Finset.sum_range_one]
    have hz : ((zero0 (F := Ideal)).2.2 : S1x1.Idx → EReal) (ix2 (0 : Fin 1) (0 : Fin 1)) = 0 := pay4_apply (ix2 (0 : Fin 1) (0 : Fin 1))
    rw [hz, zero_add]
    exact blkC V c mf hm ⟨0, hn⟩
  | n + 1, hn => by
    rw [acc0_succ, step0_thd, acc0_thd n (Nat.lt_of_succ_lt hn), Finset.sum_range_succ _ (n + 1)]
    exact congrArg (_ + ·) (blkC V c mf hm ⟨n + 1, hn⟩)

end Running

/-! ## The three rows of the stored array -/

theorem row0_emb (j : Fin 512) : row0.emb (ix2 (0 : Fin 1) j) = ix2 (0 : Fin 3) j := by
  funext a; apply Fin.ext; rw [Rect.emb_apply]
  match a with
  | ⟨0, _⟩ => rfl
  | ⟨1, _⟩ => show 0 + 1 * j.val = j.val; omega
theorem row1_emb (j : Fin 512) : row1.emb (ix2 (0 : Fin 1) j) = ix2 (1 : Fin 3) j := by
  funext a; apply Fin.ext; rw [Rect.emb_apply]
  match a with
  | ⟨0, _⟩ => rfl
  | ⟨1, _⟩ => show 0 + 1 * j.val = j.val; omega
theorem row2_emb (j : Fin 512) : row2.emb (ix2 (0 : Fin 1) j) = ix2 (2 : Fin 3) j := by
  funext a; apply Fin.ext; rw [Rect.emb_apply]
  match a with
  | ⟨0, _⟩ => rfl
  | ⟨1, _⟩ => show 0 + 1 * j.val = j.val; omega

theorem not_mem_row2_of_row1 (j : Fin 512) : ix2 (1 : Fin 3) j ∉ row2.set := by
  rw [Rect.mem_set_unit]; intro h
  have h0 : (2 : ℕ) ≤ 1 := (h 0).1
  omega
theorem not_mem_row2_of_row0 (j : Fin 512) : ix2 (0 : Fin 3) j ∉ row2.set := by
  rw [Rect.mem_set_unit]; intro h
  have h0 : (2 : ℕ) ≤ 0 := (h 0).1
  omega
theorem not_mem_row1_of_row0 (j : Fin 512) : ix2 (0 : Fin 3) j ∉ row1.set := by
  rw [Rect.mem_set_unit]; intro h
  have h0 : (1 : ℕ) ≤ 0 := (h 0).1
  omega

/-- Row 2 of the stored array is the count, copied along the row. -/
theorem out0_row2 (a : Sc0 Ideal) (j : Fin 512) :
    (out0 a : S3x512.Idx → EReal) (ix2 (2 : Fin 3) j) = a.2.2 (ix2 (0 : Fin 1) (0 : Fin 1)) := by
  unfold out0
  rw [← row2_emb j]
  refine (View.canon_cons_emb (Val := Elt Ideal) (e := .f32) row2 (k0_pay1 a.2.2) _ (ix2 (0 : Fin 1) j)).trans ?_
  exact pay1_apply a.2.2 j

/-- Row 1 is the second running row. -/
theorem out0_row1 (a : Sc0 Ideal) (j : Fin 512) :
    (out0 a : S3x512.Idx → EReal) (ix2 (1 : Fin 3) j) = a.2.1 (ix2 (0 : Fin 1) j) := by
  unfold out0
  refine (View.canon_cons_of_not_mem (⟨row2, k0_pay1 a.2.2⟩ : View.Piece (Elt Ideal) S3x512 .f32) _ (not_mem_row2_of_row1 j)).trans ?_
  rw [← row1_emb j]
  exact View.canon_cons_emb row1 a.2.1 _ (ix2 (0 : Fin 1) j)

/-- Row 0 is the first running row. -/
theorem out0_row0 (a : Sc0 Ideal) (j : Fin 512) :
    (out0 a : S3x512.Idx → EReal) (ix2 (0 : Fin 3) j) = a.1 (ix2 (0 : Fin 1) j) := by
  unfold out0
  refine (View.canon_cons_of_not_mem (⟨row2, k0_pay1 a.2.2⟩ : View.Piece (Elt Ideal) S3x512 .f32) _ (not_mem_row2_of_row0 j)).trans ?_
  refine (View.canon_cons_of_not_mem (⟨row1, a.2.1⟩ : View.Piece (Elt Ideal) S3x512 .f32) _ (not_mem_row1_of_row0 j)).trans ?_
  rw [← row0_emb j]
  exact View.canon_cons_emb row0 a.1 _ (ix2 (0 : Fin 1) j)

/-! ## The array after the region -/

section Array

variable (c : Dev nD) (dat : Pipeline.Dat τ (Elt Ideal) Unit ℕ (Pipeline.UD sig nD τ) ℕ cfg0 c)
  (h2 : ∀ t : Fin cfg0.N, dat.after 2 t = out0 (acc0 V c t.val t.isLt))
include h2

/-- The one write-back, at the last block, writes the three running values: the window's one block is
    the whole array. -/
theorem flushed_eq (t : Fin cfg0.N) (hf : (cfg0.win 2).flush t = true) :
    dat.flushed 2 t = ((cfg0.win 2).blk t).view.read (Elt Ideal) (out0 (acc0 V c 63 lt63)) := by
  have h63 : t.val = 63 := by have := (flush0_2 t).mp hf; have := lt64 t; omega
  obtain rfl : t = ⟨63, lt63⟩ := Fin.ext h63
  show (cfg0.win 2).cut (grid0.coords ⟨63, lt63⟩) (dat.after 2 ⟨63, lt63⟩) = _
  rw [h2]
  have hz' : (fun a => win0_2.index ⟨63, lt63⟩ a * main_v4.ty.shape.size a) = fun _ => 0 :=
    funext fun a => by fin_cases a <;> rfl
  exact (Memref.read_access_unit_zero (Elt Ideal) main_v4 hz' (fun a => by rw [congrFun hz' a]; simp)
    (out0 (acc0 V c 63 lt63))).symm

/-- So the array ends holding the three running values after the last block. -/
theorem arr_eq : dat.arrAt 2 cfg0.N = out0 (acc0 V c 63 lt63) :=
  dat.arrAt_eq_of_cover 2 (out0 (acc0 V c 63 lt63)) (flushed_eq V c dat h2) fun i =>
    ⟨⟨63, lt63⟩, (flush0_2 ⟨63, lt63⟩).mpr rfl, by
      show i ∈ ((View.whole main_v4).slice (win0_2.rect ⟨63, lt63⟩)).set
      rw [View.set_slice_whole, Rect.mem_set_unit]
      intro a
      have h0 : (i 0 : Nat) < 3 := (i 0).isLt
      have h1 : (i 1 : Nat) < 512 := (i 1).isLt
      match a with
      | ⟨0, _⟩ =>
        show win0_2.index ⟨63, lt63⟩ 0 * win0_2.size 0 ≤ (i 0 : Nat)
          ∧ (i 0 : Nat) < win0_2.index ⟨63, lt63⟩ 0 * win0_2.size 0 + win0_2.xsize (grid0.coords ⟨63, lt63⟩) 0
        rw [show win0_2.index ⟨63, lt63⟩ 0 * win0_2.size 0 = 0 from rfl,
          show win0_2.xsize (grid0.coords ⟨63, lt63⟩) 0 = 3 from rfl]; omega
      | ⟨1, _⟩ =>
        show win0_2.index ⟨63, lt63⟩ 1 * win0_2.size 1 ≤ (i 1 : Nat)
          ∧ (i 1 : Nat) < win0_2.index ⟨63, lt63⟩ 1 * win0_2.size 1 + win0_2.xsize (grid0.coords ⟨63, lt63⟩) 1
        rw [show win0_2.index ⟨63, lt63⟩ 1 * win0_2.size 1 = 0 from rfl,
          show win0_2.xsize (grid0.coords ⟨63, lt63⟩) 1 = 512 from rfl]; omega⟩

end Array

/-- After the first kernel, the three rows of its array are the masked column sums, the masked column
    sums of squares and the mask count. -/
theorem stats_arr (c : Dev nD) (dat : Pipeline.Dat τ (Elt Ideal) Unit ℕ (Pipeline.UD sig nD τ) ℕ cfg0 c)
    (hA : ∀ w, dat.A w = V c (Pipeline.arrRef spec0 w))
    (h2 : ∀ t : Fin cfg0.N, dat.after 2 t = out0 (acc0 V c t.val t.isLt))
    (x : Fin 65536 → Fin 512 → EReal) (mf : Fin 65536 → EReal)
    (hx : ∀ r j, (V c main_arg0 : S65536x512.Idx → EReal) (ValueIdx.ix2 r j) = x r j)
    (hm : ∀ r, (V c main_v1 : S65536x1.Idx → EReal) (ValueIdx.ix2 r 0) = mf r) (j : Fin 512) :
    (dat.arrAt 2 cfg0.N : S3x512.Idx → EReal) (ValueIdx.ix2 0 j) = Cert.Spec.S x mf j
    ∧ (dat.arrAt 2 cfg0.N : S3x512.Idx → EReal) (ValueIdx.ix2 1 j) = Cert.Spec.Q x mf j
    ∧ (dat.arrAt 2 cfg0.N : S3x512.Idx → EReal) (ValueIdx.ix2 2 j) = Cert.Spec.C mf := by
  rw [arr_eq V c dat h2]
  refine ⟨?_, ?_, ?_⟩
  · rw [out0_row0, acc0_fst V c x mf hx hm j 63 lt63]
    exact (sum_blocks fun r => x r j * mf r).symm
  · rw [out0_row1, acc0_snd V c x mf hx hm j 63 lt63]
    exact (sum_blocks fun r => (x r j * mf r) * x r j).symm
  · rw [out0_row2, acc0_thd V c mf hm 63 lt63]
    exact (sum_blocks mf).symm

end Cert.KernelIdeal.Val

end
-- ==== Proof.KI.Pay1.lean ====
/-
  The second kernel's pure values read at an index, on the extended reals.

  The coefficient rows are computed from three 1×512 rows `cnt`, `sm`, `sq` (the count, the sums,
  the sums of squares), the scale row `g` and the shift row `b`, entry by entry along the 512
  columns:  mean = sm / cnt,  a = rsqrt ((sq / cnt - mean · mean) + ε) · g,  first row a - 1,
  second row b - mean · a.  The stored block is, at row `k` and column `j`,
  x + (x · c₁ + c₂) · m, where the two coefficient rows are read at column `j` only and the mask
  column at row `k` only.
-/
import proofs.«103854_g2027224563999_cont_sun_m_333_3_alg».proof.Proof.KI.Acc
import Idealize.ShloMosaic.Lib.ValueIdx
import Idealize.ShloMosaic.Lib.Pipeline.Value

noncomputable section

namespace Cert.KernelIdeal.Val1

open Idealize.ShloMosaic Idealize.ShloMosaic.TcCoe Idealize.ShloMosaic.ValueIdx
open Cert.KernelIdeal Cert.KernelIdeal.Gen Cert.KernelIdeal.Fr

/-- The mean row: the sum row over the count row, entry by entry. -/
theorem pay2_apply (cnt sm : Vec Ideal S1x512 .f32) (j : Fin 512) :
    (k1_pay2 cnt sm : S1x512.Idx → EReal) (ix2 (0 : Fin 1) j)
      = Ideal.div (sm (ix2 (0 : Fin 1) j)) (cnt (ix2 (0 : Fin 1) j)) := by
  unfold k1_pay2 k1_pay1
  simp only [shapeCast_self]
  rfl

/-- The scale row: the reciprocal root of the guarded variance, times the scale. -/
theorem pay3_apply (cnt sm sq g : Vec Ideal S1x512 .f32) (j : Fin 512) :
    (k1_pay3 cnt sm sq g : S1x512.Idx → EReal) (ix2 (0 : Fin 1) j)
      = Ideal.rsqrt ((Ideal.div (sq (ix2 (0 : Fin 1) j)) (cnt (ix2 (0 : Fin 1) j))
            - Ideal.div (sm (ix2 (0 : Fin 1) j)) (cnt (ix2 (0 : Fin 1) j))
              * Ideal.div (sm (ix2 (0 : Fin 1) j)) (cnt (ix2 (0 : Fin 1) j)))
          + Ideal.ofBits .f32 0x3727C5AC#32) * g (ix2 (0 : Fin 1) j) := by
  have h2 := pay2_apply cnt sm j
  unfold k1_pay3 k1_pay1
  simp only [shapeCast_self]
  show Ideal.rsqrt ((Ideal.div (sq _) (cnt _) - (k1_pay2 cnt sm : S1x512.Idx → EReal) _ * (k1_pay2 cnt sm : S1x512.Idx → EReal) _) + _) * g _ = _
  rw [h2]
  rfl

/-- The first coefficient row: the scale row less one. -/
theorem pay4_apply (cnt sm sq g : Vec Ideal S1x512 .f32) (j : Fin 512) :
    (k1_pay4 cnt sm sq g : S1x512.Idx → EReal) (ix2 (0 : Fin 1) j)
      = (k1_pay3 cnt sm sq g : S1x512.Idx → EReal) (ix2 (0 : Fin 1) j) - Ideal.ofBits .f32 0x3F800000#32 := by
  unfold k1_pay4
  simp only [shapeCast_self]
  rfl

/-- The second coefficient row: the shift less the mean times the scale row. -/
theorem pay5_apply (cnt sm sq g b : Vec Ideal S1x512 .f32) (j : Fin 512) :
    (k1_pay5 cnt sm sq g b : S1x512.Idx → EReal) (ix2 (0 : Fin 1) j)
      = b (ix2 (0 : Fin 1) j)
        - (k1_pay2 cnt sm : S1x512.Idx → EReal) (ix2 (0 : Fin 1) j) * (k1_pay3 cnt sm sq g : S1x512.Idx → EReal) (ix2 (0 : Fin 1) j) := by
  unfold k1_pay5
  simp only [shapeCast_self]
  rfl

/-- A 1×512 row spread down 1024 rows reads, at `(k, j)`, the row at column `j`. -/
theorem bcast_row_apply (v : Vec Ideal S1x512 .f32) (k : Fin 1024) (j : Fin 512) :
    (broadcastTo S1024x512 v broadcasts_S1x512_S1024x512 : S1024x512.Idx → EReal) (ix2 k j) = v (ix2 (0 : Fin 1) j) := by
  refine broadcastTo_apply v _ (ix2 k j) (ix2 (0 : Fin 1) j) fun a => ?_
  match a with
  | ⟨0, _⟩ => rfl
  | ⟨1, _⟩ => rfl

/-- A 1024×1 column spread across 512 columns reads, at `(k, j)`, the column at row `k`. -/
theorem bcast_col_apply (v : Vec Ideal S1024x1 .f32) (k : Fin 1024) (j : Fin 512) :
    (broadcastTo S1024x512 v broadcasts_S1024x1_S1024x512 : S1024x512.Idx → EReal) (ix2 k j) = v (ix2 k (0 : Fin 1)) := by
  refine broadcastTo_apply v _ (ix2 k j) (ix2 k (0 : Fin 1)) fun a => ?_
  match a with
  | ⟨0, _⟩ => rfl
  | ⟨1, _⟩ => rfl

/-- The stored block at row `k`, column `j`. -/
theorem pay6_apply (x0 : Vec Ideal S1024x512 .f32) (x1 : Vec Ideal S1024x1 .f32) (c1 c2 : Vec Ideal S1x512 .f32)
    (k : Fin 1024) (j : Fin 512) :
    (k1_pay6 x0 x1 c1 c2 : S1024x512.Idx → EReal) (ix2 k j)
      = x0 (ix2 k j) + (x0 (ix2 k j) * c1 (ix2 (0 : Fin 1) j) + c2 (ix2 (0 : Fin 1) j)) * x1 (ix2 k (0 : Fin 1)) := by
  unfold k1_pay6
  simp only [shapeCast_self]
  simp only [addf_apply, mulf_apply, bcast_row_apply, bcast_col_apply]

end Cert.KernelIdeal.Val1

end
-- ==== Proof.KI.Coef1.lean ====
/-
  The second kernel's two coefficient rows at a column, as a function of the 3×512 array of sums it
  is handed (row 0 the sums, row 1 the sums of squares, row 2 the count), the scale row and the shift
  row: with mean = s₀ / s₂ and a = rsqrt ((s₁ / s₂ - mean · mean) + ε) · g, the first row is a - 1 and
  the second b - mean · a. A unit-stride row rectangle of the 3×512 array read at column `j` is the
  array at that row and column.
-/
import proofs.«103854_g2027224563999_cont_sun_m_333_3_alg».proof.Proof.KI.Acc
import proofs.«103854_g2027224563999_cont_sun_m_333_3_alg».proof.Proof.KI.Pay1
import Idealize.ShloMosaic.Lib.ValueIdx
import Idealize.ShloMosaic.Lib.Pipeline.Value

set_option maxRecDepth 16384

noncomputable section

namespace Cert.KernelIdeal.Val1

open Idealize.ShloMosaic Idealize.ShloMosaic.TcCoe Idealize.ShloMosaic.ValueIdx
open Idealize.SL Idealize.SL.Sem
open Cert.KernelIdeal Cert.KernelIdeal.Gen Cert.KernelIdeal.Fr

/-! ## The rows of the 3×512 array -/

/-- Row 0 of a 3×512 array, read at column `j`. -/
theorem ld_row0 (s : Vec Ideal S3x512 .f32) (j : Fin 512) :
    (View.ld s row0 : S1x512.Idx → EReal) (ix2 (0 : Fin 1) j) = s (ix2 (0 : Fin 3) j) := by
  show s (row0.idx (ix2 (0 : Fin 1) j)) = s (ix2 (0 : Fin 3) j)
  refine congrArg s (funext fun a => Fin.ext ?_)
  match a with
  | ⟨0, _⟩ => rfl
  | ⟨1, _⟩ => show 0 + 1 * j.val = j.val; omega

/-- Row 1, read at column `j`. -/
theorem ld_row1 (s : Vec Ideal S3x512 .f32) (j : Fin 512) :
    (View.ld s row1 : S1x512.Idx → EReal) (ix2 (0 : Fin 1) j) = s (ix2 (1 : Fin 3) j) := by
  show s (row1.idx (ix2 (0 : Fin 1) j)) = s (ix2 (1 : Fin 3) j)
  refine congrArg s (funext fun a => Fin.ext ?_)
  match a with
  | ⟨0, _⟩ => rfl
  | ⟨1, _⟩ => show 0 + 1 * j.val = j.val; omega

/-- Row 2, read at column `j`. -/
theorem ld_row2 (s : Vec Ideal S3x512 .f32) (j : Fin 512) :
    (View.ld s row2 : S1x512.Idx → EReal) (ix2 (0 : Fin 1) j) = s (ix2 (2 : Fin 3) j) := by
  show s (row2.idx (ix2 (0 : Fin 1) j)) = s (ix2 (2 : Fin 3) j)
  refine congrArg s (funext fun a => Fin.ext ?_)
  match a with
  | ⟨0, _⟩ => rfl
  | ⟨1, _⟩ => show 0 + 1 * j.val = j.val; omega

/-! ## The coefficient rows at a column -/

/-- The scale of the affine map at column `j`, from the three rows of `s` and the scale row. -/
def aOf (s : Vec Ideal S3x512 .f32) (g : Vec Ideal S1x512 .f32) (j : Fin 512) : EReal :=
  Ideal.rsqrt ((Ideal.div (s (ix2 (1 : Fin 3) j)) (s (ix2 (2 : Fin 3) j))
        - Ideal.div (s (ix2 (0 : Fin 3) j)) (s (ix2 (2 : Fin 3) j)) * Ideal.div (s (ix2 (0 : Fin 3) j)) (s (ix2 (2 : Fin 3) j)))
      + Ideal.ofBits .f32 0x3727C5AC#32) * g (ix2 (0 : Fin 1) j)

theorem coef1_fst_apply (s : Vec Ideal S3x512 .f32) (g b : Vec Ideal S1x512 .f32) (j : Fin 512) :
    ((coef1 s g b).1 : S1x512.Idx → EReal) (ix2 (0 : Fin 1) j) = aOf s g j - Ideal.ofBits .f32 0x3F800000#32 := by
  show (k1_pay4 (View.ld s row2) (View.ld s row0) (View.ld s row1) g : S1x512.Idx → EReal) (ix2 (0 : Fin 1) j) = _
  rw [pay4_apply, pay3_apply, ld_row0, ld_row1, ld_row2]
  rfl

theorem coef1_snd_apply (s : Vec Ideal S3x512 .f32) (g b : Vec Ideal S1x512 .f32) (j : Fin 512) :
    ((coef1 s g b).2 : S1x512.Idx → EReal) (ix2 (0 : Fin 1) j)
      = b (ix2 (0 : Fin 1) j) - Ideal.div (s (ix2 (0 : Fin 3) j)) (s (ix2 (2 : Fin 3) j)) * aOf s g j := by
  show (k1_pay5 (View.ld s row2) (View.ld s row0) (View.ld s row1) g b : S1x512.Idx → EReal) (ix2 (0 : Fin 1) j) = _
  rw [pay5_apply, pay2_apply, pay3_apply, ld_row0, ld_row1, ld_row2]
  rfl

end Cert.KernelIdeal.Val1

end
-- ==== Proof.KI.Blk1.lean ====
/-
  The blocks the second kernel is handed, read as entries of the arrays the region finds. Block `t`
  of the input and of the mask column is rows `1024·t … 1024·t + 1023` (an entry of a block sits at
  block index × block size + its coordinate inside the block, on each axis); the 3×512 array, the scale
  row and the shift row are handed whole at the first grid point.
-/
import proofs.«103854_g2027224563999_cont_sun_m_333_3_alg».proof.Proof.KI.Acc
import Idealize.ShloMosaic.Lib.ValueIdx
import Idealize.ShloMosaic.Lib.Pipeline.Value

set_option maxRecDepth 16384

noncomputable section

namespace Cert.KernelIdeal.Val1

open Idealize.ShloMosaic Idealize.ShloMosaic.TcCoe Idealize.ShloMosaic.ValueIdx
open Idealize.SL Idealize.SL.Sem
open Cert.KernelIdeal Cert.KernelIdeal.Gen Cert.KernelIdeal.Fr

variable (V : (c : Dev nD) → (b : Ref sig .tc) → Buf (Elt Ideal) ((c : Thread nD τ).loc b))

/-! ## The blocks the region reads, as rows of the arrays it finds -/

/-- The printed index maps, decided once over the grid: the input, the mask column and the result all move
    down one block of 1024 rows per grid point and stay at column block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_5.index t (0 : Fin 2) = t.val ∧ win1_5.index t (1 : Fin 2) = 0 :=
  (by decide +kernel : ∀ t : Fin grid1.N, _)

/-- The grid has a first point. -/
theorem pos1 : 0 < cfg1.N := by decide

/-- The three whole-array windows sit at block (0, 0) at the first grid point. -/
theorem idx_whole :
    win1_2.index ⟨0, pos1⟩ (0 : Fin 2) = 0 ∧ win1_2.index ⟨0, pos1⟩ (1 : Fin 2) = 0
    ∧ win1_3.index ⟨0, pos1⟩ (0 : Fin 2) = 0 ∧ win1_3.index ⟨0, pos1⟩ (1 : Fin 2) = 0
    ∧ win1_4.index ⟨0, pos1⟩ (0 : Fin 2) = 0 ∧ win1_4.index ⟨0, pos1⟩ (1 : Fin 2) = 0 := by
  decide +kernel

/-- Block `t` of the input is its rows `1024·t … 1024·t + 1023`. -/
theorem iblk1_0_apply (c : Dev nD) (t : Fin cfg1.N) (k : Fin 1024) (j : Fin 512) (hr : 1024 * t.val + k.val < 65536) :
    (iblk1 V c 0 t : S1024x512.Idx → EReal) (ix2 k j)
      = (V c main_arg0 : S65536x512.Idx → EReal) (ix2 (⟨1024 * t.val + k.val, hr⟩ : Fin 65536) j) := by
  obtain ⟨e0, e1, -⟩ := idx_facts t
  unfold iblk1
  rw [View.read_apply]
  show (V c main_arg0 : S65536x512.Idx → EReal) (((cfg1.win 0).blk t).view.emb (ix2 k j)) = _
  refine congrArg _ (funext fun a => Fin.ext ?_)
  match a with
  | ⟨0, _⟩ => show win1_0.index t (0 : Fin 2) * 1024 + 1 * k.val = 1024 * t.val + k.val; rw [e0]; omega
  | ⟨1, _⟩ => show win1_0.index t (1 : Fin 2) * 512 + 1 * j.val = j.val; rw [e1]; omega

/-- Block `t` of the mask column is its rows `1024·t … 1024·t + 1023`. -/
theorem iblk1_1_apply (c : Dev nD) (t : Fin cfg1.N) (k : Fin 1024) (hr : 1024 * t.val + k.val < 65536) :
    (iblk1 V c 1 t : S1024x1.Idx → EReal) (ix2 k (0 : Fin 1))
      = (V c main_v1 : S65536x1.Idx → EReal) (ix2 (⟨1024 * t.val + k.val, hr⟩ : Fin 65536) (0 : Fin 1)) := by
  obtain ⟨-, -, e0, e1, -⟩ := idx_facts t
  unfold iblk1
  rw [View.read_apply]
  show (V c main_v1 : S65536x1.Idx → EReal) (((cfg1.win 1).blk t).view.emb (ix2 k (0 : Fin 1))) = _
  refine congrArg _ (funext fun a => Fin.ext ?_)
  match a with
  | ⟨0, _⟩ => show win1_1.index t (0 : Fin 2) * 1024 + 1 * k.val = 1024 * t.val + k.val; rw [e0]; omega
  | ⟨1, _⟩ => show win1_1.index t (1 : Fin 2) * 1 + 1 * 0 = 0; rw [e1]

/-- The block of the 3×512 array at the first point is the array. -/
theorem iblk1_2_apply (c : Dev nD) (i : Fin 3) (j : Fin 512) :
    (iblk1 V c 2 ⟨0, pos1⟩ : S3x512.Idx → EReal) (ix2 i j) = (V c main_v4 : S3x512.Idx → EReal) (ix2 i j) := by
  obtain ⟨e0, e1, -⟩ := idx_whole
  unfold iblk1
  rw [View.read_apply]
  show (V c main_v4 : S3x512.Idx → EReal) (((cfg1.win 2).blk ⟨0, pos1⟩).view.emb (ix2 i j)) = _
  refine congrArg _ (funext fun a => Fin.ext ?_)
  match a with
  | ⟨0, _⟩ => show win1_2.index ⟨0, pos1⟩ (0 : Fin 2) * 3 + 1 * i.val = i.val; rw [e0]; omega
  | ⟨1, _⟩ => show win1_2.index ⟨0, pos1⟩ (1 : Fin 2) * 512 + 1 * j.val = j.val; rw [e1]; omega

/-- The block of the scale row at the first point is the row. -/
theorem iblk1_3_apply (c : Dev nD) (j : Fin 512) :
    (iblk1 V c 3 ⟨0, pos1⟩ : S1x512.Idx → EReal) (ix2 (0 : Fin 1) j) = (V c main_v2 : S1x512.Idx → EReal) (ix2 (0 : Fin 1) j) := by
  obtain ⟨-, -, e0, e1, -⟩ := idx_whole
  unfold iblk1
  rw [View.read_apply]
  show (V c main_v2 : S1x512.Idx → EReal) (((cfg1.win 3).blk ⟨0, pos1⟩).view.emb (ix2 (0 : Fin 1) j)) = _
  refine congrArg _ (funext fun a => Fin.ext ?_)
  match a with
  | ⟨0, _⟩ => show win1_3.index ⟨0, pos1⟩ (0 : Fin 2) * 1 + 1 * 0 = 0; rw [e0]
  | ⟨1, _⟩ => show win1_3.index ⟨0, pos1⟩ (1 : Fin 2) * 512 + 1 * j.val = j.val; rw [e1]; omega

/-- The block of the shift row at the first point is the row. -/
theorem iblk1_4_apply (c : Dev nD) (j : Fin 512) :
    (iblk1 V c 4 ⟨0, pos1⟩ : S1x512.Idx → EReal) (ix2 (0 : Fin 1) j) = (V c main_v3 : S1x512.Idx → EReal) (ix2 (0 : Fin 1) j) := by
  obtain ⟨-, -, -, -, e0, e1⟩ := idx_whole
  unfold iblk1
  rw [View.read_apply]
  show (V c main_v3 : S1x512.Idx → EReal) (((cfg1.win 4).blk ⟨0, pos1⟩).view.emb (ix2 (0 : Fin 1) j)) = _
  refine congrArg _ (funext fun a => Fin.ext ?_)
  match a with
  | ⟨0, _⟩ => show win1_4.index ⟨0, pos1⟩ (0 : Fin 2) * 1 + 1 * 0 = 0; rw [e0]
  | ⟨1, _⟩ => show win1_4.index ⟨0, pos1⟩ (1 : Fin 2) * 512 + 1 * j.val = j.val; rw [e1]; omega

end Cert.KernelIdeal.Val1

end
-- ==== Proof.KI.Final.lean ====
/-
  The array the second kernel leaves is the specification's result.

  The two coefficient rows the first grid point computes are, column by column, the specification's
  `a - 1` and `β - mean · a` once the 3×512 array it is handed holds the masked sums, the masked sums
  of squares and the count. The block a grid point `t` stores is, at row `k` and column `j`,
  `x + (x · c₁ + c₂) · m` with `x` and `m` read at row `1024·t + k` of the input and of the mask
  column: the specification's value at row `1024·t + k`, column `j`. Every grid point writes its block
  back, and row `r` lies in the block of point `r / 1024`, so the blocks tile the 65536×512 array and
  it ends holding the specification's result at every entry.
-/
import proofs.«103854_g2027224563999_cont_sun_m_333_3_alg».proof.Proof.KI.Acc
import proofs.«103854_g2027224563999_cont_sun_m_333_3_alg».proof.Proof.KI.Pay1
import proofs.«103854_g2027224563999_cont_sun_m_333_3_alg».proof.Proof.KI.Coef1
import proofs.«103854_g2027224563999_cont_sun_m_333_3_alg».proof.Proof.KI.Blk1
import proofs.«103854_g2027224563999_cont_sun_m_333_3_alg».proof.Proof.Spec
import Idealize.ShloMosaic.Lib.ValueIdx
import Idealize.ShloMosaic.Lib.Pipeline.Value

set_option maxRecDepth 16384

noncomputable section

namespace Cert.KernelIdeal.Val1

open Idealize.ShloMosaic Idealize.ShloMosaic.TcCoe Idealize.ShloMosaic.ValueIdx
open Idealize.SL Idealize.SL.Sem
open Cert.KernelIdeal Cert.KernelIdeal.Gen Cert.KernelIdeal.Fr

variable (V : (c : Dev nD) → (b : Ref sig .tc) → Buf (Elt Ideal) ((c : Thread nD τ).loc b))

/-- The result as one array: the specification's function read at an index's row and column. -/
def GArr (x : Fin 65536 → Fin 512 → EReal) (mf : Fin 65536 → EReal) (γ β : Fin 512 → EReal) : S65536x512.Idx → EReal :=
  fun i => Cert.Spec.G x mf γ β (i 0) (i 1)

theorem GArr_ix2 (x : Fin 65536 → Fin 512 → EReal) (mf : Fin 65536 → EReal) (γ β : Fin 512 → EReal) (r : Fin 65536) (j : Fin 512) :
    GArr x mf γ β (ix2 r j) = Cert.Spec.G x mf γ β r j := rfl

section Result

variable (c : Dev nD) (x : Fin 65536 → Fin 512 → EReal) (mf : Fin 65536 → EReal) (γ β : Fin 512 → EReal)

/-! ## The coefficient rows are the specification's -/

/-- The first coefficient row at column `j` is the specification's `a - 1`, when the 3×512 array holds the
    masked sums, the masked sums of squares and the count, and the scale row holds `γ`. -/
theorem acc1_fst_apply
    (hs : ∀ j, (V c main_v4 : S3x512.Idx → EReal) (ix2 0 j) = Cert.Spec.S x mf j ∧ (V c main_v4 : S3x512.Idx → EReal) (ix2 1 j) = Cert.Spec.Q x mf j ∧ (V c main_v4 : S3x512.Idx → EReal) (ix2 2 j) = Cert.Spec.C mf)
    (hg : ∀ j, (V c main_v2 : S1x512.Idx → EReal) (ix2 0 j) = γ j) (j : Fin 512) :
    ((acc1 V c).1 : S1x512.Idx → EReal) (ix2 (0 : Fin 1) j) = Cert.Spec.cc x mf γ j := by
  unfold acc1
  rw [coef1_fst_apply]
  unfold aOf
  rw [iblk1_2_apply V c 0 j, iblk1_2_apply V c 1 j, iblk1_2_apply V c 2 j, iblk1_3_apply V c j,
    (hs j).1, (hs j).2.1, (hs j).2.2, hg j]
  rfl

/-- The second coefficient row at column `j` is the specification's `β - mean · a`. -/
theorem acc1_snd_apply
    (hs : ∀ j, (V c main_v4 : S3x512.Idx → EReal) (ix2 0 j) = Cert.Spec.S x mf j ∧ (V c main_v4 : S3x512.Idx → EReal) (ix2 1 j) = Cert.Spec.Q x mf j ∧ (V c main_v4 : S3x512.Idx → EReal) (ix2 2 j) = Cert.Spec.C mf)
    (hg : ∀ j, (V c main_v2 : S1x512.Idx → EReal) (ix2 0 j) = γ j)
    (hb : ∀ j, (V c main_v3 : S1x512.Idx → EReal) (ix2 0 j) = β j) (j : Fin 512) :
    ((acc1 V c).2 : S1x512.Idx → EReal) (ix2 (0 : Fin 1) j) = Cert.Spec.cb x mf γ β j := by
  unfold acc1
  rw [coef1_snd_apply]
  unfold aOf
  rw [iblk1_2_apply V c 0 j, iblk1_2_apply V c 1 j, iblk1_2_apply V c 2 j, iblk1_3_apply V c j, iblk1_4_apply V c j,
    (hs j).1, (hs j).2.1, (hs j).2.2, hg j, hb j]
  rfl

/-! ## What a grid point writes back -/

variable (dat : Pipeline.Dat τ (Elt Ideal) Unit ℕ (Pipeline.UD sig nD τ) ℕ cfg1 c)

/-- Point `t` writes back rows `1024·t … 1024·t + 1023` of the specification's result: the stored block at
    `(k, j)` is `x + (x · c₁ + c₂) · m` with `x`, `m` read at row `1024·t + k` and the two coefficients at
    column `j`, which is the specification's value at that row and column. -/
theorem flushed_eq
    (h5 : ∀ t : Fin cfg1.N, dat.after 5 t = out1 (iblk1 V c 0 t) (iblk1 V c 1 t) (acc1 V c))
    (hx : ∀ r j, (V c main_arg0 : S65536x512.Idx → EReal) (ix2 r j) = x r j)
    (hm : ∀ r, (V c main_v1 : S65536x1.Idx → EReal) (ix2 r 0) = mf r)
    (hs : ∀ j, (V c main_v4 : S3x512.Idx → EReal) (ix2 0 j) = Cert.Spec.S x mf j ∧ (V c main_v4 : S3x512.Idx → EReal) (ix2 1 j) = Cert.Spec.Q x mf j ∧ (V c main_v4 : S3x512.Idx → EReal) (ix2 2 j) = Cert.Spec.C mf)
    (hg : ∀ j, (V c main_v2 : S1x512.Idx → EReal) (ix2 0 j) = γ j)
    (hb : ∀ j, (V c main_v3 : S1x512.Idx → EReal) (ix2 0 j) = β j)
    (t : Fin cfg1.N) :
    dat.flushed 5 t = ((cfg1.win 5).blk t).view.read (Elt Ideal) (GArr x mf γ β) := by
  have hN : t.val < 64 := Nat.lt_of_lt_of_eq t.isLt N_1
  obtain ⟨-, -, -, -, e0, e1⟩ := idx_facts t
  show (cfg1.win 5).cut (grid1.coords t) (dat.after 5 t) = _
  rw [h5 t]
  funext y
  obtain ⟨k, j, rfl⟩ : ∃ (k : Fin 1024) (j : Fin 512), y = ix2 k j := ⟨y 0, y 1, eq_ix2 y⟩
  have hk : k.val < 1024 := k.isLt
  have hr : 1024 * t.val + k.val < 65536 := by omega
  rw [View.read_apply]
  show (out1 (iblk1 V c 0 t) (iblk1 V c 1 t) (acc1 V c) : S1024x512.Idx → EReal) (ix2 k j)
      = GArr x mf γ β (((cfg1.win 5).blk t).view.emb (ix2 k j))
  have he : ((cfg1.win 5).blk t).view.emb (ix2 k j) = (ix2 (⟨1024 * t.val + k.val, hr⟩ : Fin 65536) j : S65536x512.Idx) := by
    funext a; apply Fin.ext
    match a with
    | ⟨0, _⟩ => show win1_5.index t (0 : Fin 2) * 1024 + 1 * k.val = 1024 * t.val + k.val; rw [e0]; omega
    | ⟨1, _⟩ => show win1_5.index t (1 : Fin 2) * 512 + 1 * j.val = j.val; rw [e1]; omega
  rw [he, GArr_ix2]
  unfold out1
  rw [pay6_apply, iblk1_0_apply V c t k j hr, iblk1_1_apply V c t k hr,
    acc1_fst_apply V c x mf γ hs hg j, acc1_snd_apply V c x mf γ β hs hg hb j, hx, hm]
  rfl

/-! ## The blocks tile the array -/

/-- An index is in point `t`'s block iff each coordinate is in the block's range on its axis. -/
theorem mem_blk5 (t : Fin cfg1.N) (i : S65536x512.Idx) :
    i ∈ ((cfg1.win 5).blk t).view.set ↔ ∀ a : Fin 2, win1_5.index t a * S1024x512.size a ≤ (i a).val ∧ (i a).val < win1_5.index t a * S1024x512.size a + S1024x512.size a := by
  show i ∈ ((View.whole main_v5).slice (win1_5.rect t)).set ↔ _
  rw [View.set_slice_whole, Rect.mem_set_unit]
  exact Iff.rfl

/-- Row `r` is in the block of point `r / 1024`, and every point writes its block back. -/
theorem cover5 (i : S65536x512.Idx) :
    ∃ t : Fin cfg1.N, (cfg1.win 5).flush t = true ∧ i ∈ ((cfg1.win 5).blk t).view.set := by
  have hi0 : (i 0).val < 65536 := (i 0).isLt
  have hi1 : (i 1).val < 512 := (i 1).isLt
  have hq : (i 0).val / 1024 < cfg1.N := Nat.lt_of_lt_of_eq (by omega : (i 0).val / 1024 < 64) N_1.symm
  obtain ⟨-, -, -, -, e0, e1⟩ := idx_facts ⟨(i 0).val / 1024, hq⟩
  have e0' : win1_5.index ⟨(i 0).val / 1024, hq⟩ (0 : Fin 2) = (i 0).val / 1024 := e0
  refine ⟨⟨(i 0).val / 1024, hq⟩, flush1_5 _, ?_⟩
  rw [mem_blk5]
  intro a
  match a with
  | ⟨0, _⟩ =>
    show win1_5.index ⟨(i 0).val / 1024, hq⟩ (0 : Fin 2) * 1024 ≤ (i 0).val ∧ (i 0).val < win1_5.index ⟨(i 0).val / 1024, hq⟩ (0 : Fin 2) * 1024 + 1024
    rw [e0']; omega
  | ⟨1, _⟩ =>
    show win1_5.index ⟨(i 0).val / 1024, hq⟩ (1 : Fin 2) * 512 ≤ (i 1).val ∧ (i 1).val < win1_5.index ⟨(i 0).val / 1024, hq⟩ (1 : Fin 2) * 512 + 512
    rw [e1]; omega

end Result

/-! ## The array the region leaves -/

/-- The 65536×512 array after the last grid point is the specification's result, entry by entry. -/
theorem final_arr (c : Dev nD) (dat : Pipeline.Dat τ (Elt Ideal) Unit ℕ (Pipeline.UD sig nD τ) ℕ cfg1 c)
    (hA : ∀ w, dat.A w = V c (Pipeline.arrRef spec1 w))
    (h5 : ∀ t : Fin cfg1.N, dat.after 5 t = out1 (iblk1 V c 0 t) (iblk1 V c 1 t) (acc1 V c))
    (x : Fin 65536 → Fin 512 → EReal) (mf : Fin 65536 → EReal) (γ β : Fin 512 → EReal)
    (hx : ∀ r j, (V c main_arg0 : S65536x512.Idx → EReal) (ValueIdx.ix2 r j) = x r j)
    (hm : ∀ r, (V c main_v1 : S65536x1.Idx → EReal) (ValueIdx.ix2 r 0) = mf r)
    (hs : ∀ j, (V c main_v4 : S3x512.Idx → EReal) (ValueIdx.ix2 0 j) = Cert.Spec.S x mf j ∧ (V c main_v4 : S3x512.Idx → EReal) (ValueIdx.ix2 1 j) = Cert.Spec.Q x mf j ∧ (V c main_v4 : S3x512.Idx → EReal) (ValueIdx.ix2 2 j) = Cert.Spec.C mf)
    (hg : ∀ j, (V c main_v2 : S1x512.Idx → EReal) (ValueIdx.ix2 0 j) = γ j)
    (hb : ∀ j, (V c main_v3 : S1x512.Idx → EReal) (ValueIdx.ix2 0 j) = β j)
    (r : Fin 65536) (j : Fin 512) :
    (dat.arrAt 5 cfg1.N : S65536x512.Idx → EReal) (ValueIdx.ix2 r j) = Cert.Spec.G x mf γ β r j := by
  have h := dat.arrAt_eq_of_cover 5 (GArr x mf γ β)
    (fun t _ => flushed_eq V c x mf γ β dat h5 hx hm hs hg hb t) cover5
  exact (congrFun h (ValueIdx.ix2 r j)).trans (GArr_ix2 x mf γ β r j)

end Cert.KernelIdeal.Val1

end
-- ==== Proof.KI.KernelValue.lean ====
/-
  The idealized kernel's result array is `Cert.Spec.G` of the argument arrays.

  Region 1's write-backs tile the result with blocks that are `G` at their rows, once the arrays it
  reads are known: `x` and the mask column are as the host left them, `gamma` and `beta` are the
  host's rows, and the 3×512 array is what region 0's last write-back left — the masked column sums,
  sums of squares and count. No algebra is involved on this side: the specification is shaped like
  the kernel's arithmetic, and the sums over the 64 row blocks re-associate freely.
-/
import proofs.«103854_g2027224563999_cont_sun_m_333_3_alg».proof.Proof.KI.Entry
import proofs.«103854_g2027224563999_cont_sun_m_333_3_alg».proof.Proof.KI.Stats
import proofs.«103854_g2027224563999_cont_sun_m_333_3_alg».proof.Proof.KI.Final

noncomputable section

namespace Cert.KernelIdeal.Fr

open Idealize.ShloMosaic Idealize.ShloMosaic.TcCoe Idealize.SL.Sem
open Idealize.ShloMosaic.ValueIdx
open Idealize.ShloMosaic.Pipeline (Dat)
open Cert.KernelIdeal Cert.KernelIdeal.Gen

variable (m : (ℓ : Loc nD τ sig) → Buf (Elt Ideal) ℓ)
variable (dat0 : Cont Ideal → (c : Dev nD) → Dat τ (Elt Ideal) Unit ℕ (Pipeline.UD sig nD τ) ℕ cfg0 c)
  (dat1 : Cont Ideal → (c : Dev nD) → Dat τ (Elt Ideal) Unit ℕ (Pipeline.UD sig nD τ) ℕ cfg1 c)
variable (h0 : Half0 dat0) (h1 : Half1 dat1)

include h0 h1 in
/-- The result array after the run, at row `r` and column `j`, for any two region halves whose outputs are the
    running sums' rows and the affine map's blocks. -/
theorem kernel_value
    (h2 : ∀ (V : Cont Ideal) c (t : Fin cfg0.N), (dat0 V c).after 2 t = out0 (acc0 V c t.val t.isLt))
    (h5 : ∀ (V : Cont Ideal) c (t : Fin cfg1.N), (dat1 V c).after 5 t = out1 (iblk1 V c 0 t) (iblk1 V c 1 t) (acc1 V c))
    (c : Dev nD) (r : Fin 65536) (j : Fin 512) :
    (V3 m dat0 dat1 c main_v5 : S65536x512.Idx → EReal) (ix2 r j)
      = Cert.Spec.G (fun r j => (m ((c : Thread nD τ).loc main_arg0) : S65536x512.Idx → EReal) (ix2 r j))
          (fun r => uitofp (F := Ideal) .f32 (m ((c : Thread nD τ).loc main_arg1)) (ix1 r))
          (fun j => (m ((c : Thread nD τ).loc main_arg2) : S512.Idx → EReal) (ix1 j))
          (fun j => (m ((c : Thread nD τ).loc main_arg3) : S512.Idx → EReal) (ix1 j)) r j := by
  rw [V3_main_v5]
  refine Cert.KernelIdeal.Val1.final_arr (V2 m dat0) c (dat1 (V2 m dat0) c) (h1.hA _ c) (h5 _ c) _ _ _ _ ?_ ?_ ?_ ?_ ?_ r j
  · intro r j; rw [V2_main_arg0 m dat0 h0 c, V1_main_arg0]
  · intro r; rw [V2_main_v1 m dat0 h0 c]; exact V1_main_v1_apply m c r
  · intro j; rw [V2_main_v4 m dat0 c]
    exact Cert.KernelIdeal.Val.stats_arr (V1 m) c (dat0 (V1 m) c) (h0.hA _ c) (h2 _ c) _ _
      (fun r j => by rw [V1_main_arg0]) (fun r => V1_main_v1_apply m c r) j
  · intro j; rw [V2_main_v2 m dat0 c]; exact V1_main_v2_apply m c j
  · intro j; rw [V2_main_v3 m dat0 c]; exact V1_main_v3_apply m c j

end Cert.KernelIdeal.Fr

end
-- ==== Proof.Ref.RefRead.lean ====
/-
  The reference's result, read at one index.

  The reference computes, per column `j`: the mask as a number `m`, the count `∑ m`, the mean
  `(∑ x·m) / count`, the variance as the masked mean of the squared deviations from that mean, the
  normalised value `(x - mean) · rsqrt (var + ε) · γ + β`, and last a select on the row's mask bit
  between the normalised value and `x`. Each stage below is one of the reference's arrays at an index
  built from coordinates; a broadcast reads its operand at the index with the broadcast axis dropped
  or set to 0, and a sum over the rows starts from the zero word, which is `0`.
-/
import proofs.«103854_g2027224563999_cont_sun_m_333_3_alg».proof.Proof.Gen.ReferenceIdeal.Read
import proofs.«103854_g2027224563999_cont_sun_m_333_3_alg».proof.Proof.Spec
import Idealize.ShloMosaic.Lib.ValueIdx

noncomputable section

namespace Cert.RefSide

open Idealize.ShloMosaic Idealize.ShloMosaic.TcCoe Idealize.SL.Sem Idealize.ShloMosaic.ValueIdx
open Cert.ReferenceIdeal Cert.ReferenceIdeal.Read
open scoped BigOperators

/-- The input by row and column. -/
abbrev colX (x : (⟨S65536x512, .f32⟩ : BufTy).Contents (Elt Ideal)) : Fin 65536 → Fin 512 → EReal :=
  fun r j => x (ix2 r j)

/-- The mask as a number, by row. -/
abbrev maskF (mk : (⟨S65536, .i1⟩ : BufTy).Contents (Elt Ideal)) : Fin 65536 → EReal :=
  fun r => uitofp (F := Ideal) .f32 mk (ix1 r)

/-- The reference's variance of column `j`: the masked mean of the squared deviations from the mean. -/
def devVar (x : (⟨S65536x512, .f32⟩ : BufTy).Contents (Elt Ideal)) (mk : (⟨S65536, .i1⟩ : BufTy).Contents (Elt Ideal))
    (j : Fin 512) : EReal :=
  Ideal.div (∑ k : Fin 65536, ((x (ix2 k j) - Cert.Spec.mean (colX x) (maskF mk) j)
      * (x (ix2 k j) - Cert.Spec.mean (colX x) (maskF mk) j)) * maskF mk k) (Cert.Spec.C (maskF mk))

/-! ## Sums over a rank-1 index set -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The mask and the count -/

variable (x : (⟨S65536x512, .f32⟩ : BufTy).Contents (Elt Ideal)) (mk : (⟨S65536, .i1⟩ : BufTy).Contents (Elt Ideal))
  (γ β : (⟨S512, .f32⟩ : BufTy).Contents (Elt Ideal))

/-- The mask column as a number, at row `k`. -/
theorem mask_col_at (k : Fin 65536) (a : Fin 1) : val_main_v1 (F := Ideal) mk (ix2 k a) = maskF mk k := by
  have h0 : idx_main_v0 (ix2 k a) = ix1 k := by funext d; match d with | ⟨0, _⟩ => rfl
  rw [val_main_v1_apply, val_main_v0_apply, h0]
  rfl

/-- The mask broadcast along the columns (for the column sums) reads the row's number. -/
theorem v4_at (k : Fin 65536) (j : Fin 512) : val_main_v4 (F := Ideal) mk (ix2 k j) = maskF mk k := by
  have h : idx_main_v4 (ix2 k j) = ix2 k (0 : Fin 1) := by
    funext d; match d with | ⟨0, _⟩ => rfl | ⟨1, _⟩ => rfl
  rw [val_main_v4_apply, h, mask_col_at]

/-- The same broadcast, as the variance's sum uses it. -/
theorem v13_at (k : Fin 65536) (j : Fin 512) : val_main_v13 (F := Ideal) mk (ix2 k j) = maskF mk k := by
  have h : idx_main_v13 (ix2 k j) = ix2 k (0 : Fin 1) := by
    funext d; match d with | ⟨0, _⟩ => rfl | ⟨1, _⟩ => rfl
  rw [val_main_v13_apply, h, mask_col_at]

/-- The count: the sum of the mask's numbers from zero. -/
theorem count_eq (i : S_.Idx) : val_main_v3 (F := Ideal) mk i = Cert.Spec.C (maskF mk) := by
  rw [val_main_v3_apply, val_main_cst_apply, Ideal.ofBits_def, Ideal.ofBits_zero_f32, zero_add, sum_idx1]
  rfl

/-! ## The mean -/

/-- The masked column sum. -/
theorem sum_eq (j : Fin 512) : val_main_v6 (F := Ideal) x mk (ix1 j) = Cert.Spec.S (colX x) (maskF mk) j := by
  rw [val_main_v6_apply, val_main_cst_0_apply, Ideal.ofBits_def, Ideal.ofBits_zero_f32, zero_add]
  refine Finset.sum_congr rfl fun k _ => ?_
  have h : idx_main_v6 (ix1 j) k = ix2 k j := by
    funext d; match d with | ⟨0, _⟩ => rfl | ⟨1, _⟩ => rfl
  rw [h, val_main_v5_apply, v4_at]
  rfl

/-- The mean of column `j`. -/
theorem mean_eq (j : Fin 512) : val_main_v8 (F := Ideal) x mk (ix1 j) = Cert.Spec.mean (colX x) (maskF mk) j := by
  rw [val_main_v8_apply, val_main_v7_apply, sum_eq, count_eq]
  rfl

/-- The mean broadcast over the rows, as the deviations use it. -/
theorem v10_at (r : Fin 65536) (j : Fin 512) :
    val_main_v10 (F := Ideal) x mk (ix2 r j) = Cert.Spec.mean (colX x) (maskF mk) j := by
  have h : idx_main_v10 (ix2 r j) = ix2 (0 : Fin 1) j := by
    funext d; match d with | ⟨0, _⟩ => rfl | ⟨1, _⟩ => rfl
  have h' : idx_main_v9 (ix2 (0 : Fin 1) j) = ix1 j := by funext d; match d with | ⟨0, _⟩ => rfl
  rw [val_main_v10_apply, h, val_main_v9_apply, h', mean_eq]

/-- The same broadcast, as the normalised value uses it. -/
theorem v19_at (r : Fin 65536) (j : Fin 512) :
    val_main_v19 (F := Ideal) x mk (ix2 r j) = Cert.Spec.mean (colX x) (maskF mk) j := by
  have h : idx_main_v19 (ix2 r j) = ix2 (0 : Fin 1) j := by
    funext d; match d with | ⟨0, _⟩ => rfl | ⟨1, _⟩ => rfl
  have h' : idx_main_v18 (ix2 (0 : Fin 1) j) = ix1 j := by funext d; match d with | ⟨0, _⟩ => rfl
  rw [val_main_v19_apply, h, val_main_v18_apply, h', mean_eq]

/-! ## The variance -/

/-- The variance of column `j`. -/
theorem var_eq (j : Fin 512) : val_main_v17 (F := Ideal) x mk (ix1 j) = devVar x mk j := by
  rw [val_main_v17_apply, val_main_v16_apply, count_eq, val_main_v15_apply, val_main_cst_1_apply, Ideal.ofBits_def,
    Ideal.ofBits_zero_f32, zero_add]
  have hsum : (∑ k : Fin 65536, val_main_v14 (F := Ideal) x mk (idx_main_v15 (ix1 j) k))
      = ∑ k : Fin 65536, ((x (ix2 k j) - Cert.Spec.mean (colX x) (maskF mk) j)
          * (x (ix2 k j) - Cert.Spec.mean (colX x) (maskF mk) j)) * maskF mk k := by
    refine Finset.sum_congr rfl fun k _ => ?_
    have h : idx_main_v15 (ix1 j) k = ix2 k j := by
      funext d; match d with | ⟨0, _⟩ => rfl | ⟨1, _⟩ => rfl
    rw [h, val_main_v14_apply, val_main_v12_apply, val_main_v11_apply, v10_at, v13_at, Ideal.mulf_def, Ideal.mulf_def,
      Ideal.subf_def]
  rw [hsum, Ideal.hostDivf_def, devVar]

/-! ## The result -/

/-- The reference's result at row `r`, column `j`. -/
theorem ref_read (r : Fin 65536) (j : Fin 512) :
    val_main_v34 (F := Ideal) x mk γ β (ix2 r j)
      = Scalar.select (mk (ix1 r))
          (((x (ix2 r j) - Cert.Spec.mean (colX x) (maskF mk) j) * Ideal.rsqrt (devVar x mk j + Cert.Spec.eps))
            * γ (ix1 j) + β (ix1 j))
          (x (ix2 r j)) := by
  have hc : idx_main_call0_v0 (ix2 r j) = ix2 r (0 : Fin 1) := by
    funext d; match d with | ⟨0, _⟩ => rfl | ⟨1, _⟩ => rfl
  have h33 : idx_main_v33 (ix2 r (0 : Fin 1)) = ix1 r := by funext d; match d with | ⟨0, _⟩ => rfl
  have h25 : idx_main_v25 (ix2 r j) = ix2 (0 : Fin 1) j := by
    funext d; match d with | ⟨0, _⟩ => rfl | ⟨1, _⟩ => rfl
  have h24 : idx_main_v24 (ix2 (0 : Fin 1) j) = ix1 j := by funext d; match d with | ⟨0, _⟩ => rfl
  have h28 : idx_main_v28 (ix2 r j) = ix2 (0 : Fin 1) j := by
    funext d; match d with | ⟨0, _⟩ => rfl | ⟨1, _⟩ => rfl
  have h27 : idx_main_v27 (ix2 (0 : Fin 1) j) = ix1 j := by funext d; match d with | ⟨0, _⟩ => rfl
  have h31 : idx_main_v31 (ix2 r j) = ix2 (0 : Fin 1) j := by
    funext d; match d with | ⟨0, _⟩ => rfl | ⟨1, _⟩ => rfl
  have h30 : idx_main_v30 (ix2 (0 : Fin 1) j) = ix1 j := by funext d; match d with | ⟨0, _⟩ => rfl
  have h21 : val_main_v21 (F := Ideal) (ix1 j) = Cert.Spec.eps := by
    rw [val_main_v21_apply, val_main_cst_2_apply]
    rfl
  rw [val_main_v34_apply, val_main_call0_v0_apply, hc, val_main_v33_apply, h33, val_main_v32_apply,
    val_main_v29_apply, val_main_v26_apply, val_main_v20_apply, v19_at, val_main_v25_apply, h25,
    val_main_v24_apply, h24, val_main_v23_apply, val_main_v22_apply, var_eq, h21, val_main_v28_apply, h28,
    val_main_v27_apply, h27, val_main_v31_apply, h31, val_main_v30_apply, h30, Ideal.addf_def, Ideal.mulf_def,
    Ideal.mulf_def, Ideal.subf_def, Ideal.hostUnary_rsqrt_def, Ideal.addf_def]

end Cert.RefSide

end
-- ==== Proof.Ref.Algebra.lean ====
/-
  The masked normalisation's law, away from any program.

  Over a finite index set: a column `X`, a mask `M` with values 0 or 1, the count `cnt M = ∑ M`,
  the mean `(∑ X·M) / cnt`, and the variance written two ways — `varR`, the masked mean of the
  squared deviations, and `varK`, the masked mean of the squares minus the squared mean. On the
  extended reals neither distributivity nor cancellation holds at the infinities, so everything is
  carried to the reals first: for finite data and at least one masked row all of these are reals,
  the two variances are one real, that real plus a positive guard is positive, its reciprocal root
  is a real, and the affine forms `(x - μ)·ρ·g + b` and `x + (x·(ρ·g - 1) + (b - μ·(ρ·g)))·1` agree
  by the ring laws.
-/
import Idealize.ShloMosaic.PureOps.Ideal

noncomputable section

namespace Cert.RefSide

open Idealize.ShloMosaic
open scoped BigOperators

variable {ι : Type*} [Fintype ι]

/-! ## The real-number law -/

/-- The masked mean of the squared deviations is the masked mean of the squares minus the squared
    mean: expand the square, and use `∑ x·m = μ·c`. -/
theorem var_law_real (x m : ι → ℝ) (c : ℝ) (hc : c ≠ 0) (hcm : ∑ k, m k = c) :
    (∑ k, ((x k - (∑ i, x i * m i) / c) * (x k - (∑ i, x i * m i) / c)) * m k) / c
      = (∑ k, (x k * m k) * x k) / c - ((∑ i, x i * m i) / c) * ((∑ i, x i * m i) / c) := by
  generalize hμ : (∑ i, x i * m i) / c = μ
  have hs : ∑ i, x i * m i = μ * c := by rw [← hμ]; field_simp
  have h1 : ∑ k, ((x k - μ) * (x k - μ)) * m k
      = (∑ k, (x k * m k) * x k) - 2 * μ * (∑ k, x k * m k) + μ * μ * ∑ k, m k := by
    rw [Finset.mul_sum, Finset.mul_sum, ← Finset.sum_sub_distrib, ← Finset.sum_add_distrib]
    exact Finset.sum_congr rfl fun k _ => by ring
  rw [h1, hcm, hs]
  field_simp
  ring

/-- A masked sum of squares over a positive count is not negative. -/
theorem var_nonneg_real (x m : ι → ℝ) (μ c : ℝ) (hm : ∀ k, 0 ≤ m k) (hc : 0 < c) :
    0 ≤ (∑ k, ((x k - μ) * (x k - μ)) * m k) / c :=
  div_nonneg (Finset.sum_nonneg fun k _ => mul_nonneg (mul_self_nonneg _) (hm k)) hc.le

/-- The two affine forms of the normalised value. -/
theorem affine_real (x μ ρ g b : ℝ) : (x - μ) * ρ * g + b = x + (x * (ρ * g - 1) + (b - μ * (ρ * g))) * 1 := by
  ring

/-! ## Reals inside the extended reals -/

/-- The coercion commutes with a finite sum. -/
theorem coe_sum (f : ι → ℝ) : ∑ k, ((f k : ℝ) : EReal) = ((∑ k, f k : ℝ) : EReal) := by
  classical
  refine Finset.induction_on (Finset.univ : Finset ι) (by simp) fun a s ha ih => ?_
  rw [Finset.sum_insert ha, Finset.sum_insert ha, ih, EReal.coe_add]

/-- The quotient by a nonzero real is the real quotient. -/
theorem div_real (s c : ℝ) (hc : c ≠ 0) : Ideal.div (s : EReal) (c : EReal) = ((s / c : ℝ) : EReal) := by
  rw [Ideal.div_coe hc, ← EReal.coe_mul, mul_one_div]

/-- The reciprocal root of a positive real is a real. -/
theorem rsqrt_real (v : ℝ) (hv : 0 < v) : Ideal.rsqrt (v : EReal) = (((Real.sqrt v)⁻¹ : ℝ) : EReal) := by
  rw [Ideal.rsqrt_coe, if_neg (not_lt.2 hv.le), if_neg hv.ne']

/-! ## The law on the extended reals -/

/-- The number of masked rows. -/
def cnt (M : ι → EReal) : EReal := ∑ k, M k

/-- The masked mean of a column. -/
def mean (X M : ι → EReal) : EReal := Ideal.div (∑ k, X k * M k) (cnt M)

/-- The variance as the masked mean of the squares minus the squared mean. -/
def varK (X M : ι → EReal) : EReal := Ideal.div (∑ k, (X k * M k) * X k) (cnt M) - mean X M * mean X M

/-- The variance as the masked mean of the squared deviations. -/
def varR (X M : ι → EReal) : EReal :=
  Ideal.div (∑ k, ((X k - mean X M) * (X k - mean X M)) * M k) (cnt M)

/-- For a finite column, a 0/1 mask with the row `k0` masked in, a positive guard `E` and finite scale and
    shift, the normalised value through `varR` is the affine form through `varK`. -/
theorem norm_law (X M : ι → EReal) (hX : ∀ k, ∃ r : ℝ, X k = (r : EReal)) (hM : ∀ k, M k = 0 ∨ M k = 1)
    (E G B One : EReal) (hE : ∃ e : ℝ, 0 < e ∧ E = (e : EReal)) (hG : ∃ g : ℝ, G = (g : EReal))
    (hB : ∃ b : ℝ, B = (b : EReal)) (hOne : One = 1) (k0 : ι) (hk0 : M k0 = 1) :
    (X k0 - mean X M) * Ideal.rsqrt (varR X M + E) * G + B
      = X k0 + (X k0 * (Ideal.rsqrt (varK X M + E) * G - One)
          + (B - mean X M * (Ideal.rsqrt (varK X M + E) * G))) * M k0 := by
  classical
  -- real witnesses
  choose xr hxr using hX
  have hM' : ∀ k, ∃ r : ℝ, 0 ≤ r ∧ M k = (r : EReal) := fun k => by
    rcases hM k with h | h
    · exact ⟨0, le_rfl, by rw [h, EReal.coe_zero]⟩
    · exact ⟨1, zero_le_one, by rw [h, EReal.coe_one]⟩
  choose mr hmr0 hmr using hM'
  obtain ⟨e, he, rfl⟩ := hE
  obtain ⟨g, rfl⟩ := hG
  obtain ⟨b, rfl⟩ := hB
  obtain rfl : X = fun k => (xr k : EReal) := funext hxr
  obtain rfl : M = fun k => (mr k : EReal) := funext hmr
  subst hOne
  -- the count is a positive real
  have hmk0 : mr k0 = 1 := EReal.coe_eq_one.1 hk0
  have hc : 0 < ∑ k, mr k :=
    lt_of_lt_of_le (by rw [hmk0]; exact zero_lt_one)
      (Finset.single_le_sum (fun k _ => hmr0 k) (Finset.mem_univ k0))
  -- every stage is a real
  have hcnt : cnt (fun k => (mr k : EReal)) = ((∑ k, mr k : ℝ) : EReal) := coe_sum mr
  have hmean : mean (fun k => (xr k : EReal)) (fun k => (mr k : EReal))
      = (((∑ k, xr k * mr k) / (∑ k, mr k) : ℝ) : EReal) := by
    rw [mean, hcnt]
    simp only [← EReal.coe_mul]
    rw [coe_sum, div_real _ _ hc.ne']
  have hvarK : varK (fun k => (xr k : EReal)) (fun k => (mr k : EReal))
      = (((∑ k, (xr k * mr k) * xr k) / (∑ k, mr k)
          - ((∑ k, xr k * mr k) / (∑ k, mr k)) * ((∑ k, xr k * mr k) / (∑ k, mr k)) : ℝ) : EReal) := by
    rw [varK, hmean, hcnt]
    simp only [← EReal.coe_mul]
    rw [coe_sum, div_real _ _ hc.ne', ← EReal.coe_sub]
  have hvarR : varR (fun k => (xr k : EReal)) (fun k => (mr k : EReal))
      = (((∑ k, ((xr k - (∑ i, xr i * mr i) / (∑ i, mr i)) * (xr k - (∑ i, xr i * mr i) / (∑ i, mr i))) * mr k)
          / (∑ k, mr k) : ℝ) : EReal) := by
    rw [varR, hmean, hcnt]
    simp only [← EReal.coe_sub, ← EReal.coe_mul]
    rw [coe_sum, div_real _ _ hc.ne']
  -- the two variances are one real, not negative
  have hv := var_law_real xr mr (∑ k, mr k) hc.ne' rfl
  have hv0 := var_nonneg_real xr mr ((∑ i, xr i * mr i) / (∑ i, mr i)) (∑ k, mr k) hmr0 hc
  rw [hvarR, hvarK, hmean, ← hv, ← EReal.coe_add, rsqrt_real _ (by linarith), hk0, ← EReal.coe_one]
  simp only [← EReal.coe_sub, ← EReal.coe_mul, ← EReal.coe_add]
  rw [EReal.coe_eq_coe_iff]
  exact affine_real _ _ _ _ _

end Cert.RefSide

end
-- ==== Proof.Ref.Finite.lean ====
/-
  Finiteness out of the precondition.

  The precondition is the conjunction of three "every element has magnitude below +∞" tests, one per
  float argument, each an `and`-reduction of elementwise comparisons against the infinity word. On the
  extended reals the magnitude `max a (-a)` is below `⊤` exactly when `a` is neither infinity, that
  is, when `a` is a real.
-/
import proofs.«103854_g2027224563999_cont_sun_m_333_3_alg».proof.Proof.Gen.ReferenceIdeal
import proofs.«103854_g2027224563999_cont_sun_m_333_3_alg».proof.Proof.Gen.Pre_finite_inputs
import Idealize.ShloMosaic.Lib.ReduceAll
import Idealize.ShloMosaic.Lib.ValueIdx
import Idealize.ShloMosaic.PureOps.Ideal.Laws

noncomputable section

namespace Cert.RefSide

open Idealize.ShloMosaic Idealize.ShloMosaic.TcCoe Idealize.SL.Sem
open Cert.ReferenceIdeal

/-- An extended real whose magnitude compares below the infinity word is a real. -/
theorem real_of_abs_lt_inf (a : EReal)
    (h : FloatOps.cmpf (F := Ideal) (φ := .f32) .olt (FloatOps.hostAbsf a) (FloatOps.ofBits .f32 0x7F800000#32) = 1#1) :
    ∃ r : ℝ, a = (r : EReal) := by
  have htop : Ideal.ofBits .f32 0x7F800000#32 = ⊤ := by simp [Ideal.ofBits, Ideal.ieee]
  rw [Ideal.hostAbsf_def, Ideal.absf_def, Ideal.cmpf_def, Ideal.ofBits_def, htop] at h
  induction a using EReal.rec with
  | bot => simp [Ideal.cmp] at h
  | coe r => exact ⟨r, rfl⟩
  | top => simp [Ideal.cmp] at h

/-- The scalar shape has one index. -/
instance : Subsingleton Cert.Pre_finite_inputs.S_.Idx := ⟨fun _ _ => funext fun d => d.elim0⟩

/-- Under the precondition every element of the three float arguments is a real. -/
theorem finite_of_pre (x : (⟨S65536x512, .f32⟩ : BufTy).Contents (Elt Ideal)) (mk : (⟨S65536, .i1⟩ : BufTy).Contents (Elt Ideal))
    (γ β : (⟨S512, .f32⟩ : BufTy).Contents (Elt Ideal))
    (h : Cert.Pre_finite_inputs.fn (F := Ideal) x mk γ β = fun _ => 1#1) :
    (∀ i, ∃ r : ℝ, x i = (r : EReal)) ∧ (∀ i, ∃ r : ℝ, γ i = (r : EReal)) ∧ (∀ i, ∃ r : ℝ, β i = (r : EReal)) := by
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  refine ⟨fun i => ?_, fun i => ?_, fun i => ?_⟩
  · exact real_of_abs_lt_inf _ (Host.reduce_andi_all _ _ _ _ _ h1 i)
  · exact real_of_abs_lt_inf _ (Host.reduce_andi_all _ _ _ _ _ h2 i)
  · exact real_of_abs_lt_inf _ (Host.reduce_andi_all _ _ _ _ _ h3 i)

end Cert.RefSide

end
-- ==== Proof.Ref.RefValue.lean ====
/-
  The reference's result is the specified function, for finite inputs.

  At a row whose mask bit is 0 the reference selects `x` itself, and the specified value is
  `x + (…) · 0 = x`. At a row whose mask bit is 1 the reference selects the normalised value through the
  variance as a mean of squared deviations, the specified value is the affine form through the variance as
  a mean of squares minus the squared mean with the mask's number `1` as last factor, and the two agree by
  the law on the extended reals for a finite column, a 0/1 mask with that row in, the positive guard, and
  finite scale and shift.
-/
import proofs.«103854_g2027224563999_cont_sun_m_333_3_alg».proof.Proof.Ref.RefRead
import proofs.«103854_g2027224563999_cont_sun_m_333_3_alg».proof.Proof.Ref.Algebra
import proofs.«103854_g2027224563999_cont_sun_m_333_3_alg».proof.Proof.Ref.Finite

noncomputable section

namespace Cert.RefSide

open Idealize.ShloMosaic Idealize.ShloMosaic.TcCoe Idealize.SL.Sem Idealize.ShloMosaic.ValueIdx
open Cert.ReferenceIdeal Cert.ReferenceIdeal.Read
open scoped BigOperators

/-! ## The two float literals -/

/-- The guard's word denotes a positive real. -/
theorem eps_pos : ∃ e : ℝ, 0 < e ∧ Cert.Spec.eps = (e : EReal) := by
  refine ⟨((2 ^ 23 + 2606508 : ℕ) : ℝ) * (2 : ℝ) ^ ((110 : ℤ) - 127 - 23), by positivity, ?_⟩
  simp [Cert.Spec.eps, Ideal.ofBits, Ideal.ieee]

/-- The word of `1.0` denotes `1`. -/
theorem one_eq : Cert.Spec.one = 1 := by
  simp [Cert.Spec.one, Ideal.ofBits, Ideal.ieee, -EReal.coe_mul]
  norm_num

/-! ## The mask bit as a number -/

/-- The bit 0 is the number 0. -/
theorem num_zero (b : BitVec 1) (h : b = 0#1) : (FloatOps.uitofp (F := Ideal) .f32 b : EReal) = 0 := by
  subst h
  show (((0#1 : BitVec 1).toNat : ℝ) : EReal) = 0
  simp

/-- The bit 1 is the number 1. -/
theorem num_one (b : BitVec 1) (h : b = 1#1) : (FloatOps.uitofp (F := Ideal) .f32 b : EReal) = 1 := by
  subst h
  show (((1#1 : BitVec 1).toNat : ℝ) : EReal) = 1
  simp

/-- The mask's numbers are 0 or 1. -/
theorem maskF_zero_or_one (mk : (⟨S65536, .i1⟩ : BufTy).Contents (Elt Ideal)) (k : Fin 65536) :
    maskF mk k = 0 ∨ maskF mk k = 1 := by
  rcases BitVec.eq_zero_or_eq_one (mk (ix1 k)) with h | h
  · exact Or.inl (num_zero _ h)
  · exact Or.inr (num_one _ h)

/-! ## The specified stages as the abstract ones over the rows -/

variable (x : (⟨S65536x512, .f32⟩ : BufTy).Contents (Elt Ideal)) (mk : (⟨S65536, .i1⟩ : BufTy).Contents (Elt Ideal))
  (γ β : (⟨S512, .f32⟩ : BufTy).Contents (Elt Ideal))

theorem mean_bridge (j : Fin 512) :
    mean (fun k => x (ix2 k j)) (maskF mk) = Cert.Spec.mean (colX x) (maskF mk) j := rfl

theorem varR_bridge (j : Fin 512) : varR (fun k => x (ix2 k j)) (maskF mk) = devVar x mk j := rfl

theorem varK_bridge (j : Fin 512) :
    varK (fun k => x (ix2 k j)) (maskF mk) = Cert.Spec.var (colX x) (maskF mk) j := rfl

/-! ## The exported theorem -/

/-- The reference's result at row `r`, column `j` is the specified value, for finite inputs. -/
theorem ref_value (hx : ∀ i, ∃ r : ℝ, x i = (r : EReal)) (hγ : ∀ i, ∃ r : ℝ, γ i = (r : EReal))
    (hβ : ∀ i, ∃ r : ℝ, β i = (r : EReal)) (r : Fin 65536) (j : Fin 512) :
    Cert.ReferenceIdeal.Read.val_main_v34 (F := Ideal) x mk γ β (ix2 r j)
      = Cert.Spec.G (fun r j => x (ix2 r j)) (fun r => uitofp (F := Ideal) .f32 mk (ix1 r))
          (fun j => γ (ix1 j)) (fun j => β (ix1 j)) r j := by
  rw [ref_read]
  show _ = x (ix2 r j) + (x (ix2 r j) * Cert.Spec.cc (colX x) (maskF mk) (fun j => γ (ix1 j)) j
      + Cert.Spec.cb (colX x) (maskF mk) (fun j => γ (ix1 j)) (fun j => β (ix1 j)) j) * maskF mk r
  rcases BitVec.eq_zero_or_eq_one (mk (ix1 r)) with h0 | h1
  · -- the row is masked out: the select answers `x`, and the correction is multiplied by 0
    have hm : maskF mk r = 0 := num_zero _ h0
    rw [h0, select_zero, hm, mul_zero, add_zero]
  · -- the row is masked in: the law on the extended reals
    have hm : maskF mk r = 1 := num_one _ h1
    have law := norm_law (fun k => x (ix2 k j)) (maskF mk) (fun k => hx _) (maskF_zero_or_one mk)
      Cert.Spec.eps (γ (ix1 j)) (β (ix1 j)) Cert.Spec.one eps_pos (hγ _) (hβ _) one_eq r hm
    rw [mean_bridge, varR_bridge, varK_bridge] at law
    rw [h1, select_one]
    exact law

end Cert.RefSide

end
-- ==== Proof.lean ====
/-
  Masked batch normalisation, two ways: the kernel's two passes over the rows (running column sums,
  then one affine map per column) against the reference's direct formula.

  On the extended reals both compute, at row `r` and column `j`,
      x + (x · (a − 1) + (β − μ · a)) · m        with  μ = S / C,  a = rsqrt (Q / C − μ² + ε) · γ,
  where `m` is the mask as a number and `S`, `Q`, `C` are the masked column sum, sum of squares and
  count (`Cert.Spec.G`).
  * The kernel side is layout only: the first region accumulates `S`, `Q`, `C` block by block in
    scratch (64 blocks of 1024 rows, from zero) and writes them out at the last block; the second
    region forms the two coefficient rows at its first block and applies the map to every block.
    Sums re-associate freely on the extended reals, so no hypothesis is used.
  * The reference computes the variance as the masked mean of `(x − μ)²` and selects `x` where the
    mask is off. Where the mask is off both sides are `x` (the kernel multiplies by `0`). Where it is
    on, the count is at least one, every quantity is a real number because the inputs are finite,
    and `Σ m (x − μ)² / C = Q / C − μ²`; the two square-root arguments are the same positive real
    and the rest is a ring identity. This is where the precondition is used.
  * Each kernel program's frame (it terminates, faults nowhere, leaves its arguments alone) is the run
    over the host's layout operations and the two regions, each region keeping its scratch between
    grid points at named contents; the word-level program's is the same argument. The reference's
    frame is its run with the result dropped. Nothing was rewritten by the idealisation, so
    `preserves` has nothing to state.
-/
import proofs.«103854_g2027224563999_cont_sun_m_333_3_alg».proof.Defs
import proofs.«103854_g2027224563999_cont_sun_m_333_3_alg».proof.Proof.Gen.Kernel
import proofs.«103854_g2027224563999_cont_sun_m_333_3_alg».proof.Proof.Gen.KernelIdeal
import proofs.«103854_g2027224563999_cont_sun_m_333_3_alg».proof.Proof.Gen.ReferenceIdeal
import proofs.«103854_g2027224563999_cont_sun_m_333_3_alg».proof.Proof.Gen.Pre_finite_inputs
import proofs.«103854_g2027224563999_cont_sun_m_333_3_alg».proof.Proof.Gen.ReferenceIdeal.Run
import proofs.«103854_g2027224563999_cont_sun_m_333_3_alg».proof.Proof.Gen.ReferenceIdeal.Read
import proofs.«103854_g2027224563999_cont_sun_m_333_3_alg».proof.Proof.K.R0Frame
import proofs.«103854_g2027224563999_cont_sun_m_333_3_alg».proof.Proof.K.R1Frame
import proofs.«103854_g2027224563999_cont_sun_m_333_3_alg».proof.Proof.K.Run
import proofs.«103854_g2027224563999_cont_sun_m_333_3_alg».proof.Proof.KI.R0Frame
import proofs.«103854_g2027224563999_cont_sun_m_333_3_alg».proof.Proof.KI.R1Frame
import proofs.«103854_g2027224563999_cont_sun_m_333_3_alg».proof.Proof.KI.KernelValue
import proofs.«103854_g2027224563999_cont_sun_m_333_3_alg».proof.Proof.Ref.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-! ## The region halves, at both instances -/

theorem k_half0 : Cert.Kernel.Fr.Half0 (F := Bits) (fun V c => Cert.Kernel.Fr.dat0 V c) :=
  ⟨Cert.Kernel.Fr.A_eq0, fun _ _ _ => rfl, fun _ _ _ => rfl, fun _ _ _ => rfl,
    Cert.Kernel.Fr.body_obligation0, Cert.Kernel.Fr.hin0, Cert.Kernel.Fr.hout0⟩
theorem k_half1 : Cert.Kernel.Fr.Half1 (F := Bits) (fun V c => Cert.Kernel.Fr.dat1 V c) :=
  ⟨Cert.Kernel.Fr.A_eq1, fun _ _ _ => rfl, fun _ _ _ => rfl, fun _ _ _ => rfl,
    Cert.Kernel.Fr.body_obligation1, Cert.Kernel.Fr.hin1, Cert.Kernel.Fr.hout1⟩
theorem ki_half0 : Cert.KernelIdeal.Fr.Half0 (F := Ideal) (fun V c => Cert.KernelIdeal.Fr.dat0 V c) :=
  ⟨Cert.KernelIdeal.Fr.A_eq0, fun _ _ _ => rfl, fun _ _ _ => rfl, fun _ _ _ => rfl,
    Cert.KernelIdeal.Fr.body_obligation0, Cert.KernelIdeal.Fr.hin0, Cert.KernelIdeal.Fr.hout0⟩
theorem ki_half1 : Cert.KernelIdeal.Fr.Half1 (F := Ideal) (fun V c => Cert.KernelIdeal.Fr.dat1 V c) :=
  ⟨Cert.KernelIdeal.Fr.A_eq1, fun _ _ _ => rfl, fun _ _ _ => rfl, fun _ _ _ => rfl,
    Cert.KernelIdeal.Fr.body_obligation1, Cert.KernelIdeal.Fr.hin1, Cert.KernelIdeal.Fr.hout1⟩

/-! ## The claims -/

/-- The word-level kernel runs to the end and leaves its arguments alone: the run over its pieces, the result dropped. -/
theorem frame_k : Cert.frame_Kernel := fun m ρ _ =>
  (θ_run (Cert.Kernel.defs (F := Bits)) _ _).mono (fun _ h c => (h c).2) (Cert.Kernel.Fr.run_named m ρ _ _ k_half0 k_half1)

/-- The same of the idealized kernel. -/
theorem frame_ki : Cert.frame_KernelIdeal := fun m ρ _ =>
  (θ_run (Cert.KernelIdeal.defs (F := Ideal)) _ _).mono (fun _ h c => (h c).2) (Cert.KernelIdeal.Fr.run_named m ρ _ _ ki_half0 ki_half1)

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same array: the kernel's is `Cert.Spec.G` of the
    arguments index by index (layout only), and so is the reference's for finite inputs (the variance identity). -/
theorem algebraic : Cert.algebraic_KernelIdeal_ReferenceIdeal := by
  intro m ρ m' ρ' hpre hagree
  refine ⟨fun c => Cert.KernelIdeal.Fr.V3 m (fun V c => Cert.KernelIdeal.Fr.dat0 V c) (fun V c => Cert.KernelIdeal.Fr.dat1 V c) c Cert.KernelIdeal.main_v5,
    Cert.KernelIdeal.Fr.run_named m ρ _ _ ki_half0 ki_half1, ?_⟩
  refine (θ_run Cert.ReferenceIdeal.defs _ _).mono (fun _ h c => ⟨(h c).1.trans ?_, (h c).2⟩)
    (Cert.ReferenceIdeal.Value.run (F := Ideal) m' ρ')
  obtain ⟨hx, hγ, hβ⟩ := Cert.RefSide.finite_of_pre _ _ _ _ (hpre c)
  rw [Cert.ReferenceIdeal.Read.val_main_v34_eq, (hagree c).1, (hagree c).2.1, (hagree c).2.2.1, (hagree c).2.2.2]
  funext i
  obtain ⟨r, j, rfl⟩ : ∃ (r : Fin 65536) (j : Fin 512), i = ix2 r j := ⟨i 0, i 1, eq_ix2 i⟩
  rw [Cert.RefSide.ref_value _ _ _ _ hx hγ hβ r j]
  exact (Cert.KernelIdeal.Fr.kernel_value m _ _ ki_half0 ki_half1
    (fun V c t => Cert.KernelIdeal.Fr.after0_2 V c t) (fun V c t => Cert.KernelIdeal.Fr.after1_5 V c t) c r j).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
